-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128x128 .f32) (main_arg8 : FVec F S128 .f32) (main_arg9 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 86
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S128x128, .bf16⟩
  | .hbm, ⟨44, _⟩ => ⟨S128x128, .f32⟩
  | .hbm, ⟨45, _⟩ => ⟨S128x128, .bf16⟩
  | .hbm, ⟨46, _⟩ => ⟨S1x128, .f32⟩
  | .hbm, ⟨47, _⟩ => ⟨S100000x128, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S128x128, .bf16⟩
  | .hbm, ⟨82, _⟩ => ⟨S128x128, .f32⟩
  | .hbm, ⟨83, _⟩ => ⟨S128x128, .bf16⟩
  | .hbm, ⟨84, _⟩ => ⟨S1x128, .f32⟩
  | .hbm, ⟨85, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S1x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S128x128, .bf16⟩
  | .local _ .vmem, ⟨26, _⟩ => ⟨S1x128, .f32⟩
  | .local _ .vmem, ⟨27, _⟩ => ⟨S128x128, .bf16⟩
  | .local _ .vmem, ⟨28, _⟩ => ⟨S2000x128, .f32⟩
  | .local _ .vmem, ⟨29, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  reduces_S2000x128_S128 : S2000x128.Reduces [0] S128
  bcast_S_S1x128 : S_.BroadcastsInDim S1x128 (![] : Fin 0 → Fin S1x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .bf16 = 32 ∨ (Rect.block (s := S128x128) S128x128.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v30) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 147
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S128x128, .f32⟩
  | 40 => ⟨S100000x128, .f32⟩
  | 41 => ⟨S1x128, .f32⟩
  | 42 => ⟨S100000x128, .f32⟩
  | 43 => ⟨S100000x128, .f32⟩
  | 44 => ⟨S128x128, .f32⟩
  | 45 => ⟨S100000x128, .f32⟩
  | 46 => ⟨S100000x128, .f32⟩
  | 47 => ⟨S100000x128, .f32⟩
  | 48 => ⟨S_, .f32⟩
  | 49 => ⟨S100000, .f32⟩
  | 50 => ⟨S100000x1, .f32⟩
  | 51 => ⟨S100000x1, .f32⟩
  | 52 => ⟨S_, .f32⟩
  | 53 => ⟨S100000x1, .f32⟩
  | 54 => ⟨S100000x1, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S100000x128, .f32⟩
  | 73 => ⟨S100000x128, .f32⟩
  | 74 => ⟨S100000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S1600000, .f32⟩
  | 106 => ⟨S_, .f32⟩
  | 107 => ⟨S100000, .f32⟩
  | 108 => ⟨S1600000x1, .i32⟩
  | 109 => ⟨S100000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S_, .f32⟩
  | 120 => ⟨S100000x128, .f32⟩
  | 121 => ⟨S1600000x1, .i32⟩
  | 122 => ⟨S100000x128, .f32⟩
  | 123 => ⟨S_, .f32⟩
  | 124 => ⟨S100000, .f32⟩
  | 125 => ⟨S100000, .f32⟩
  | 126 => ⟨S100000x1, .f32⟩
  | 127 => ⟨S100000x128, .f32⟩
  | _ => ⟨S100000x128, .f32⟩

abbrev hbmTy0_1 (i : Nat) : BufTy := match i % 128 with
  | 0 => ⟨S100000x128, .f32⟩
  | 1 => ⟨S128x128, .f32⟩
  | 2 => ⟨S100000x128, .f32⟩
  | 3 => ⟨S1x128, .f32⟩
  | 4 => ⟨S100000x128, .f32⟩
  | 5 => ⟨S100000x128, .f32⟩
  | 6 => ⟨S128x128, .f32⟩
  | 7 => ⟨S100000x128, .f32⟩
  | 8 => ⟨S100000x128, .f32⟩
  | 9 => ⟨S100000x128, .f32⟩
  | 10 => ⟨S_, .f32⟩
  | 11 => ⟨S100000, .f32⟩
  | 12 => ⟨S100000x1, .f32⟩
  | 13 => ⟨S100000x1, .f32⟩
  | 14 => ⟨S_, .f32⟩
  | 15 => ⟨S100000x1, .f32⟩
  | 16 => ⟨S100000x1, .f32⟩
  | 17 => ⟨S100000x128, .f32⟩
  | 18 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_cst : Ref sig .tc := ⟨.hbm, 57, rfl⟩
abbrev main_call1_v0 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_cst_1 : Ref sig .tc := ⟨.hbm, 76, rfl⟩
abbrev main_call2_v8 : Ref sig .tc := ⟨.hbm, 77, rfl⟩
abbrev main_call2_cst_2 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_cst_3 : Ref sig .tc := ⟨.hbm, 82, rfl⟩
abbrev main_call2_v12 : Ref sig .tc := ⟨.hbm, 83, rfl⟩
abbrev main_call2_cst_4 : Ref sig .tc := ⟨.hbm, 84, rfl⟩
abbrev main_call2_call0_v0 : Ref sig .tc := ⟨.hbm, 85, rfl⟩
abbrev main_call2_call0_v1 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_8 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_9 : Ref sig .tc := ⟨.hbm, 104, rfl⟩
abbrev main_v56 : Ref sig .tc := ⟨.hbm, 105, rfl⟩
abbrev main_cst_10 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_c_11 : Ref sig .tc := ⟨.hbm, 110, rfl⟩
abbrev main_v60 : Ref sig .tc := ⟨.hbm, 111, rfl⟩
abbrev main_v61 : Ref sig .tc := ⟨.hbm, 112, rfl⟩
abbrev main_c_12 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_13 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_14 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_call3_v0 : Ref sig .tc := ⟨.hbm, 137, rfl⟩
abbrev main_call3_cst : Ref sig .tc := ⟨.hbm, 138, rfl⟩
abbrev main_call3_v1 : Ref sig .tc := ⟨.hbm, 139, rfl⟩
abbrev main_call3_v2 : Ref sig .tc := ⟨.hbm, 140, rfl⟩
abbrev main_v83 : Ref sig .tc := ⟨.hbm, 141, rfl⟩
abbrev main_cst_15 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  reducesTo_S100000x128_S128_d0 : S100000x128.ReducesTo [0] S128
  bcast_S_S128 : S_.BroadcastsInDim S128 (![] : Fin 0 → Fin S128.rank)
  bcast_S_S1x128 : S_.BroadcastsInDim S1x128 (![] : Fin 0 → Fin S1x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel program's run with its result named.

  The program is seven segments: host operations, the first layer's region, the statistics region, host
  operations, the batch-norm region, host operations, the second layer's region. Every weakly fair execution
  terminates without a fault, and in the final state every unscoped buffer holds the last boundary's contents
  `W7`: the fold through the segments of the launch memory, a region's arrays at what its write-backs leave.
  Read at the result buffer this names the result array; read at an argument it gives the launch contents back.
-/
import proofs.«112482_j24842090840540_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument array as launched. -/
theorem run_named : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.KRun

end
-- ==== Proof.KTerm.lean ====
/-
  The host operations of the kernel program, as closed terms of the values they read.

  The edge list `a1` has the source nodes in row 0 and the destination nodes in row 1. The aggregator `agg a1 y`
  adds, into row `dst e` of a zero array, row `src e` of `y`, for every edge `e` (a scatter-add of a gather); it is
  never opened. The in-degree is the same scatter-add of ones; its clamp at one, inverted, multiplies the aggregate
  (the mean over in-neighbours). The weights are transposed and their format narrowed (the identity on extended
  reals); the biases, scales and shifts become rows [1,128]. Between the statistics region and the batch-norm
  region the two sums become the mean and the reciprocal deviation rsqrt(E[h²] − E[h]² + 1e-5).
-/
import proofs.«112482_j24842090840540_1_alg».proof.KernelIdeal
import Idealize.ShloMosaic.PureOps.Ideal

noncomputable section

namespace Cert.KernelIdeal.KTerm

open Idealize.ShloMosaic Cert.KernelIdeal
open Cert.KernelIdeal.Facts₀

variable [Facts₀]

/-! ## The index chain -/

/-- Row 0 of the edge list: the source node of every edge. -/
def src (a1 : (⟨S2x1600000, .i32⟩ : BufTy).Contents (Elt Ideal)) : (⟨S1600000, .i32⟩ : BufTy).Contents (Elt Ideal) :=
  shapeCast S1600000 (extractStridedSlice S1x1600000 ![0, 0] a1 slices_S2x1600000_S1x1600000_0_0) shapeCasts_S1x1600000_S1600000

/-- Row 1 of the edge list: the destination node of every edge. -/
def dst (a1 : (⟨S2x1600000, .i32⟩ : BufTy).Contents (Elt Ideal)) : (⟨S1600000, .i32⟩ : BufTy).Contents (Elt Ideal) :=
  shapeCast S1600000 (extractStridedSlice S1x1600000 ![1, 0] a1 slices_S2x1600000_S1x1600000_1_0) shapeCasts_S1x1600000_S1600000

/-- The destination nodes as a column of scatter indices. -/
def dstCol (d : (⟨S1600000, .i32⟩ : BufTy).Contents (Elt Ideal)) : (⟨S1600000x1, .i32⟩ : BufTy).Contents (Elt Ideal) :=
  broadcastInDim S1600000x1 ![0] bcast_S1600000_S1600000x1_0 d

/-- The source nodes with a negative index wrapped around by the node count. -/
def srcWrap (s : (⟨S1600000, .i32⟩ : BufTy).Contents (Elt Ideal)) : (⟨S1600000, .i32⟩ : BufTy).Contents (Elt Ideal) :=
  select (cmpi .slt s (broadcastInDim S1600000 ![] bcast_S_S1600000 (constantI S_ 32 0#32)))
    (addi s (broadcastInDim S1600000 ![] bcast_S_S1600000 (constantI S_ 32 100000#32)))
    s

/-- The wrapped source nodes as a column of gather indices. -/
def srcCol (s : (⟨S1600000, .i32⟩ : BufTy).Contents (Elt Ideal)) : (⟨S1600000x1, .i32⟩ : BufTy).Contents (Elt Ideal) :=
  broadcastInDim S1600000x1 ![0] bcast_S1600000_S1600000x1_0 (srcWrap s)

/-! ## The in-degree and the aggregator -/

/-- The in-degree of every node: ones scatter-added at the destination nodes into zeros. -/
def deg (d : (⟨S1600000, .i32⟩ : BufTy).Contents (Elt Ideal)) : (⟨S100000, .f32⟩ : BufTy).Contents (Elt Ideal) :=
  Host.scatterAdd (F := Ideal) (φ := .f32) scatter_S100000_S1600000x1_S1600000_n_0_0_1
    (broadcastInDim S100000 ![] bcast_S_S100000 (constant (F := Ideal) S_ .f32 0x00000000#32))
    (dstCol d)
    (broadcastInDim S1600000 ![] bcast_S_S1600000 (constant (F := Ideal) S_ .f32 0x3F800000#32))

/-- The in-degree clamped below at one. -/
def dmax (d : (⟨S1600000, .i32⟩ : BufTy).Contents (Elt Ideal)) : (⟨S100000, .f32⟩ : BufTy).Contents (Elt Ideal) :=
  maximumf (F := Ideal) (φ := .f32) (deg d) (broadcastInDim S100000 ![] bcast_S_S100000 (constant (F := Ideal) S_ .f32 0x3F800000#32))

/-- One over the clamped in-degree. -/
def dinv (d : (⟨S1600000, .i32⟩ : BufTy).Contents (Elt Ideal)) : (⟨S100000, .f32⟩ : BufTy).Contents (Elt Ideal) :=
  Host.divf (F := Ideal) (φ := .f32) (broadcastInDim S100000 ![] bcast_S_S100000 (constant (F := Ideal) S_ .f32 0x3F800000#32)) (dmax d)

/-- The aggregator over given source and destination nodes: the rows of `y` at the source nodes, scatter-added at the
    destination nodes into zeros. -/
def agg (s d : (⟨S1600000, .i32⟩ : BufTy).Contents (Elt Ideal)) (y : (⟨S100000x128, .f32⟩ : BufTy).Contents (Elt Ideal)) : (⟨S100000x128, .f32⟩ : BufTy).Contents (Elt Ideal) :=
  Host.scatterAdd (F := Ideal) (φ := .f32) scatter_S100000x128_S1600000x1_S1600000x128_1_0_0_1
    (broadcastInDim S100000x128 ![] bcast_S_S100000x128 (constant (F := Ideal) S_ .f32 0x00000000#32))
    (dstCol d)
    (Host.gather gather_S100000x128_S1600000x1_S1600000x128_1_0_n_n_0_1_1128 y (srcCol s))

/-- The mean over in-neighbours, the kernel's way: the aggregate times the reciprocal column repeated along the
    feature axis. -/
def meanK (s d : (⟨S1600000, .i32⟩ : BufTy).Contents (Elt Ideal)) (dinvCol : (⟨S100000x1, .f32⟩ : BufTy).Contents (Elt Ideal)) (y : (⟨S100000x128, .f32⟩ : BufTy).Contents (Elt Ideal)) : (⟨S100000x128, .f32⟩ : BufTy).Contents (Elt Ideal) :=
  mulf (F := Ideal) (φ := .f32) (agg s d y) (broadcastInDim S100000x128 ![0, 1] bcast_S100000x1_S100000x128_0_1 dinvCol)

/-- A weight matrix transposed, its format narrowed. -/
def wT (w : (⟨S128x128, .f32⟩ : BufTy).Contents (Elt Ideal)) : (⟨S128x128, .bf16⟩ : BufTy).Contents (Elt Ideal) :=
  truncf (F := Ideal) .bf16 (transpose S128x128 [1, 0] w transposes_S128x128_S128x128_1_0) bitsLt_bf16_f32

/-! ## Between the statistics and the batch norm -/

/-- The batch mean row: the sums divided by the node count. -/
def muRow (s : (⟨S1x128, .f32⟩ : BufTy).Contents (Elt Ideal)) : (⟨S1x128, .f32⟩ : BufTy).Contents (Elt Ideal) :=
  Host.divf (F := Ideal) (φ := .f32) s (broadcastInDim S1x128 ![] bcast_S_S1x128 (constant (F := Ideal) S_ .f32 0x47C35000#32))

/-- The reciprocal deviation row: rsqrt (E[h²] − E[h]² + 1e-5). -/
def istdRow (s ss : (⟨S1x128, .f32⟩ : BufTy).Contents (Elt Ideal)) : (⟨S1x128, .f32⟩ : BufTy).Contents (Elt Ideal) :=
  Host.rsqrt (F := Ideal) (φ := .f32)
    (addf (F := Ideal) (φ := .f32)
      (subf (F := Ideal) (φ := .f32) (muRow ss) (mulf (F := Ideal) (φ := .f32) (muRow s) (muRow s)))
      (broadcastInDim S1x128 ![] bcast_S_S1x128 (constant (F := Ideal) S_ .f32 0x3727C5AC#32)))

end Cert.KernelIdeal.KTerm

end
-- ==== Proof.KHostA.lean ====
/-
  The host side of the kernel program between its regions.

  The contents of every buffer at each of the seven segment boundaries are a fold from the launch memory. This
  module reads that fold where the regions need it: what the first stretch of host operations leaves in the
  buffers the first layer's region reads (the mean over in-neighbours, the narrowed transposed weights, the bias
  row), what the second stretch makes of the two sums (mean row, reciprocal deviation row, scale and shift rows),
  what the third stretch leaves for the second layer's region; and that a buffer no later segment writes keeps,
  at every later boundary, what the segment that wrote it left.
-/
import proofs.«112482_j24842090840540_1_alg».proof.Proof.Gen.KernelIdeal.Frame
import proofs.«112482_j24842090840540_1_alg».proof.Proof.KTerm
import Idealize.ShloMosaic.Lib.StableHlo.Run

set_option maxRecDepth 16384

noncomputable section

namespace Cert.KernelIdeal.KHost

open Idealize.ShloMosaic Idealize.ShloMosaic.TcCoe Idealize.ShloMosaic.StableHlo
open Cert.KernelIdeal Cert.KernelIdeal.Gen

variable (m : (ℓ : Loc nD τ sig) → Buf (Elt Ideal) ℓ) (ρ : Dev nD → PrngReg)

-- the scatter-add and the gather are carried as opaque functions: nothing below opens them
attribute [local irreducible] Host.gather Host.scatterAdd

/-! ## The first stretch: from the launch memory -/

theorem W1_v1 (c : Dev nD) : W1 m ρ c (Proc.devRef .tc main_v1) = KTerm.src (m ((c : Thread nD τ).loc main_arg1)) := by
  show StableHlo.after hostOps0 (W0 m ρ c) (Proc.devRef .tc main_v1) = _
  after_results; rfl

theorem W1_v3 (c : Dev nD) : W1 m ρ c (Proc.devRef .tc main_v3) = KTerm.dst (m ((c : Thread nD τ).loc main_arg1)) := by
  show StableHlo.after hostOps0 (W0 m ρ c) (Proc.devRef .tc main_v3) = _
  after_results; rfl

/-- The reciprocal clamped in-degree, as a column. -/
theorem W1_v12 (c : Dev nD) : W1 m ρ c (Proc.devRef .tc main_v12)
    = shapeCast S100000x1 (KTerm.dinv (KTerm.dst (m ((c : Thread nD τ).loc main_arg1)))) Facts₀.shapeCasts_S100000_S100000x1 := by
  show StableHlo.after hostOps0 (W0 m ρ c) (Proc.devRef .tc main_v12) = _
  after_results; rfl

set_option maxRecDepth 8192 in
set_option maxHeartbeats 4000000 in
/-- The mean over in-neighbours of the input features. -/
theorem W1_v24 (c : Dev nD) : W1 m ρ c (Proc.devRef .tc main_v24)
    = KTerm.meanK (KTerm.src (m ((c : Thread nD τ).loc main_arg1))) (KTerm.dst (m ((c : Thread nD τ).loc main_arg1)))
        (shapeCast S100000x1 (KTerm.dinv (KTerm.dst (m ((c : Thread nD τ).loc main_arg1)))) Facts₀.shapeCasts_S100000_S100000x1) (m ((c : Thread nD τ).loc main_arg0)) := by
  show StableHlo.after hostOps0 (W0 m ρ c) (Proc.devRef .tc main_v24) = _
  after_results_simp
  simp only [KTerm.meanK, KTerm.agg, KTerm.dinv, KTerm.dmax, KTerm.deg, KTerm.dstCol, KTerm.srcCol, KTerm.srcWrap, KTerm.src, KTerm.dst]
  rfl

theorem W1_v26 (c : Dev nD) : W1 m ρ c (Proc.devRef .tc main_v26) = KTerm.wT (m ((c : Thread nD τ).loc main_arg2)) := by
  show StableHlo.after hostOps0 (W0 m ρ c) (Proc.devRef .tc main_v26) = _
  after_results; rfl

theorem W1_v28 (c : Dev nD) : W1 m ρ c (Proc.devRef .tc main_v28) = KTerm.wT (m ((c : Thread nD τ).loc main_arg4)) := by
  show StableHlo.after hostOps0 (W0 m ρ c) (Proc.devRef .tc main_v28) = _
  after_results; rfl

theorem W1_v29 (c : Dev nD) : W1 m ρ c (Proc.devRef .tc main_v29) = shapeCast S1x128 (m ((c : Thread nD τ).loc main_arg3)) Facts₀.shapeCasts_S128_S1x128 := by
  show StableHlo.after hostOps0 (W0 m ρ c) (Proc.devRef .tc main_v29) = _
  after_results; rfl

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans rfl

/-! ## Buffers that later segments leave alone -/

/-- `main_v1` is written by the first host stretch only: every later boundary holds what the first one left. -/
theorem W5_v1 (c : Dev nD) : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := StableHlo.after_of_forall_not_mem (b := Proc.devRef .tc main_v1) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W2 m ρ c (Proc.devRef .tc main_v1) := W3_of_ne m ρ c main_v1 (by decide)
    _ = W1 m ρ c (Proc.devRef .tc main_v1) := W2_of_ne m ρ c main_v1 (by decide)

/-- `main_v3` is written by the first host stretch only: every later boundary holds what the first one left. -/
theorem W5_v3 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := StableHlo.after_of_forall_not_mem (b := Proc.devRef .tc main_v3) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W2 m ρ c (Proc.devRef .tc main_v3) := W3_of_ne m ρ c main_v3 (by decide)
    _ = W1 m ρ c (Proc.devRef .tc main_v3) := W2_of_ne m ρ c main_v3 (by decide)

/-- `main_v12` is written by the first host stretch only: every later boundary holds what the first one left. -/
theorem W5_v12 (c : Dev nD) : W5 m ρ c (Proc.devRef .tc main_v12) = W1 m ρ c (Proc.devRef .tc main_v12) :=
  calc W5 m ρ c (Proc.devRef .tc main_v12)
    _ = W4 m ρ c (Proc.devRef .tc main_v12) := W5_of_ne m ρ c main_v12 (by decide)
    _ = W3 m ρ c (Proc.devRef .tc main_v12) := StableHlo.after_of_forall_not_mem (b := Proc.devRef .tc main_v12) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W2 m ρ c (Proc.devRef .tc main_v12) := W3_of_ne m ρ c main_v12 (by decide)
    _ = W1 m ρ c (Proc.devRef .tc main_v12) := W2_of_ne m ρ c main_v12 (by decide)

/-- No host operation and no region writes `main_arg7`: the boundary before the last stretch holds the launch contents. -/
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

/-- No host operation and no region writes `main_arg8`: the boundary before the last stretch holds the launch contents. -/
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

/-- No host operation and no region writes `main_arg9`: the boundary before the last stretch holds the launch contents. -/
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl

/-- No host operation and no region writes `main_arg5`: the boundary after the statistics region holds the launch contents. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-- No host operation and no region writes `main_arg6`: the boundary after the statistics region holds the launch contents. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

/-! ## The second stretch: from the statistics region's exit -/

theorem W4_v33 (c : Dev nD) : W4 m ρ c (Proc.devRef .tc main_v33) = KTerm.muRow (W3 m ρ c (Proc.devRef .tc main_v31_0)) := by
  show StableHlo.after hostOps2 (W3 m ρ c) (Proc.devRef .tc main_v33) = _
  after_results; rfl

theorem W4_v40 (c : Dev nD) : W4 m ρ c (Proc.devRef .tc main_v40)
    = KTerm.istdRow (W3 m ρ c (Proc.devRef .tc main_v31_0)) (W3 m ρ c (Proc.devRef .tc main_v31_1)) := by
  show StableHlo.after hostOps2 (W3 m ρ c) (Proc.devRef .tc main_v40) = _
  after_results; rfl

theorem W4_v41 (c : Dev nD) : W4 m ρ c (Proc.devRef .tc main_v41) = shapeCast S1x128 (m ((c : Thread nD τ).loc main_arg5)) Facts₀.shapeCasts_S128_S1x128 := by
  show StableHlo.after hostOps2 (W3 m ρ c) (Proc.devRef .tc main_v41) = _
  after_results
  rw [W3_main_arg5 m ρ c]; rfl

theorem W4_v42 (c : Dev nD) : W4 m ρ c (Proc.devRef .tc main_v42) = shapeCast S1x128 (m ((c : Thread nD τ).loc main_arg6)) Facts₀.shapeCasts_S128_S1x128 := by
  show StableHlo.after hostOps2 (W3 m ρ c) (Proc.devRef .tc main_v42) = _
  after_results
  rw [W3_main_arg6 m ρ c]; rfl

/-- The first layer's output is not touched by the second stretch. -/
theorem W4_v30 (c : Dev nD) : W4 m ρ c (Proc.devRef .tc main_v30) = W3 m ρ c (Proc.devRef .tc main_v30) :=
  StableHlo.after_of_forall_not_mem (b := Proc.devRef .tc main_v30) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

/-! ## The third stretch: from the batch-norm region's exit -/

set_option maxRecDepth 8192 in
set_option maxHeartbeats 4000000 in
/-- The mean over in-neighbours of the batch-normalised first layer. -/
theorem W6_v55 (c : Dev nD) : W6 m ρ c (Proc.devRef .tc main_v55)
    = KTerm.meanK (W5 m ρ c (Proc.devRef .tc main_v1)) (W5 m ρ c (Proc.devRef .tc main_v3)) (W5 m ρ c (Proc.devRef .tc main_v12))
        (W5 m ρ c (Proc.devRef .tc main_v43)) := by
  show StableHlo.after hostOps3 (W5 m ρ c) (Proc.devRef .tc main_v55) = _
  after_results_simp
  simp only [KTerm.meanK, KTerm.agg, KTerm.dstCol, KTerm.srcCol, KTerm.srcWrap]

theorem W6_v57 (c : Dev nD) : W6 m ρ c (Proc.devRef .tc main_v57) = KTerm.wT (m ((c : Thread nD τ).loc main_arg7)) := by
  show StableHlo.after hostOps3 (W5 m ρ c) (Proc.devRef .tc main_v57) = _
  after_results
  rw [W5_main_arg7 m ρ c]; rfl

theorem W6_v59 (c : Dev nD) : W6 m ρ c (Proc.devRef .tc main_v59) = KTerm.wT (m ((c : Thread nD τ).loc main_arg9)) := by
  show StableHlo.after hostOps3 (W5 m ρ c) (Proc.devRef .tc main_v59) = _
  after_results
  rw [W5_main_arg9 m ρ c]; rfl

theorem W6_v60 (c : Dev nD) : W6 m ρ c (Proc.devRef .tc main_v60) = shapeCast S1x128 (m ((c : Thread nD τ).loc main_arg8)) Facts₀.shapeCasts_S128_S1x128 := by
  show StableHlo.after hostOps3 (W5 m ρ c) (Proc.devRef .tc main_v60) = _
  after_results
  rw [W5_main_arg8 m ρ c]; rfl

/-- The batch-normalised first layer is not touched by the third stretch. -/
theorem W6_v43 (c : Dev nD) : W6 m ρ c (Proc.devRef .tc main_v43) = W5 m ρ c (Proc.devRef .tc main_v43) :=
  StableHlo.after_of_forall_not_mem (b := Proc.devRef .tc main_v43) _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

end Cert.KernelIdeal.KHost

end
-- ==== Proof.LibColumnForms.lean ====
/-
  Two keepdims COLUMN forms read at an index given by coordinates: a vector `[a]` viewed as a column `[a, 1]`
  (and back), and a column `[a, 1]` copied along every one of `b` columns (`[a, 1] → [a, b]`). A row-wise
  reduction kept as a column (a row's sum, norm or maximum, later divided into or subtracted from the whole row)
  is read through exactly these: entry `(i, 0)` of the column is entry `i` of the vector, and entry `(p, c)` of the
  broadcast is entry `(p, 0)` of the column.
-/
import Idealize.ShloMosaic.Lib.ValueIdx
import Idealize.ShloMosaic.Lib.ValueLayout
import Idealize.ShloMosaic.Lib.Pipeline.Value

namespace Idealize.ShloMosaic.ValueIdx

open Idealize.ShloMosaic

variable {α : Type}

/-- An `[a]` array cast to the column `[a, 1]` reads, at `(i, u)`, the operand at `i`, whatever the unit coordinate `u`:
    both positions in row-major order are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`: the row coordinate is
    kept (or is `0` when `a = 1`, where `p` is `0` too) and the unit axis reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payloads.lean ====
/-
  The arithmetic of each kernel body, read at one entry of the block it stores.

  Every body stores one pure function of the blocks it loads. At the exact (extended-real) reading each such
  function is read here at an explicit entry (p, k) of a 2000 × 128 block (p a row, k a column), or at entry (0, k)
  of a 1 × 128 row:
  • the two normalising layers: with lin(p, k) = (∑ⱼ x(p, j) · W₁(j, k)) + b(0, k) + ∑ⱼ a(p, j) · W₂(j, k) — a change of
    float format is the identity, and a product into a zero accumulator is just the sum of products — the stored
    entry is lin(p, k) divided by max(√(∑ⱼ lin(p, j)²), ε), the first layer's also clamped below at 0;
  • the statistics pass: a row of zeros at the first block, then the running column sums s(0, k) + ∑_q h(q, k) and
    the running column sums of squares t(0, k) + ∑_q h(q, k)²;
  • the batch-norm pass: (h(p, k) − m(0, k)) · r(0, k) · g(0, k) + c(0, k).
  The reductions' neutral element 0 and the zero accumulators are removed.
-/
import proofs.«112482_j24842090840540_1_alg».proof.Proof.Gen.KernelIdeal.Skeleton
import proofs.«112482_j24842090840540_1_alg».proof.Proof.LibColumnForms
import Idealize.ShloMosaic.PureOps.Ideal.Laws
import Idealize.ShloMosaic.Lib.ValueIdx
import Idealize.ShloMosaic.Lib.ValueLayout
import Idealize.ShloMosaic.Lib.Pipeline.Value

open scoped BigOperators
noncomputable section
namespace Cert.KernelIdeal.Payloads
open Idealize.ShloMosaic Idealize.ShloMosaic.ValueIdx Cert.KernelIdeal Cert.KernelIdeal.Gen

/-! ## The two sums of a 2000 × 128 block -/

/-- The sum over the 2000 rows of a block, read at column `k`: the sum of that column's entries. -/
theorem colSum_apply (src : FVec Ideal S2000x128 .f32) (hacc : (0x00000000#32 : BitVec 32) = 0x00000000#32) (k : Fin 128) :
    multiReduction .add [0] S128 src 0x00000000#32 reduces_S2000x128_S128 (.inl rfl) hacc (ix1 k)
      = ∑ q : Fin 2000, src (ix2 q k) := by
  refine (Ideal.multiReduction_add_single src 0x00000000#32 reduces_S2000x128_S128 (.inl rfl) hacc (ix1 k)).trans ?_
  refine Finset.sum_congr rfl fun q _ => congrArg src ?_
  funext a
  match a with
  | ⟨0, _⟩ => rfl
  | ⟨1, _⟩ => rfl

/-- The sum along the 128 entries of each row of a block, read at row `p`: the sum of that row's entries. -/
theorem rowSum_apply (src : FVec Ideal S2000x128 .f32) (hacc : (0x00000000#32 : BitVec 32) = 0x00000000#32) (p : Fin 2000) :
    multiReduction .add [1] S2000 src 0x00000000#32 reduces_S2000x128_S2000 (.inl rfl) hacc (ix1 p)
      = ∑ j : Fin 128, src (ix2 p j) := by
  refine (Ideal.multiReduction_add_single src 0x00000000#32 reduces_S2000x128_S2000 (.inl rfl) hacc (ix1 p)).trans ?_
  refine Finset.sum_congr rfl fun j _ => congrArg src ?_
  funext a
  match a with
  | ⟨0, _⟩ => rfl
  | ⟨1, _⟩ => rfl

/-! ## A block product into a zero accumulator -/

/-- The one contraction of the kernel bodies: [2000, 128] × [128, 128] → [2000, 128], the left operand's columns
    against the right operand's rows. -/
abbrev D := dot_S2000x128_S128x128_S2000x128_1_0_0_1_n_n

/-- The left operand is read at the output's row … -/
theorem lhs_0 (i : S2000x128.Idx) (q : D.contr.Idx) : (D.lhsIdx i q 0).val = (i 0).val := by
  unfold DotDims.lhsIdx
  rw [dif_neg (show ¬(0 : Fin S2000x128.rank) ∈ D.lhsBatch by decide),
    dif_pos (show (0 : Fin S2000x128.rank) ∈ D.lhsNonContracting by decide)]
  rfl
/-- … and the contraction coordinate as its column; -/
theorem lhs_1 (i : S2000x128.Idx) (q : D.contr.Idx) : (D.lhsIdx i q 1).val = (q ⟨0, by decide⟩).val :=
  D.lhsIdx_val_of_single rfl i q
/-- the right operand at the contraction coordinate as its row … -/
theorem rhs_0 (i : S2000x128.Idx) (q : D.contr.Idx) : (D.rhsIdx i q 0).val = (q ⟨0, by decide⟩).val :=
  D.rhsIdx_val_of_single rfl i q
/-- … and the output's column. -/
theorem rhs_1 (i : S2000x128.Idx) (q : D.contr.Idx) : (D.rhsIdx i q 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- A block product accumulated into zeros, read at `(p, k)`: the sum over `j` of row `p` of the left operand times
    column `k` of the right one. The contraction's one-axis index set is re-indexed by its coordinate. -/
theorem matmul_zero_apply (lhs : FVec Ideal S2000x128 .bf16) (rhs : FVec Ideal S128x128 .bf16) (p : Fin 2000) (k : Fin 128) :
    matmul D none lhs rhs (constant (F := Ideal) S2000x128 .f32 0x00000000#32) (ix2 p k)
      = ∑ j : Fin 128, lhs (ix2 p j) * rhs (ix2 j k) := by
  refine (Ideal.matmul_constant_zero_apply D none lhs rhs (ix2 p k)).trans ?_
  rw [← Equiv.sum_comp (contrEquiv1 D 128 rfl rfl).symm]
  refine Finset.sum_congr rfl fun j _ => ?_
  have hk := contrEquiv1_symm_val D 128 rfl rfl j
  have el : D.lhsIdx (ix2 p k) ((contrEquiv1 D 128 rfl rfl).symm j) = ix2 p j := funext fun a => Fin.ext (by
    match a with
    | ⟨0, _⟩ => exact lhs_0 _ _
    | ⟨1, _⟩ => exact (lhs_1 _ _).trans hk)
  have er : D.rhsIdx (ix2 p k) ((contrEquiv1 D 128 rfl rfl).symm j) = ix2 j k := funext fun a => Fin.ext (by
    match a with
    | ⟨0, _⟩ => exact (rhs_0 _ _).trans hk
    | ⟨1, _⟩ => exact rhs_1 _ _)
  rw [el, er]

/-! ## The statistics pass -/

/-- At the first block the running column sums start from a row of zeros. -/
theorem k1_pay1_apply (k : Fin 128) : k1_pay1 (F := Ideal) (ix2 (0 : Fin 1) k) = 0 := by
  unfold k1_pay1
  exact Ideal.ofBits_zero_f32

/-- So do the running column sums of squares. -/
theorem k1_pay2_apply (k : Fin 128) : k1_pay2 (F := Ideal) (ix2 (0 : Fin 1) k) = 0 := by
  unfold k1_pay2
  exact Ideal.ofBits_zero_f32

/-- A block adds its column sums to the running column sums. -/
theorem k1_pay4_apply (v3 : Vec Ideal S2000x128 .f32) (v5 : Vec Ideal S1x128 .f32) (k : Fin 128) :
    k1_pay4 (F := Ideal) v3 v5 (ix2 (0 : Fin 1) k) = v5 (ix2 (0 : Fin 1) k) + ∑ q : Fin 2000, v3 (ix2 q k) := by
  unfold k1_pay4 k1_pay3
  simp only [shapeCast_self]
  refine congrArg (v5 (ix2 (0 : Fin 1) k) + ·) ?_
  refine (shapeCast_a_1a_apply _ shapeCasts_S128_S1x128 (0 : Fin 1) k).trans ?_
  exact colSum_apply v3 rfl k

/-- A block adds the column sums of its squared entries to the running column sums of squares. -/
theorem k1_pay5_apply (v3 : Vec Ideal S2000x128 .f32) (v11 : Vec Ideal S1x128 .f32) (k : Fin 128) :
    k1_pay5 (F := Ideal) v3 v11 (ix2 (0 : Fin 1) k)
      = v11 (ix2 (0 : Fin 1) k) + ∑ q : Fin 2000, v3 (ix2 q k) * v3 (ix2 q k) := by
  unfold k1_pay5 k1_pay3
  simp only [shapeCast_self]
  refine congrArg (v11 (ix2 (0 : Fin 1) k) + ·) ?_
  refine (shapeCast_a_1a_apply _ shapeCasts_S128_S1x128 (0 : Fin 1) k).trans ?_
  exact colSum_apply (mulf v3 v3) rfl k

/-! ## The batch-norm pass -/

/-- Each entry has its column's mean subtracted, is scaled by the column's reciprocal deviation and its gain, and has
    the column's offset added; the four per-column rows are copied along the 2000 rows. -/
theorem k2_pay1_apply (v0 : Vec Ideal S2000x128 .f32) (v2 v6 v10 v14 : Vec Ideal S1x128 .f32) (p : Fin 2000) (k : Fin 128) :
    k2_pay1 (F := Ideal) v0 v2 v6 v10 v14 (ix2 p k)
      = (v0 (ix2 p k) - v2 (ix2 (0 : Fin 1) k)) * v6 (ix2 (0 : Fin 1) k) * v10 (ix2 (0 : Fin 1) k)
          + v14 (ix2 (0 : Fin 1) k) := by
  unfold k2_pay1
  simp only [shapeCast_self]
  simp only [addf_apply, mulf_apply, subf_apply, broadcastTo_1b_ab_apply]

/-! ## The two normalising layers -/

/-- The linear part of a layer at entry `(p, k)`: row `p` of the first input against column `k` of the first weight,
    plus the bias of column `k`, plus row `p` of the second input against column `k` of the second weight. -/
def lin0 (v0 v3 : Vec Ideal S2000x128 .f32) (v5 : Vec Ideal S128x128 .bf16) (v8 : Vec Ideal S1x128 .f32)
    (v12 : Vec Ideal S128x128 .bf16) (p : Fin 2000) (k : Fin 128) : EReal :=
  ((∑ j : Fin 128, v0 (ix2 p j) * v5 (ix2 j k)) + v8 (ix2 (0 : Fin 1) k)) + ∑ j : Fin 128, v3 (ix2 p j) * v12 (ix2 j k)

/-- The linear part as a whole block, as the bodies compute it: two products into zero accumulators (their operands
    narrowed to the products' format, which changes nothing at the exact reading), the bias row copied along the rows. -/
def linVec (v0 v3 : Vec Ideal S2000x128 .f32) (v5 : Vec Ideal S128x128 .bf16) (v8 : Vec Ideal S1x128 .f32)
    (v12 : Vec Ideal S128x128 .bf16) : FVec Ideal S2000x128 .f32 :=
  addf
    (addf (matmul (φ₂ := .bf16) D none (truncf .bf16 v0 bitsLt_bf16_f32) v5 (constant (F := Ideal) S2000x128 .f32 0x00000000#32))
      (broadcastTo S2000x128 v8 broadcasts_S1x128_S2000x128))
    (matmul (φ₂ := .bf16) D none (truncf .bf16 v3 bitsLt_bf16_f32) v12 (constant (F := Ideal) S2000x128 .f32 0x00000000#32))

/-- The block of linear parts, read at an entry. -/
theorem linVec_apply (v0 v3 : Vec Ideal S2000x128 .f32) (v5 : Vec Ideal S128x128 .bf16) (v8 : Vec Ideal S1x128 .f32)
    (v12 : Vec Ideal S128x128 .bf16) (p : Fin 2000) (k : Fin 128) :
    linVec v0 v3 v5 v8 v12 (ix2 p k) = lin0 v0 v3 v5 v8 v12 p k := by
  unfold linVec lin0
  rw [addf_apply, addf_apply, matmul_zero_apply, matmul_zero_apply, broadcastTo_1b_ab_apply]
  rfl

/-- A block with every row divided by the larger of its Euclidean norm and the floor ε = 0x2B8CBCCC (about 1e-12), as the
    bodies compute it: the squares summed along each row, kept as a column, rooted, floored, copied along the row. -/
def rowNormalize (V : FVec Ideal S2000x128 .f32) : FVec Ideal S2000x128 .f32 :=
  divf V
    (broadcastTo S2000x128
      (maximumf
        (sqrt (shapeCast S2000x1
          (multiReduction .add [1] S2000 (mulf V V) 0x00000000#32 reduces_S2000x128_S2000 (.inl rfl) rfl)
          shapeCasts_S2000_S2000x1))
        (broadcast S2000x1 (Scalar.ofBits .f32 0x2B8CBCCC#32)))
      broadcasts_S2000x1_S2000x128)

/-- The row-normalised block, read at an entry: the entry over the larger of its row's norm and ε. -/
theorem rowNormalize_apply (V : FVec Ideal S2000x128 .f32) (p : Fin 2000) (k : Fin 128) :
    rowNormalize V (ix2 p k)
      = Ideal.div (V (ix2 p k))
          (max (Ideal.sqrt (∑ j : Fin 128, V (ix2 p j) * V (ix2 p j))) (Ideal.ofBits .f32 0x2B8CBCCC#32)) := by
  unfold rowNormalize
  refine (divf_apply _ _ _).trans (congrArg (Ideal.div (V (ix2 p k))) ?_)
  refine (broadcastTo_a1_ab_apply _ broadcasts_S2000x1_S2000x128 p k).trans ?_
  refine (maximumf_apply _ _ _).trans ?_
  refine congrArg (fun z => max (Ideal.sqrt z) (Ideal.ofBits .f32 0x2B8CBCCC#32)) ?_
  refine (shapeCast_a_a1_apply _ shapeCasts_S2000_S2000x1 p (0 : Fin 1)).trans ?_
  exact rowSum_apply (mulf V V) rfl p

/-- The first layer's body is the row-normalised linear part, clamped below at zero. -/
theorem k0_pay1_eq (v0 v3 : Vec Ideal S2000x128 .f32) (v5 : Vec Ideal S128x128 .bf16) (v8 : Vec Ideal S1x128 .f32)
    (v12 : Vec Ideal S128x128 .bf16) :
    k0_pay1 (F := Ideal) v0 v3 v5 v8 v12
      = maximumf (rowNormalize (linVec v0 v3 v5 v8 v12)) (broadcast S2000x128 (Scalar.ofBits .f32 0x00000000#32)) := by
  unfold k0_pay1
  simp only [shapeCast_self]
  rfl

/-- The first layer's stored entry. -/
theorem k0_pay1_apply (v0 v3 : Vec Ideal S2000x128 .f32) (v5 : Vec Ideal S128x128 .bf16) (v8 : Vec Ideal S1x128 .f32)
    (v12 : Vec Ideal S128x128 .bf16) (p : Fin 2000) (k : Fin 128) :
    k0_pay1 (F := Ideal) v0 v3 v5 v8 v12 (ix2 p k)
      = max (Ideal.div (lin0 v0 v3 v5 v8 v12 p k)
              (max (Ideal.sqrt (∑ j : Fin 128, lin0 v0 v3 v5 v8 v12 p j * lin0 v0 v3 v5 v8 v12 p j))
                (Ideal.ofBits .f32 0x2B8CBCCC#32))) 0 := by
  rw [k0_pay1_eq, maximumf_apply, rowNormalize_apply, broadcast_apply]
  simp only [linVec_apply]
  exact congrArg (max _) Ideal.ofBits_zero_f32

/-- The second layer's body is the row-normalised linear part. -/
theorem k3_pay1_eq (v0 v3 : Vec Ideal S2000x128 .f32) (v6 : Vec Ideal S128x128 .bf16) (v9 : Vec Ideal S1x128 .f32)
    (v13 : Vec Ideal S128x128 .bf16) :
    k3_pay1 (F := Ideal) v0 v3 v6 v9 v13 = rowNormalize (linVec v0 v3 v6 v9 v13) := by
  unfold k3_pay1
  simp only [shapeCast_self]
  rfl

/-- The second layer's stored entry. -/
theorem k3_pay1_apply (v0 v3 : Vec Ideal S2000x128 .f32) (v6 : Vec Ideal S128x128 .bf16) (v9 : Vec Ideal S1x128 .f32)
    (v13 : Vec Ideal S128x128 .bf16) (p : Fin 2000) (k : Fin 128) :
    k3_pay1 (F := Ideal) v0 v3 v6 v9 v13 (ix2 p k)
      = Ideal.div (lin0 v0 v3 v6 v9 v13 p k)
          (max (Ideal.sqrt (∑ j : Fin 128, lin0 v0 v3 v6 v9 v13 p j * lin0 v0 v3 v6 v9 v13 p j))
            (Ideal.ofBits .f32 0x2B8CBCCC#32)) := by
  rw [k3_pay1_eq, rowNormalize_apply]
  simp only [linVec_apply]

end Cert.KernelIdeal.Payloads
end
-- ==== Proof.KLayer0.lean ====
/-
  The first layer's region of the kernel program: what its output array ends holding.

  The region visits the 50 row blocks of 2000 rows. At block `t` the body reads rows 2000·t … 2000·t + 1999 of the
  two feature arrays (the aggregated means and the node features), the two 128 × 128 weight matrices and the bias
  row (each one whole block, the same at every point), and writes to the same rows of the output, at row p and
  column k, the linear part lin(p, k) divided by the larger of its row's Euclidean norm and ε, clamped below at 0.
  An entry of the output thus depends only on its own row of the two feature arrays, on the weights and on the
  bias. The blocks tile the output, so the output array is that function of the arrays the region finds, index by
  index.
-/
import proofs.«112482_j24842090840540_1_alg».proof.Proof.Gen.KernelIdeal.Frame
import Idealize.ShloMosaic.Lib.Pipeline.Value
import Idealize.ShloMosaic.Lib.ValueIdx
import proofs.«112482_j24842090840540_1_alg».proof.Proof.Payloads
set_option maxRecDepth 16384

noncomputable section

open scoped BigOperators

namespace Cert.KernelIdeal.KLayer0

open Idealize.ShloMosaic Idealize.ShloMosaic.TcCoe Idealize.ShloMosaic.ValueIdx
open Idealize.ShloMosaic.Pipeline (Dat Cfg Window)
open Cert.KernelIdeal Cert.KernelIdeal.Gen Cert.KernelIdeal.Payloads

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature arrays' rows and the output's rows move with the point,
    2000 rows a block; the two weight matrices and the bias row stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A row of the point's block of the first feature array is row 2000·t + p of the array. -/
theorem iblk_0_apply (c : Dev nD) (t : Fin cfg0.N) (p : Fin 2000) (k : Fin 128) (hr : 2000 * t.val + p.val < 100000) :
    iblk0 V c 0 t (ix2 p k) = V c (Pipeline.arrRef spec0 0) (ix2 (⟨2000 * t.val + p.val, hr⟩ : Fin 100000) k) := by
  have e := idx_facts t
  unfold iblk0
  rw [View.read_apply]
  show V c (Pipeline.arrRef spec0 0) (((cfg0.win 0).blk t).view.emb (ix2 p k)) = _
  refine congrArg (V c (Pipeline.arrRef spec0 0)) ?_
  funext a; apply Fin.ext
  match a with
  | ⟨0, _⟩ => show win0_0.index t (0 : Fin 2) * 2000 + 1 * p.val = 2000 * t.val + p.val; omega
  | ⟨1, _⟩ => show win0_0.index t (1 : Fin 2) * 128 + 1 * k.val = k.val; omega

/-- The same for the second feature array. -/
theorem iblk_1_apply (c : Dev nD) (t : Fin cfg0.N) (p : Fin 2000) (k : Fin 128) (hr : 2000 * t.val + p.val < 100000) :
    iblk0 V c 1 t (ix2 p k) = V c (Pipeline.arrRef spec0 1) (ix2 (⟨2000 * t.val + p.val, hr⟩ : Fin 100000) k) := by
  have e := idx_facts t
  unfold iblk0
  rw [View.read_apply]
  show V c (Pipeline.arrRef spec0 1) (((cfg0.win 1).blk t).view.emb (ix2 p k)) = _
  refine congrArg (V c (Pipeline.arrRef spec0 1)) ?_
  funext a; apply Fin.ext
  match a with
  | ⟨0, _⟩ => show win0_1.index t (0 : Fin 2) * 2000 + 1 * p.val = 2000 * t.val + p.val; omega
  | ⟨1, _⟩ => show win0_1.index t (1 : Fin 2) * 128 + 1 * k.val = k.val; omega

/-- The first weight matrix is one whole block: entry (j, k) of the block is entry (j, k) of the array. -/
theorem iblk_2_apply (c : Dev nD) (t : Fin cfg0.N) (j k : Fin 128) :
    iblk0 V c 2 t (ix2 j k) = V c (Pipeline.arrRef spec0 2) (ix2 j k) := by
  have e := idx_facts t
  unfold iblk0
  rw [View.read_apply]
  show V c (Pipeline.arrRef spec0 2) (((cfg0.win 2).blk t).view.emb (ix2 j k)) = _
  refine congrArg (V c (Pipeline.arrRef spec0 2)) ?_
  funext a; apply Fin.ext
  match a with
  | ⟨0, _⟩ => show win0_2.index t (0 : Fin 2) * 128 + 1 * j.val = j.val; omega
  | ⟨1, _⟩ => show win0_2.index t (1 : Fin 2) * 128 + 1 * k.val = k.val; omega

/-- The bias row is one whole block: entry k of the block is entry k of the array. -/
theorem iblk_3_apply (c : Dev nD) (t : Fin cfg0.N) (k : Fin 128) :
    iblk0 V c 3 t (ix2 (0 : Fin 1) k) = V c (Pipeline.arrRef spec0 3) (ix2 (0 : Fin 1) k) := by
  have e := idx_facts t
  unfold iblk0
  rw [View.read_apply]
  show V c (Pipeline.arrRef spec0 3) (((cfg0.win 3).blk t).view.emb (ix2 (0 : Fin 1) k)) = _
  refine congrArg (V c (Pipeline.arrRef spec0 3)) ?_
  funext a; apply Fin.ext
  match a with
  | ⟨0, _⟩ => show win0_3.index t (0 : Fin 2) * 1 + 1 * 0 = 0; omega
  | ⟨1, _⟩ => show win0_3.index t (1 : Fin 2) * 128 + 1 * k.val = k.val; omega

/-- The second weight matrix is one whole block too. -/
theorem iblk_4_apply (c : Dev nD) (t : Fin cfg0.N) (j k : Fin 128) :
    iblk0 V c 4 t (ix2 j k) = V c (Pipeline.arrRef spec0 4) (ix2 j k) := by
  have e := idx_facts t
  unfold iblk0
  rw [View.read_apply]
  show V c (Pipeline.arrRef spec0 4) (((cfg0.win 4).blk t).view.emb (ix2 j k)) = _
  refine congrArg (V c (Pipeline.arrRef spec0 4)) ?_
  funext a; apply Fin.ext
  match a with
  | ⟨0, _⟩ => show win0_4.index t (0 : Fin 2) * 128 + 1 * j.val = j.val; omega
  | ⟨1, _⟩ => show win0_4.index t (1 : Fin 2) * 128 + 1 * k.val = k.val; omega

/-- A function of the array read through the output's block at a point. -/
theorem read_5_apply (c : Dev nD) (t : Fin cfg0.N) (G : S100000x128.Idx → EReal) (p : Fin 2000) (k : Fin 128) (hr : 2000 * t.val + p.val < 100000) :
    ((cfg0.win 5).blk t).view.read (Elt Ideal) G (ix2 p k) = G (ix2 (⟨2000 * t.val + p.val, hr⟩ : Fin 100000) k) := by
  have e := idx_facts t
  rw [View.read_apply]
  show G (((cfg0.win 5).blk t).view.emb (ix2 p k)) = _
  refine congrArg G ?_
  funext a; apply Fin.ext
  match a with
  | ⟨0, _⟩ => show win0_5.index t (0 : Fin 2) * 2000 + 1 * p.val = 2000 * t.val + p.val; omega
  | ⟨1, _⟩ => show win0_5.index t (1 : Fin 2) * 128 + 1 * k.val = k.val; omega

/-- The linear part of the layer at node `r`, output feature `k`: row `r` of the first feature array against column
    `k` of the first weight matrix, plus the bias of column `k`, plus row `r` of the second feature array against
    column `k` of the second weight matrix. -/
def linAt (A X : S100000x128.Idx → EReal) (W1 : S128x128.Idx → EReal) (b : S1x128.Idx → EReal) (W2 : S128x128.Idx → EReal) (r : Fin 100000) (k : Fin 128) : EReal :=
  ((∑ j : Fin 128, A (ix2 r j) * W1 (ix2 j k)) + b (ix2 (0 : Fin 1) k)) + ∑ j : Fin 128, X (ix2 r j) * W2 (ix2 j k)

/-- The layer as an array: each row of linear parts divided by the larger of its Euclidean norm and ε, clamped
    below at zero. -/
def layerArr (A X : S100000x128.Idx → EReal) (W1 : S128x128.Idx → EReal) (b : S1x128.Idx → EReal) (W2 : S128x128.Idx → EReal) : S100000x128.Idx → EReal :=
  fun i => max (Ideal.div (linAt A X W1 b W2 (i 0) (i 1)) (max (Ideal.sqrt (∑ j : Fin 128, linAt A X W1 b W2 (i 0) j * linAt A X W1 b W2 (i 0) j)) (Ideal.ofBits .f32 0x2B8CBCCC#32))) 0

/-- The linear part of row p of block `t` is the linear part of row 2000·t + p of the arrays: it reads that row of
    the two feature arrays and the whole weight matrices and bias row. -/
theorem lin0_blk (c : Dev nD) (t : Fin cfg0.N) (p : Fin 2000) (j : Fin 128) (hr : 2000 * t.val + p.val < 100000) :
    lin0 (iblk0 V c 0 t) (iblk0 V c 1 t) (iblk0 V c 2 t) (iblk0 V c 3 t) (iblk0 V c 4 t) p j
      = linAt (V c (Pipeline.arrRef spec0 0)) (V c (Pipeline.arrRef spec0 1)) (V c (Pipeline.arrRef spec0 2))
        (V c (Pipeline.arrRef spec0 3)) (V c (Pipeline.arrRef spec0 4)) (⟨2000 * t.val + p.val, hr⟩ : Fin 100000) j := by
  unfold lin0 linAt
  simp only [iblk_0_apply V c t p _ hr, iblk_1_apply V c t p _ hr, iblk_2_apply V c t, iblk_3_apply V c t,
    iblk_4_apply V c t]

/-- What point `t` writes back is block `t` of the layer of the arrays the region finds. -/
theorem flushed_eq (c : Dev nD) (t : Fin cfg0.N) :
    (dat0 V c).flushed 5 t = ((cfg0.win 5).blk t).view.read (Elt Ideal)
      (layerArr (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext y
  obtain ⟨p, k, rfl⟩ : ∃ (p : Fin 2000) (k : Fin 128), y = ix2 p k := ⟨y 0, y 1, eq_ix2 y⟩
  have hN : cfg0.N = 50 := N_0
  have hr : 2000 * t.val + p.val < 100000 := by have := t.isLt; have := p.isLt; omega
  refine (k0_pay1_apply (iblk0 V c 0 t) (iblk0 V c 1 t) (iblk0 V c 2 t) (iblk0 V c 3 t) (iblk0 V c 4 t) p k).trans ?_
  rw [read_5_apply c t _ p k hr]
  simp only [lin0_blk V c t p _ hr]
  rfl

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v30).slice (win0_5.rect t)).set ↔ _
  rw [View.set_slice_whole, Rect.mem_set_unit]
  exact Iff.rfl

/-- Every index of the output array lies in the block of the point its row number selects. -/
theorem cover (i : S100000x128.Idx) : ∃ t : Fin cfg0.N, (cfg0.win 5).flush t = true ∧ i ∈ ((cfg0.win 5).blk t).view.set := by
  have hN : cfg0.N = 50 := N_0
  have hi0 : (i 0).val < 100000 := (i 0).isLt
  have hi1 : (i 1).val < 128 := (i 1).isLt
  let t : Fin cfg0.N := ⟨(i 0).val / 2000, by omega⟩
  obtain ⟨-, -, -, -, -, -, -, -, -, -, e50, e51⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the region: the layer of the arrays the region finds. -/
theorem final (c : Dev nD) : (dat0 V c).arrAt 5 cfg0.N
    = layerArr (V c (Pipeline.arrRef spec0 0)) (V c (Pipeline.arrRef spec0 1)) (V c (Pipeline.arrRef spec0 2))
        (V c (Pipeline.arrRef spec0 3)) (V c (Pipeline.arrRef spec0 4)) :=
  (dat0 V c).arrAt_eq_of_cover 5 _ (fun t _ => flushed_eq V c t) cover

end Cert.KernelIdeal.KLayer0

end
-- ==== Proof.KLayer3.lean ====
/-
  The second layer's region of the kernel program: what its output array ends holding.

  The region visits the 50 row blocks of 2000 rows. At block `t` the body reads rows 2000·t … 2000·t + 1999 of the two
  feature arrays (the aggregated neighbours' features and the nodes' own), the two 128 × 128 weight matrices and the
  1 × 128 bias row (each of these three one whole block, the same at every point), and writes back to the same rows of
  the output, for each row r and feature k, lin(r, k) / max(√(∑ⱼ lin(r, j)²), ε), where
  lin(r, k) = (∑ⱼ A(r, j) · W₁(j, k)) + b(0, k) + ∑ⱼ X(r, j) · W₂(j, k). An output entry depends on row r of the two
  feature arrays only, so a block's rows are computed from that block alone; the blocks tile the output, so the output
  array is this function of the arrays the region finds, index by index.
-/
import proofs.«112482_j24842090840540_1_alg».proof.Proof.Gen.KernelIdeal.Frame
import Idealize.ShloMosaic.Lib.Pipeline.Value
import Idealize.ShloMosaic.Lib.ValueIdx
import proofs.«112482_j24842090840540_1_alg».proof.Proof.Payloads
set_option maxRecDepth 16384

noncomputable section

open scoped BigOperators

namespace Cert.KernelIdeal.KLayer3

open Idealize.ShloMosaic Idealize.ShloMosaic.TcCoe Idealize.ShloMosaic.ValueIdx
open Idealize.ShloMosaic.Pipeline (Dat Cfg Window)
open Cert.KernelIdeal Cert.KernelIdeal.Gen Cert.KernelIdeal.Payloads

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature arrays' row blocks and the output's move with the point,
    2000 rows a block; the two weight matrices and the bias row stay at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of the point's block of the first feature array is row 2000·t + p of the array. -/
theorem iblk_0_apply (c : Dev nD) (t : Fin cfg3.N) (p : Fin 2000) (k : Fin 128) (hr : 2000 * t.val + p.val < 100000) :
    iblk3 V c 0 t (ix2 p k) = V c (Pipeline.arrRef spec3 0) (ix2 (⟨2000 * t.val + p.val, hr⟩ : Fin 100000) k) := by
  obtain ⟨e00, e01, -⟩ := idx_facts t
  unfold iblk3
  rw [View.read_apply]
  show V c (Pipeline.arrRef spec3 0) (((cfg3.win 0).blk t).view.emb (ix2 p k)) = _
  refine congrArg (V c (Pipeline.arrRef spec3 0)) ?_
  funext a; apply Fin.ext
  match a with
  | ⟨0, _⟩ => show win3_0.index t (0 : Fin 2) * 2000 + 1 * p.val = 2000 * t.val + p.val; omega
  | ⟨1, _⟩ => show win3_0.index t (1 : Fin 2) * 128 + 1 * k.val = k.val; omega

/-- The second feature array's block, the same way. -/
theorem iblk_1_apply (c : Dev nD) (t : Fin cfg3.N) (p : Fin 2000) (k : Fin 128) (hr : 2000 * t.val + p.val < 100000) :
    iblk3 V c 1 t (ix2 p k) = V c (Pipeline.arrRef spec3 1) (ix2 (⟨2000 * t.val + p.val, hr⟩ : Fin 100000) k) := by
  obtain ⟨-, -, e10, e11, -⟩ := idx_facts t
  unfold iblk3
  rw [View.read_apply]
  show V c (Pipeline.arrRef spec3 1) (((cfg3.win 1).blk t).view.emb (ix2 p k)) = _
  refine congrArg (V c (Pipeline.arrRef spec3 1)) ?_
  funext a; apply Fin.ext
  match a with
  | ⟨0, _⟩ => show win3_1.index t (0 : Fin 2) * 2000 + 1 * p.val = 2000 * t.val + p.val; omega
  | ⟨1, _⟩ => show win3_1.index t (1 : Fin 2) * 128 + 1 * k.val = k.val; omega

/-- The first weight matrix is one whole block: entry (j, k) of the block is entry (j, k) of the array. -/
theorem iblk_2_apply (c : Dev nD) (t : Fin cfg3.N) (j k : Fin 128) :
    iblk3 V c 2 t (ix2 j k) = V c (Pipeline.arrRef spec3 2) (ix2 j k) := by
  obtain ⟨-, -, -, -, e20, e21, -⟩ := idx_facts t
  unfold iblk3
  rw [View.read_apply]
  show V c (Pipeline.arrRef spec3 2) (((cfg3.win 2).blk t).view.emb (ix2 j k)) = _
  refine congrArg (V c (Pipeline.arrRef spec3 2)) ?_
  funext a; apply Fin.ext
  match a with
  | ⟨0, _⟩ => show win3_2.index t (0 : Fin 2) * 128 + 1 * j.val = j.val; omega
  | ⟨1, _⟩ => show win3_2.index t (1 : Fin 2) * 128 + 1 * k.val = k.val; omega

/-- The bias row is one whole block: entry k of the block is entry k of the array. -/
theorem iblk_3_apply (c : Dev nD) (t : Fin cfg3.N) (k : Fin 128) :
    iblk3 V c 3 t (ix2 (0 : Fin 1) k) = V c (Pipeline.arrRef spec3 3) (ix2 (0 : Fin 1) k) := by
  obtain ⟨-, -, -, -, -, -, e30, e31, -⟩ := idx_facts t
  unfold iblk3
  rw [View.read_apply]
  show V c (Pipeline.arrRef spec3 3) (((cfg3.win 3).blk t).view.emb (ix2 (0 : Fin 1) k)) = _
  refine congrArg (V c (Pipeline.arrRef spec3 3)) ?_
  funext a; apply Fin.ext
  match a with
  | ⟨0, _⟩ => show win3_3.index t (0 : Fin 2) * 1 + 1 * 0 = 0; omega
  | ⟨1, _⟩ => show win3_3.index t (1 : Fin 2) * 128 + 1 * k.val = k.val; omega

/-- The second weight matrix, the same way. -/
theorem iblk_4_apply (c : Dev nD) (t : Fin cfg3.N) (j k : Fin 128) :
    iblk3 V c 4 t (ix2 j k) = V c (Pipeline.arrRef spec3 4) (ix2 j k) := by
  obtain ⟨-, -, -, -, -, -, -, -, e40, e41, -⟩ := idx_facts t
  unfold iblk3
  rw [View.read_apply]
  show V c (Pipeline.arrRef spec3 4) (((cfg3.win 4).blk t).view.emb (ix2 j k)) = _
  refine congrArg (V c (Pipeline.arrRef spec3 4)) ?_
  funext a; apply Fin.ext
  match a with
  | ⟨0, _⟩ => show win3_4.index t (0 : Fin 2) * 128 + 1 * j.val = j.val; omega
  | ⟨1, _⟩ => show win3_4.index t (1 : Fin 2) * 128 + 1 * k.val = k.val; omega

/-- A function of the output array read through the output's block at a point. -/
theorem read_5_apply (c : Dev nD) (t : Fin cfg3.N) (G : S100000x128.Idx → EReal) (p : Fin 2000) (k : Fin 128) (hr : 2000 * t.val + p.val < 100000) :
    ((cfg3.win 5).blk t).view.read (Elt Ideal) G (ix2 p k) = G (ix2 (⟨2000 * t.val + p.val, hr⟩ : Fin 100000) k) := by
  obtain ⟨-, -, -, -, -, -, -, -, -, -, e50, e51⟩ := idx_facts t
  rw [View.read_apply]
  show G (((cfg3.win 5).blk t).view.emb (ix2 p k)) = _
  refine congrArg G ?_
  funext a; apply Fin.ext
  match a with
  | ⟨0, _⟩ => show win3_5.index t (0 : Fin 2) * 2000 + 1 * p.val = 2000 * t.val + p.val; omega
  | ⟨1, _⟩ => show win3_5.index t (1 : Fin 2) * 128 + 1 * k.val = k.val; omega

/-- The linear part at node `r`, feature `k`: row `r` of the first feature array against column `k` of the first weight
    matrix, plus the bias of feature `k`, plus row `r` of the second feature array against column `k` of the second
    weight matrix. -/
def linAt (A X : S100000x128.Idx → EReal) (W1 : S128x128.Idx → EReal) (b : S1x128.Idx → EReal) (W2 : S128x128.Idx → EReal)
    (r : Fin 100000) (k : Fin 128) : EReal :=
  ((∑ j : Fin 128, A (ix2 r j) * W1 (ix2 j k)) + b (ix2 (0 : Fin 1) k)) + ∑ j : Fin 128, X (ix2 r j) * W2 (ix2 j k)

/-- The layer as an array: each node's row of linear parts divided by the larger of its Euclidean norm and ε. -/
def layerArr (A X : S100000x128.Idx → EReal) (W1 : S128x128.Idx → EReal) (b : S1x128.Idx → EReal) (W2 : S128x128.Idx → EReal) :
    S100000x128.Idx → EReal :=
  fun i => Ideal.div (linAt A X W1 b W2 (i 0) (i 1))
    (max (Ideal.sqrt (∑ j : Fin 128, linAt A X W1 b W2 (i 0) j * linAt A X W1 b W2 (i 0) j)) (Ideal.ofBits .f32 0x2B8CBCCC#32))

/-- The linear part computed from the point's blocks at row `p` is the arrays' linear part at node 2000·t + p: the
    feature rows are rows 2000·t + p of the arrays, the weights and the bias are the whole arrays. -/
theorem lin0_blk (c : Dev nD) (t : Fin cfg3.N) (p : Fin 2000) (j : Fin 128) (hr : 2000 * t.val + p.val < 100000) :
    lin0 (iblk3 V c 0 t) (iblk3 V c 1 t) (iblk3 V c 2 t) (iblk3 V c 3 t) (iblk3 V c 4 t) p j
      = linAt (V c (Pipeline.arrRef spec3 0)) (V c (Pipeline.arrRef spec3 1)) (V c (Pipeline.arrRef spec3 2))
          (V c (Pipeline.arrRef spec3 3)) (V c (Pipeline.arrRef spec3 4)) (⟨2000 * t.val + p.val, hr⟩ : Fin 100000) j := by
  unfold lin0 linAt
  refine congrArg₂ (· + ·) (congrArg₂ (· + ·) (Finset.sum_congr rfl fun j' _ => ?_) (iblk_3_apply V c t j))
    (Finset.sum_congr rfl fun j' _ => ?_)
  · rw [iblk_0_apply V c t p j' hr, iblk_2_apply V c t j' j]
  · rw [iblk_1_apply V c t p j' hr, iblk_4_apply V c t j' j]

/-- What point `t` writes back is block `t` of the layer of the arrays the region finds. -/
theorem flushed_eq (c : Dev nD) (t : Fin cfg3.N) :
    (dat3 V c).flushed 5 t = ((cfg3.win 5).blk t).view.read (Elt Ideal)
      (layerArr (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S2000x128) hz, View.ld_unit_zero (S := S128x128) hz, View.ld_unit_zero (S := S1x128) hz]
  funext y
  obtain ⟨p, k, rfl⟩ : ∃ (p : Fin 2000) (k : Fin 128), y = ix2 p k := ⟨y 0, y 1, eq_ix2 y⟩
  have hN : cfg3.N = 50 := N_3
  have hr : 2000 * t.val + p.val < 100000 := by have := t.isLt; have := p.isLt; omega
  refine (k3_pay1_apply (iblk3 V c 0 t) (iblk3 V c 1 t) (iblk3 V c 2 t) (iblk3 V c 3 t) (iblk3 V c 4 t) p k).trans ?_
  rw [read_5_apply c t _ p k hr]
  simp only [lin0_blk V c t p _ hr]
  rfl

/-- An index of the output array is in point `t`'s block iff each coordinate is in the block's range on its axis. -/
theorem mem_blk (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v61).slice (win3_5.rect t)).set ↔ _
  rw [View.set_slice_whole, Rect.mem_set_unit]
  exact Iff.rfl

/-- Every index of the output array lies in the block of the point its row number selects. -/
theorem cover (i : S100000x128.Idx) : ∃ t : Fin cfg3.N, (cfg3.win 5).flush t = true ∧ i ∈ ((cfg3.win 5).blk t).view.set := by
  have hN : cfg3.N = 50 := N_3
  have hi0 : (i 0).val < 100000 := (i 0).isLt
  have hi1 : (i 1).val < 128 := (i 1).isLt
  let t : Fin cfg3.N := ⟨(i 0).val / 2000, by omega⟩
  obtain ⟨-, -, -, -, -, -, -, -, -, -, e50, e51⟩ := idx_facts t
  have ht : t.val = (i 0).val / 2000 := rfl
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- The output array after the region: the layer of the arrays the region finds. -/
theorem final (c : Dev nD) : (dat3 V c).arrAt 5 cfg3.N
    = layerArr (V c (Pipeline.arrRef spec3 0)) (V c (Pipeline.arrRef spec3 1)) (V c (Pipeline.arrRef spec3 2))
        (V c (Pipeline.arrRef spec3 3)) (V c (Pipeline.arrRef spec3 4)) :=
  (dat3 V c).arrAt_eq_of_cover 5 _ (fun t _ => flushed_eq V c t) cover

end Cert.KernelIdeal.KLayer3

end
-- ==== Proof.KBn.lean ====
/-
  The batch-norm region of the kernel program: what its output array ends holding.

  The region visits the 50 row blocks of 2000 rows; at block `t` the body reads rows 2000·t … 2000·t + 1999 of the
  feature array and the four per-feature rows (mean, inverse deviation, scale, shift: each one whole block), and
  writes (h − μ)·s·γ + β back to the same rows of the output. The blocks tile the output, so the output array is that
  affine map of the arrays the region finds, index by index.
-/
import proofs.«112482_j24842090840540_1_alg».proof.Proof.Gen.KernelIdeal.Frame
import Idealize.ShloMosaic.Lib.Pipeline.Value
import Idealize.ShloMosaic.Lib.ValueIdx
import proofs.«112482_j24842090840540_1_alg».proof.Proof.Payloads
set_option maxRecDepth 16384

noncomputable section

open scoped BigOperators

namespace Cert.KernelIdeal.KBn

open Idealize.ShloMosaic Idealize.ShloMosaic.TcCoe Idealize.ShloMosaic.ValueIdx
open Idealize.ShloMosaic.Pipeline (Dat Cfg Window)
open Cert.KernelIdeal Cert.KernelIdeal.Gen Cert.KernelIdeal.Payloads

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature rows move with the point, 2000 rows a block; the four
    per-feature rows stay at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A row of the point's block of feature rows is row 2000·t + p of the array. -/
theorem iblk_0_apply (c : Dev nD) (t : Fin cfg2.N) (p : Fin 2000) (k : Fin 128) (hr : 2000 * t.val + p.val < 100000) :
    iblk2 V c 0 t (ix2 p k) = V c (Pipeline.arrRef spec2 0) (ix2 (⟨2000 * t.val + p.val, hr⟩ : Fin 100000) k) := by
  obtain ⟨e00, e01, -⟩ := idx_facts t
  unfold iblk2
  rw [View.read_apply]
  show V c (Pipeline.arrRef spec2 0) (((cfg2.win 0).blk t).view.emb (ix2 p k)) = _
  refine congrArg (V c (Pipeline.arrRef spec2 0)) ?_
  funext a; apply Fin.ext
  match a with
  | ⟨0, _⟩ => show win2_0.index t (0 : Fin 2) * 2000 + 1 * p.val = 2000 * t.val + p.val; omega
  | ⟨1, _⟩ => show win2_0.index t (1 : Fin 2) * 128 + 1 * k.val = k.val; omega

/-- The per-feature rows are whole blocks: entry k of the block is entry k of the array. -/
theorem iblk_1_apply (c : Dev nD) (t : Fin cfg2.N) (k : Fin 128) :
    iblk2 V c 1 t (ix2 (0 : Fin 1) k) = V c (Pipeline.arrRef spec2 1) (ix2 (0 : Fin 1) k) := by
  obtain ⟨-, -, e10, e11, -⟩ := idx_facts t
  unfold iblk2
  rw [View.read_apply]
  show V c (Pipeline.arrRef spec2 1) (((cfg2.win 1).blk t).view.emb (ix2 (0 : Fin 1) k)) = _
  refine congrArg (V c (Pipeline.arrRef spec2 1)) ?_
  funext a; apply Fin.ext
  match a with
  | ⟨0, _⟩ => show win2_1.index t (0 : Fin 2) * 1 + 1 * 0 = 0; omega
  | ⟨1, _⟩ => show win2_1.index t (1 : Fin 2) * 128 + 1 * k.val = k.val; omega

/-- A function of the array read through the output's block at a point. -/
theorem read_5_apply (c : Dev nD) (t : Fin cfg2.N) (G : S100000x128.Idx → EReal) (p : Fin 2000) (k : Fin 128) (hr : 2000 * t.val + p.val < 100000) :
    ((cfg2.win 5).blk t).view.read (Elt Ideal) G (ix2 p k) = G (ix2 (⟨2000 * t.val + p.val, hr⟩ : Fin 100000) k) := by
  obtain ⟨-, -, -, -, -, -, -, -, -, -, e50, e51⟩ := idx_facts t
  rw [View.read_apply]
  show G (((cfg2.win 5).blk t).view.emb (ix2 p k)) = _
  refine congrArg G ?_
  funext a; apply Fin.ext
  match a with
  | ⟨0, _⟩ => show win2_5.index t (0 : Fin 2) * 2000 + 1 * p.val = 2000 * t.val + p.val; omega
  | ⟨1, _⟩ => show win2_5.index t (1 : Fin 2) * 128 + 1 * k.val = k.val; omega

/-- The other three per-feature rows, the same way. -/
theorem iblk_2_apply (c : Dev nD) (t : Fin cfg2.N) (k : Fin 128) :
    iblk2 V c 2 t (ix2 (0 : Fin 1) k) = V c (Pipeline.arrRef spec2 2) (ix2 (0 : Fin 1) k) := by
  obtain ⟨-, -, -, -, e20, e21, -⟩ := idx_facts t
  unfold iblk2
  rw [View.read_apply]
  show V c (Pipeline.arrRef spec2 2) (((cfg2.win 2).blk t).view.emb (ix2 (0 : Fin 1) k)) = _
  refine congrArg (V c (Pipeline.arrRef spec2 2)) ?_
  funext a; apply Fin.ext
  match a with
  | ⟨0, _⟩ => show win2_2.index t (0 : Fin 2) * 1 + 1 * 0 = 0; omega
  | ⟨1, _⟩ => show win2_2.index t (1 : Fin 2) * 128 + 1 * k.val = k.val; omega

theorem iblk_3_apply (c : Dev nD) (t : Fin cfg2.N) (k : Fin 128) :
    iblk2 V c 3 t (ix2 (0 : Fin 1) k) = V c (Pipeline.arrRef spec2 3) (ix2 (0 : Fin 1) k) := by
  obtain ⟨-, -, -, -, -, -, e30, e31, -⟩ := idx_facts t
  unfold iblk2
  rw [View.read_apply]
  show V c (Pipeline.arrRef spec2 3) (((cfg2.win 3).blk t).view.emb (ix2 (0 : Fin 1) k)) = _
  refine congrArg (V c (Pipeline.arrRef spec2 3)) ?_
  funext a; apply Fin.ext
  match a with
  | ⟨0, _⟩ => show win2_3.index t (0 : Fin 2) * 1 + 1 * 0 = 0; omega
  | ⟨1, _⟩ => show win2_3.index t (1 : Fin 2) * 128 + 1 * k.val = k.val; omega

theorem iblk_4_apply (c : Dev nD) (t : Fin cfg2.N) (k : Fin 128) :
    iblk2 V c 4 t (ix2 (0 : Fin 1) k) = V c (Pipeline.arrRef spec2 4) (ix2 (0 : Fin 1) k) := by
  obtain ⟨-, -, -, -, -, -, -, -, e40, e41, -⟩ := idx_facts t
  unfold iblk2
  rw [View.read_apply]
  show V c (Pipeline.arrRef spec2 4) (((cfg2.win 4).blk t).view.emb (ix2 (0 : Fin 1) k)) = _
  refine congrArg (V c (Pipeline.arrRef spec2 4)) ?_
  funext a; apply Fin.ext
  match a with
  | ⟨0, _⟩ => show win2_4.index t (0 : Fin 2) * 1 + 1 * 0 = 0; omega
  | ⟨1, _⟩ => show win2_4.index t (1 : Fin 2) * 128 + 1 * k.val = k.val; omega

/-- The affine map at node `r`, feature `k`: the entry less the feature's mean, times the feature's inverse
    deviation, times its scale, plus its shift. -/
def bnAt (H : S100000x128.Idx → EReal) (mu istd g b : S1x128.Idx → EReal) (r : Fin 100000) (k : Fin 128) : EReal :=
  (H (ix2 r k) - mu (ix2 (0 : Fin 1) k)) * istd (ix2 (0 : Fin 1) k) * g (ix2 (0 : Fin 1) k) + b (ix2 (0 : Fin 1) k)

/-- The same as an array. -/
def bnArr (H : S100000x128.Idx → EReal) (mu istd g b : S1x128.Idx → EReal) : S100000x128.Idx → EReal :=
  fun i => bnAt H mu istd g b (i 0) (i 1)

/-- What point `t` writes back is block `t` of the affine map of the arrays the region finds. -/
theorem flushed_eq (c : Dev nD) (t : Fin cfg2.N) :
    (dat2 V c).flushed 5 t = ((cfg2.win 5).blk t).view.read (Elt Ideal)
      (bnArr (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S2000x128) hz, View.ld_unit_zero (S := S1x128) hz]
  funext y
  obtain ⟨p, k, rfl⟩ : ∃ (p : Fin 2000) (k : Fin 128), y = ix2 p k := ⟨y 0, y 1, eq_ix2 y⟩
  have hN : cfg2.N = 50 := N_2
  have hr : 2000 * t.val + p.val < 100000 := by have := t.isLt; have := p.isLt; omega
  refine (k2_pay1_apply (iblk2 V c 0 t) (iblk2 V c 1 t) (iblk2 V c 2 t) (iblk2 V c 3 t) (iblk2 V c 4 t) p k).trans ?_
  rw [iblk_0_apply V c t p k hr, iblk_1_apply V c t k, iblk_2_apply V c t k, iblk_3_apply V c t k, iblk_4_apply V c t k,
    read_5_apply c t _ p k hr]
  rfl

/-- An index of the output array is in point `t`'s block iff each coordinate is in the block's range on its axis. -/
theorem mem_blk (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v43).slice (win2_5.rect t)).set ↔ _
  rw [View.set_slice_whole, Rect.mem_set_unit]
  exact Iff.rfl

/-- Every index of the output array lies in the block of the point its row number selects. -/
theorem cover (i : S100000x128.Idx) : ∃ t : Fin cfg2.N, (cfg2.win 5).flush t = true ∧ i ∈ ((cfg2.win 5).blk t).view.set := by
  have hN : cfg2.N = 50 := N_2
  have hi0 : (i 0).val < 100000 := (i 0).isLt
  have hi1 : (i 1).val < 128 := (i 1).isLt
  let t : Fin cfg2.N := ⟨(i 0).val / 2000, by omega⟩
  obtain ⟨-, -, -, -, -, -, -, -, -, -, e50, e51⟩ := idx_facts t
  have ht : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The output array after the region: the affine map of the arrays the region finds. -/
theorem final (c : Dev nD) : (dat2 V c).arrAt 5 cfg2.N
    = bnArr (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 5 _ (fun t _ => flushed_eq V c t) cover

end Cert.KernelIdeal.KBn

end
-- ==== Proof.Laws.lean ====
/- Pure laws on the extended reals used to compare the two arrangements of a two-layer mean-aggregation
   network: the value of three float literals, "multiply by the reciprocal of the degree" against "divide by the
   degree", the two forms of a variance, the reality of a normalised and clamped row entry, and two
   regrouping laws for sums (blocks of 2000 rows; a running accumulator). No program is imported here. -/
import Mathlib
import Idealize.ShloMosaic.PureOps.Ideal
import Idealize.ShloMosaic.PureOps.Ideal.Laws

noncomputable section

namespace Sage.Laws

open Idealize.ShloMosaic
open scoped BigOperators

/-! ### The three literals -/

/-- The literal `100000.0` denotes the real `100000`. -/
theorem cN_val : Ideal.ofBits .f32 0x47C35000#32 = ((100000 : ℝ) : EReal) := by
  simp [Ideal.ofBits, Ideal.ieee, -EReal.coe_mul]; norm_num

/-- The literal `1.0` denotes `1`. -/
theorem one_val : Ideal.ofBits .f32 0x3F800000#32 = (1 : EReal) := by
  simp [Ideal.ofBits, Ideal.ieee, -EReal.coe_mul]; norm_num

/-- The literal `1e-12` (its nearest single-precision value) denotes a positive real. -/
theorem epsN_pos : ∃ e : ℝ, 0 < e ∧ Ideal.ofBits .f32 0x2B8CBCCC#32 = (e : EReal) := by
  refine ⟨((2 ^ 23 + 834764 : ℕ) : ℝ) * (2 : ℝ) ^ ((87 : ℤ) - 127 - 23), by positivity, ?_⟩
  simp [Ideal.ofBits, Ideal.ieee, -EReal.coe_mul]

/-! ### Mean aggregation: times the reciprocal, or divided by -/

/-- Multiplying by `1 / max(d, 1)` is dividing by `max(d, 1)`: the divisor is at least `1`, so it is not
    zero and division is multiplication by the inverse; nothing is asked of `a` or `d`. -/
theorem mean_forms (a d : EReal) :
    a * Ideal.div (Ideal.ofBits .f32 0x3F800000#32) (max d (Ideal.ofBits .f32 0x3F800000#32))
      = Ideal.div a (max d (Ideal.ofBits .f32 0x3F800000#32)) := by
  have hne : max d (Ideal.ofBits .f32 0x3F800000#32) ≠ 0 := by
    rw [one_val]
    exact (lt_of_lt_of_le zero_lt_one (le_max_right d 1)).ne'
  rw [Ideal.div, Ideal.div, if_neg hne, if_neg hne, one_val, one_mul]

/-! ### Sums and squares of extended reals -/

/-- The coercion from the reals commutes with finite sums. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- A square is never negative, at the infinities too: `⊥ * ⊥ = ⊤ * ⊤ = ⊤`. -/
theorem mul_self_nonneg' (x : EReal) : 0 ≤ x * x := by
  induction x using EReal.rec with
  | bot => simp
  | coe r => rw [← EReal.coe_mul]; exact_mod_cast mul_self_nonneg r
  | top => simp

/-- Only a real has a square that is not `⊤`. -/
theorem real_of_mul_self_ne_top {x : EReal} (h : x * x ≠ ⊤) : ∃ r : ℝ, x = r := by
  induction x using EReal.rec with
  | bot => exact absurd (by simp) h
  | coe r => exact ⟨r, rfl⟩
  | top => exact absurd (by simp) h

/-! ### A normalised, clamped row entry is a real -/

/-- An entry of a row divided by `max(‖row‖, ε)` and then clamped below at `0` is always a real. If the sum
    of squares is `⊤` the norm is `⊤`, its inverse is `0` and the quotient is `0`. Otherwise the sum of
    squares, a sum of non-negative terms, is a non-negative real; each square is below it, so each entry is
    a real, and the quotient of a real by a positive real is a real. -/
theorem unit_row_real {ι : Type} [Fintype ι] (O : ι → EReal) (k : ι) :
    ∃ g : ℝ, max (Ideal.div (O k) (max (Ideal.sqrt (∑ j, O j * O j)) (Ideal.ofBits .f32 0x2B8CBCCC#32))) 0
      = (g : EReal) := by
  obtain ⟨e, he, hε⟩ := epsN_pos
  rw [hε]
  have hS0 : 0 ≤ ∑ j, O j * O j := Finset.sum_nonneg fun j _ => mul_self_nonneg' (O j)
  by_cases htop : ∑ j, O j * O j = ⊤
  · refine ⟨0, ?_⟩
    rw [htop, Ideal.sqrt_top, max_eq_left le_top, Ideal.div, if_neg EReal.top_ne_zero]
    simp
  · have hbot : ∑ j, O j * O j ≠ ⊥ := fun h => by rw [h] at hS0; simp at hS0
    obtain ⟨s, hs⟩ : ∃ s : ℝ, ∑ j, O j * O j = (s : EReal) := ⟨_, (EReal.coe_toReal htop hbot).symm⟩
    have hk : O k * O k ≤ ∑ j, O j * O j :=
      Finset.single_le_sum (f := fun j => O j * O j) (fun j _ => mul_self_nonneg' (O j)) (Finset.mem_univ k)
    obtain ⟨o, ho⟩ := real_of_mul_self_ne_top (x := O k) (fun h => htop (top_le_iff.mp (h ▸ hk)))
    have hs0 : 0 ≤ s := by rw [hs] at hS0; exact_mod_cast hS0
    rw [hs, ho, Ideal.sqrt_coe, if_neg (not_lt.mpr hs0)]
    have hm : (max (Real.sqrt s : EReal) (e : EReal)) = ((max (Real.sqrt s) e : ℝ) : EReal) :=
      (EReal.coe_strictMono.monotone.map_max).symm
    have hmpos : 0 < max (Real.sqrt s) e := lt_max_of_lt_right he
    rw [hm, Ideal.div_coe hmpos.ne', ← EReal.coe_mul, ← EReal.coe_zero, ← EReal.coe_strictMono.monotone.map_max]
    exact ⟨_, rfl⟩

/-! ### The two forms of a variance -/

/-- Over `100000` real samples, the mean of the squares minus the square of the mean is the mean of the squared
    deviations from the mean. Everything is a real, so the coercion is pushed outside and the identity is
    `∑ (g - m)² = ∑ g² - 2 m ∑ g + N m²` with `m = (∑ g) / N`. -/
theorem var_forms {ι : Type} [Fintype ι] (hcard : Fintype.card ι = 100000) (g : ι → ℝ) :
    Ideal.div (∑ r, ((g r : ℝ) : EReal) * (g r : EReal)) (Ideal.ofBits .f32 0x47C35000#32)
        - Ideal.div (∑ r, (g r : EReal)) (Ideal.ofBits .f32 0x47C35000#32)
          * Ideal.div (∑ r, (g r : EReal)) (Ideal.ofBits .f32 0x47C35000#32)
      = Ideal.div (∑ r, ((g r : EReal) - Ideal.div (∑ r', (g r' : EReal)) (Ideal.ofBits .f32 0x47C35000#32))
          * ((g r : EReal) - Ideal.div (∑ r', (g r' : EReal)) (Ideal.ofBits .f32 0x47C35000#32)))
          (Ideal.ofBits .f32 0x47C35000#32) := by
  have hN : (100000 : ℝ) ≠ 0 := by norm_num
  rw [cN_val]
  simp only [← EReal.coe_mul, coe_sum, Ideal.div_coe hN, ← EReal.coe_sub]
  congr 1
  have h1 : ∀ r, (g r - (∑ r', g r') * (1 / 100000)) * (g r - (∑ r', g r') * (1 / 100000))
      = g r * g r - 2 * ((∑ r', g r') * (1 / 100000)) * g r
        + ((∑ r', g r') * (1 / 100000)) * ((∑ r', g r') * (1 / 100000)) := fun r => by ring
  simp only [h1, Finset.sum_add_distrib, Finset.sum_sub_distrib, ← Finset.mul_sum, Finset.sum_const,
    Finset.card_univ, hcard, nsmul_eq_mul]
  push_cast
  ring

/-! ### Regrouping sums -/

/-- A sum over `100000` rows is the sum over `50` blocks of the sums over the `2000` rows of each block. -/
theorem sum_blocks {M : Type} [AddCommMonoid M] (f : Fin 100000 → M) :
    ∑ t : Fin 50, ∑ p : Fin 2000, f ⟨2000 * t.val + p.val, by omega⟩ = ∑ r, f r := by
  rw [← Fintype.sum_prod_type']
  refine Fintype.sum_equiv (finProdFinEquiv : Fin 50 × Fin 2000 ≃ Fin 100000) _ _ ?_
  rintro ⟨t, p⟩
  congr 1
  apply Fin.ext
  simp [finProdFinEquiv]
  omega

/-- A running accumulator that starts at the first term and adds the next term at every step holds the
    partial sum. -/
theorem acc_eq_sum {M : Type} [AddCommMonoid M] (B acc : ℕ → M) (h0 : acc 0 = B 0)
    (hs : ∀ n, acc (n + 1) = acc n + B (n + 1)) (n : ℕ) : acc n = ∑ t ∈ Finset.range (n + 1), B t := by
  induction n with
  | zero => simp [h0]
  | succ n ih => rw [hs, ih, Finset.sum_range_succ _ (n + 1)]

end Sage.Laws

end
-- ==== Proof.KStats.lean ====
/-
  The statistics region of the kernel program: what its two output rows end holding.

  The region visits the 50 row blocks of 2000 rows with two output rows of 128 entries whose block never moves.
  At the first block the body stores zero rows, reads them back and adds the block's column sums (of the entries,
  and of their squares); at every later block it adds the block's column sums to what the block before left; the
  rows are written back once, after the last block. So each row ends at the sum over all 50 blocks of the block's
  column sums, which is the column sum over all 100000 rows: a sum regrouped, nothing more.
-/
import proofs.«112482_j24842090840540_1_alg».proof.Proof.Gen.KernelIdeal.Frame
import Idealize.ShloMosaic.Lib.Pipeline.Value
import Idealize.ShloMosaic.Lib.ValueIdx
import proofs.«112482_j24842090840540_1_alg».proof.Proof.Payloads
import proofs.«112482_j24842090840540_1_alg».proof.Proof.Laws
import Idealize.ShloMosaic.Lib.Tactic
set_option maxRecDepth 16384

noncomputable section

open scoped BigOperators

namespace Cert.KernelIdeal.KStats

open Idealize.ShloMosaic Idealize.ShloMosaic.TcCoe Idealize.ShloMosaic.ValueIdx
open Idealize.ShloMosaic.Pipeline (Dat Cfg Window)
open Cert.KernelIdeal Cert.KernelIdeal.Gen Cert.KernelIdeal.Payloads

variable (V : (c : Dev nD) → (b : Ref sig .tc) → Buf (Elt Ideal) ((c : Thread nD τ).loc b))

theorem hz : (![0, 0] : Fin 2 → Nat) = fun _ => 0 := funext fun a => by fin_cases a <;> rfl

/-! ## What each case of the body leaves in the two running rows -/

/-- At the first point the body stores a zero row, reads it back and adds the block's column sums. -/
theorem outA1 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond1_0 i) (x0 : Vec Ideal S2000x128 .f32) :
    out1_A_1 c i a1 h1 a2 h2 a3 h3 hc x0 = k1_pay4 x0 (k1_pay1 (F := Ideal)) := by
  unfold out1_A_1
  rw [View.read_writes_eq_canon _ _ _ (cover1_A_1 c i a1 h1 a2 h2 a3 h3 hc x0)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S2000x128) hz, View.ld_unit_zero (S := S1x128) hz]

/-- The same for the running row of squares. -/
theorem outA2 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond1_0 i) (x0 : Vec Ideal S2000x128 .f32) :
    out1_A_2 c i a1 h1 a2 h2 a3 h3 hc x0 = k1_pay5 x0 (k1_pay2 (F := Ideal)) := by
  unfold out1_A_2
  rw [View.read_writes_eq_canon _ _ _ (cover1_A_2 c i a1 h1 a2 h2 a3 h3 hc x0)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S2000x128) hz, View.ld_unit_zero (S := S1x128) hz]

/-- At a later point the body adds the block's column sums to the row the point before left. -/
theorem outB1 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond1_0 i) (x0 : Vec Ideal S2000x128 .f32) (xo1 xo2 : Vec Ideal S1x128 .f32) :
    out1_B_1 c i a1 h1 a2 h2 a3 h3 hc x0 xo1 xo2 = k1_pay4 x0 xo1 := by
  unfold out1_B_1
  rw [View.read_writes_eq_canon _ _ _ (cover1_B_1 c i a1 h1 a2 h2 a3 h3 hc x0 xo1 xo2)]
  unfold kernelRun1_B
  dsimp only
  sl_unfold_words
  rw [View.canon_unit_zero hz]
  simp only [View.readAt_eq_ld, h1.read_unread, h2.read_unread, h3.read_unread, View.ld_unit_zero (S := S2000x128) hz, View.ld_unit_zero (S := S1x128) hz]

/-- The same for the running row of squares. -/
theorem outB2 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond1_0 i) (x0 : Vec Ideal S2000x128 .f32) (xo1 xo2 : Vec Ideal S1x128 .f32) :
    out1_B_2 c i a1 h1 a2 h2 a3 h3 hc x0 xo1 xo2 = k1_pay5 x0 xo2 := by
  unfold out1_B_2
  rw [View.read_writes_eq_canon _ _ _ (cover1_B_2 c i a1 h1 a2 h2 a3 h3 hc x0 xo1 xo2)]
  unfold kernelRun1_B
  dsimp only
  sl_unfold_words
  rw [View.canon_unit_zero hz]
  simp only [View.readAt_eq_ld, h1.read_unread, h2.read_unread, h3.read_unread, View.ld_unit_zero (S := S2000x128) hz, View.ld_unit_zero (S := S1x128) hz]

/-! ## The running rows after each point -/

/-- The printed index maps over the grid: the feature rows move with the point; the two running rows stay at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- A row of the point's block of feature rows is row 2000·t + p of the array. -/
theorem iblk_0_apply (c : Dev nD) (t : Fin cfg1.N) (p : Fin 2000) (k : Fin 128) (hr : 2000 * t.val + p.val < 100000) :
    iblk1 V c 0 t (ix2 p k) = V c (Pipeline.arrRef spec1 0) (ix2 (⟨2000 * t.val + p.val, hr⟩ : Fin 100000) k) := by
  obtain ⟨e00, e01, -⟩ := idx_facts t
  unfold iblk1
  rw [View.read_apply]
  show V c (Pipeline.arrRef spec1 0) (((cfg1.win 0).blk t).view.emb (ix2 p k)) = _
  refine congrArg (V c (Pipeline.arrRef spec1 0)) ?_
  funext a; apply Fin.ext
  match a with
  | ⟨0, _⟩ => show win1_0.index t (0 : Fin 2) * 2000 + 1 * p.val = 2000 * t.val + p.val; omega
  | ⟨1, _⟩ => show win1_0.index t (1 : Fin 2) * 128 + 1 * k.val = k.val; omega

/-- Column `k` of block `t` of an array, summed. -/
def blockSum (H : S100000x128.Idx → EReal) (k : Fin 128) (t : ℕ) : EReal :=
  if ht : t < 50 then ∑ q : Fin 2000, H (ix2 (⟨2000 * t + q.val, by have := q.isLt; omega⟩ : Fin 100000) k) else 0

/-- The same for the squares. -/
def blockSumSq (H : S100000x128.Idx → EReal) (k : Fin 128) (t : ℕ) : EReal :=
  if ht : t < 50 then ∑ q : Fin 2000, H (ix2 (⟨2000 * t + q.val, by have := q.isLt; omega⟩ : Fin 100000) k)
      * H (ix2 (⟨2000 * t + q.val, by have := q.isLt; omega⟩ : Fin 100000) k) else 0

/-- After point `n` the two running rows hold the sums of the block sums of the points up to `n`: by induction
    on the point, the first by the first-point case, every later one by the other case over the point before. -/
theorem outsAt_val (c : Dev nD) : ∀ (n : ℕ) (h : n < cfg1.N) (k : Fin 128),
    (outsAt1 V c n h).1 (ix2 (0 : Fin 1) k) = ∑ t ∈ Finset.range (n + 1), blockSum (V c (Pipeline.arrRef spec1 0)) k t
    ∧ (outsAt1 V c n h).2 (ix2 (0 : Fin 1) k) = ∑ t ∈ Finset.range (n + 1), blockSumSq (V c (Pipeline.arrRef spec1 0)) k t
  | 0, h, k => by
    rw [outsAt1_A V c ⟨0, h⟩ rfl]
    dsimp only
    rw [outA1, outA2, Finset.sum_range_one, Finset.sum_range_one]
    constructor
    · refine (k1_pay4_apply _ _ k).trans ?_
      rw [k1_pay1_apply, zero_add]
      unfold blockSum
      rw [dif_pos (by norm_num : (0 : ℕ) < 50)]
      refine Finset.sum_congr rfl fun q _ => ?_
      exact iblk_0_apply V c ⟨0, h⟩ q k _
    · refine (k1_pay5_apply _ _ k).trans ?_
      rw [k1_pay2_apply, zero_add]
      unfold blockSumSq
      rw [dif_pos (by norm_num : (0 : ℕ) < 50)]
      refine Finset.sum_congr rfl fun q _ => ?_
      rw [iblk_0_apply V c ⟨0, h⟩ q k _]
  | n + 1, h, k => by
    have hN : cfg1.N = 50 := N_1
    have hB : ¬(⟨n + 1, h⟩ : Fin cfg1.N).val % 50 = 0 := by dsimp only; omega
    obtain ⟨ih1, ih2⟩ := outsAt_val c n (Nat.lt_of_succ_lt h) k
    rw [outsAt1_B V c ⟨n + 1, h⟩ hB]
    dsimp only
    rw [outB1, outB2, Finset.sum_range_succ _ (n + 1), Finset.sum_range_succ _ (n + 1)]
    constructor
    · refine (k1_pay4_apply _ _ k).trans ?_
      show (outsAt1 V c n _).1 (ix2 (0 : Fin 1) k) + _ = _
      rw [ih1]
      refine congrArg _ ?_
      unfold blockSum
      rw [dif_pos (by omega : n + 1 < 50)]
      refine Finset.sum_congr rfl fun q _ => ?_
      exact iblk_0_apply V c ⟨n + 1, h⟩ q k _
    · refine (k1_pay5_apply _ _ k).trans ?_
      show (outsAt1 V c n _).2 (ix2 (0 : Fin 1) k) + _ = _
      rw [ih2]
      refine congrArg _ ?_
      unfold blockSumSq
      rw [dif_pos (by omega : n + 1 < 50)]
      refine Finset.sum_congr rfl fun q _ => ?_
      rw [iblk_0_apply V c ⟨n + 1, h⟩ q k _]

/-- The 50 block sums add up to the whole column sum. -/
theorem sum_blockSum (H : S100000x128.Idx → EReal) (k : Fin 128) :
    ∑ t ∈ Finset.range 50, blockSum H k t = ∑ r : Fin 100000, H (ix2 r k) := by
  rw [Finset.sum_range, ← Sage.Laws.sum_blocks (fun r => H (ix2 r k))]
  refine Finset.sum_congr rfl fun t _ => ?_
  unfold blockSum
  rw [dif_pos t.isLt]

theorem sum_blockSumSq (H : S100000x128.Idx → EReal) (k : Fin 128) :
    ∑ t ∈ Finset.range 50, blockSumSq H k t = ∑ r : Fin 100000, H (ix2 r k) * H (ix2 r k) := by
  rw [Finset.sum_range, ← Sage.Laws.sum_blocks (fun r => H (ix2 r k) * H (ix2 r k))]
  refine Finset.sum_congr rfl fun t _ => ?_
  unfold blockSumSq
  rw [dif_pos t.isLt]

/-! ## The two output rows -/

/-- The column sums of an array, as a row. -/
def colSums (H : S100000x128.Idx → EReal) : S1x128.Idx → EReal := fun i => ∑ r : Fin 100000, H (ix2 r (i 1))
/-- The column sums of the squares, as a row. -/
def colSumSqs (H : S100000x128.Idx → EReal) : S1x128.Idx → EReal := fun i => ∑ r : Fin 100000, H (ix2 r (i 1)) * H (ix2 r (i 1))

/-- A row read through a running row's one block. -/
theorem read_1_apply (t : Fin cfg1.N) (G : S1x128.Idx → EReal) (k : Fin 128) :
    ((cfg1.win 1).blk t).view.read (Elt Ideal) G (ix2 (0 : Fin 1) k) = G (ix2 (0 : Fin 1) k) := by
  obtain ⟨-, -, e10, e11, -⟩ := idx_facts t
  rw [View.read_apply]
  show G (((cfg1.win 1).blk t).view.emb (ix2 (0 : Fin 1) k)) = _
  refine congrArg G ?_
  funext a; apply Fin.ext
  match a with
  | ⟨0, _⟩ => show win1_1.index t (0 : Fin 2) * 1 + 1 * 0 = 0; omega
  | ⟨1, _⟩ => show win1_1.index t (1 : Fin 2) * 128 + 1 * k.val = k.val; omega

theorem read_2_apply (t : Fin cfg1.N) (G : S1x128.Idx → EReal) (k : Fin 128) :
    ((cfg1.win 2).blk t).view.read (Elt Ideal) G (ix2 (0 : Fin 1) k) = G (ix2 (0 : Fin 1) k) := by
  obtain ⟨-, -, -, -, e20, e21⟩ := idx_facts t
  rw [View.read_apply]
  show G (((cfg1.win 2).blk t).view.emb (ix2 (0 : Fin 1) k)) = _
  refine congrArg G ?_
  funext a; apply Fin.ext
  match a with
  | ⟨0, _⟩ => show win1_2.index t (0 : Fin 2) * 1 + 1 * 0 = 0; omega
  | ⟨1, _⟩ => show win1_2.index t (1 : Fin 2) * 128 + 1 * k.val = k.val; omega

/-- The one write-back of the first row, after the last point, writes the column sums. -/
theorem flushed1_eq (c : Dev nD) (t : Fin cfg1.N) (hf : (cfg1.win 1).flush t = true) :
    (dat1 V c).flushed 1 t = ((cfg1.win 1).blk t).view.read (Elt Ideal) (colSums (V c (Pipeline.arrRef spec1 0))) := by
  have hN : cfg1.N = 50 := N_1
  have h49 : t.val = 49 := by have := (flush1_1 t).mp hf; have := t.isLt; omega
  show (cfg1.win 1).cut (grid1.coords t) ((dat1 V c).after 1 t) = _
  rw [after1_1]
  funext y
  obtain ⟨u, k, rfl⟩ : ∃ (u : Fin 1) (k : Fin 128), y = ix2 u k := ⟨y 0, y 1, eq_ix2 y⟩
  obtain rfl : u = 0 := Subsingleton.elim _ _
  rw [read_1_apply t _ k]
  show (outsAt1 V c t.val t.isLt).1 (ix2 (0 : Fin 1) k) = _
  rw [(outsAt_val V c t.val t.isLt k).1, h49, sum_blockSum]
  rfl

/-- The one write-back of the second row writes the column sums of the squares. -/
theorem flushed2_eq (c : Dev nD) (t : Fin cfg1.N) (hf : (cfg1.win 2).flush t = true) :
    (dat1 V c).flushed 2 t = ((cfg1.win 2).blk t).view.read (Elt Ideal) (colSumSqs (V c (Pipeline.arrRef spec1 0))) := by
  have hN : cfg1.N = 50 := N_1
  have h49 : t.val = 49 := by have := (flush1_2 t).mp hf; have := t.isLt; omega
  show (cfg1.win 2).cut (grid1.coords t) ((dat1 V c).after 2 t) = _
  rw [after1_2]
  funext y
  obtain ⟨u, k, rfl⟩ : ∃ (u : Fin 1) (k : Fin 128), y = ix2 u k := ⟨y 0, y 1, eq_ix2 y⟩
  obtain rfl : u = 0 := Subsingleton.elim _ _
  rw [read_2_apply t _ k]
  show (outsAt1 V c t.val t.isLt).2 (ix2 (0 : Fin 1) k) = _
  rw [(outsAt_val V c t.val t.isLt k).2, h49, sum_blockSumSq]
  rfl

/-- An index of a running row is in a point's block iff each coordinate is in the block's range on its axis. -/
theorem mem_blk1 (t : Fin cfg1.N) (i : S1x128.Idx) :
    i ∈ ((cfg1.win 1).blk t).view.set ↔ ∀ a : Fin 2, win1_1.index t a * S1x128.size a ≤ (i a).val ∧ (i a).val < win1_1.index t a * S1x128.size a + S1x128.size a := by
  show i ∈ ((View.whole main_v31_0).slice (win1_1.rect t)).set ↔ _
  rw [View.set_slice_whole, Rect.mem_set_unit]
  exact Iff.rfl

theorem mem_blk2 (t : Fin cfg1.N) (i : S1x128.Idx) :
    i ∈ ((cfg1.win 2).blk t).view.set ↔ ∀ a : Fin 2, win1_2.index t a * S1x128.size a ≤ (i a).val ∧ (i a).val < win1_2.index t a * S1x128.size a + S1x128.size a := by
  show i ∈ ((View.whole main_v31_1).slice (win1_2.rect t)).set ↔ _
  rw [View.set_slice_whole, Rect.mem_set_unit]
  exact Iff.rfl

/-- The last point. -/
def tLast : Fin cfg1.N := ⟨49, by rw [show cfg1.N = 50 from N_1]; norm_num⟩

/-- The first output row after the region: the column sums of the array the region finds. -/
theorem final1 (c : Dev nD) : (dat1 V c).arrAt 1 cfg1.N = colSums (V c (Pipeline.arrRef spec1 0)) :=
  (dat1 V c).arrAt_eq_of_cover 1 _ (flushed1_eq V c) fun i => ⟨tLast, (flush1_1 tLast).mpr rfl, by
    obtain ⟨-, -, e10, e11, -⟩ := idx_facts tLast
    have hi0 : (i 0).val < 1 := (i 0).isLt
    have hi1 : (i 1).val < 128 := (i 1).isLt
    rw [mem_blk1]
    intro a
    match a with
    | ⟨0, _⟩ => show win1_1.index tLast (0 : Fin 2) * 1 ≤ (i 0).val ∧ (i 0).val < win1_1.index tLast (0 : Fin 2) * 1 + 1; omega
    | ⟨1, _⟩ => show win1_1.index tLast (1 : Fin 2) * 128 ≤ (i 1).val ∧ (i 1).val < win1_1.index tLast (1 : Fin 2) * 128 + 128; omega⟩

/-- The second output row after the region: the column sums of the squares. -/
theorem final2 (c : Dev nD) : (dat1 V c).arrAt 2 cfg1.N = colSumSqs (V c (Pipeline.arrRef spec1 0)) :=
  (dat1 V c).arrAt_eq_of_cover 2 _ (flushed2_eq V c) fun i => ⟨tLast, (flush1_2 tLast).mpr rfl, by
    obtain ⟨-, -, -, -, e20, e21⟩ := idx_facts tLast
    have hi0 : (i 0).val < 1 := (i 0).isLt
    have hi1 : (i 1).val < 128 := (i 1).isLt
    rw [mem_blk2]
    intro a
    match a with
    | ⟨0, _⟩ => show win1_2.index tLast (0 : Fin 2) * 1 ≤ (i 0).val ∧ (i 0).val < win1_2.index tLast (0 : Fin 2) * 1 + 1; omega
    | ⟨1, _⟩ => show win1_2.index tLast (1 : Fin 2) * 128 ≤ (i 1).val ∧ (i 1).val < win1_2.index tLast (1 : Fin 2) * 128 + 128; omega⟩

end Cert.KernelIdeal.KStats

end
-- ==== Proof.KArr.lean ====
/-
  The kernel program's result array as one closed term of its ten argument arrays.

  First layer: the mean over in-neighbours of the input features and the features themselves go through the
  layer region (two linear maps, bias, row normalisation, clamp at zero). The statistics region sums the
  columns of that array and of its squares; the host turns the sums into the mean row and the reciprocal
  deviation row; the batch-norm region applies the affine map. Second layer: the same layer region without the
  clamp, on the batch-normalised array and its mean over in-neighbours.
-/
import proofs.«112482_j24842090840540_1_alg».proof.Proof.KTerm
import proofs.«112482_j24842090840540_1_alg».proof.Proof.KLayer0
import proofs.«112482_j24842090840540_1_alg».proof.Proof.KLayer3
import proofs.«112482_j24842090840540_1_alg».proof.Proof.KBn
import proofs.«112482_j24842090840540_1_alg».proof.Proof.KStats

noncomputable section

namespace Cert.KernelIdeal.KArr

open Idealize.ShloMosaic Cert.KernelIdeal Cert.KernelIdeal.Gen

/-- The reciprocal clamped in-degree, as a column. -/
def dcol (a1 : (⟨S2x1600000, .i32⟩ : BufTy).Contents (Elt Ideal)) : (⟨S100000x1, .f32⟩ : BufTy).Contents (Elt Ideal) :=
  shapeCast S100000x1 (KTerm.dinv (KTerm.dst a1)) Facts₀.shapeCasts_S100000_S100000x1

/-- The mean over in-neighbours of a feature array. -/
def mean (a1 : (⟨S2x1600000, .i32⟩ : BufTy).Contents (Elt Ideal)) (y : (⟨S100000x128, .f32⟩ : BufTy).Contents (Elt Ideal)) : (⟨S100000x128, .f32⟩ : BufTy).Contents (Elt Ideal) :=
  KTerm.meanK (KTerm.src a1) (KTerm.dst a1) (dcol a1) y

/-- A per-feature vector as a row [1,128]. -/
def row (b : (⟨S128, .f32⟩ : BufTy).Contents (Elt Ideal)) : (⟨S1x128, .f32⟩ : BufTy).Contents (Elt Ideal) :=
  shapeCast S1x128 b Facts₀.shapeCasts_S128_S1x128

/-- The first layer's output, clamped at zero. -/
def r0 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) : S100000x128.Idx → EReal :=
  KLayer0.layerArr (mean a1 a0) a0 (KTerm.wT a2) (row a3) (KTerm.wT a4)

/-- The batch-normalised array. -/
def r2 (h : S100000x128.Idx → EReal) (a5 a6 : (⟨S128, .f32⟩ : BufTy).Contents (Elt Ideal)) : S100000x128.Idx → EReal :=
  KBn.bnArr h (KTerm.muRow (KStats.colSums h)) (KTerm.istdRow (KStats.colSums h) (KStats.colSumSqs h)) (row a5) (row a6)

/-- The second layer's output. -/
def r3 (a1 : (⟨S2x1600000, .i32⟩ : BufTy).Contents (Elt Ideal)) (y : S100000x128.Idx → EReal) (a7 : (⟨S128x128, .f32⟩ : BufTy).Contents (Elt Ideal)) (a8 : (⟨S128, .f32⟩ : BufTy).Contents (Elt Ideal)) (a9 : (⟨S128x128, .f32⟩ : BufTy).Contents (Elt Ideal)) : S100000x128.Idx → EReal :=
  KLayer3.layerArr (mean a1 y) y (KTerm.wT a7) (row a8) (KTerm.wT a9)

/-- The program's result. -/
def out (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal))
    (a5 a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) : S100000x128.Idx → EReal :=
  r3 a1 (r2 (r0 a0 a1 a2 a3 a4) a5 a6) a7 a8 a9

end Cert.KernelIdeal.KArr

end
-- ==== Proof.KChain.lean ====
/-
  The kernel program's result buffer at the last boundary is the closed term of KArr.lean.

  Each region's output array is the region's function of the arrays it finds (the region modules); the arrays a
  region finds are what the host stretch before it computed from earlier boundaries, or an earlier region's
  output that nothing in between writes. Chaining these from the last region back to the launch memory gives the
  result as a term of the ten argument arrays.
-/
import proofs.«112482_j24842090840540_1_alg».proof.Proof.KHostA
import proofs.«112482_j24842090840540_1_alg».proof.Proof.KArr

set_option maxRecDepth 16384

noncomputable section

namespace Cert.KernelIdeal.KChain

open Idealize.ShloMosaic Idealize.ShloMosaic.TcCoe
open Cert.KernelIdeal Cert.KernelIdeal.Gen Cert.KernelIdeal.KHost

variable (m : (ℓ : Loc nD τ sig) → Buf (Elt Ideal) ℓ) (ρ : Dev nD → PrngReg)

/-- The first layer's output after the first region. -/
theorem hR0 (c : Dev nD) : W2 m ρ c (Proc.devRef .tc main_v30) = KArr.r0 (m ((c : Thread nD τ).loc main_arg0)) (m ((c : Thread nD τ).loc main_arg1)) (m ((c : Thread nD τ).loc main_arg2)) (m ((c : Thread nD τ).loc main_arg3)) (m ((c : Thread nD τ).loc main_arg4)) := by
  have h0 : V1 m ρ c (Pipeline.arrRef spec0 0) = _ := W1_v24 m ρ c
  have h1 : V1 m ρ c (Pipeline.arrRef spec0 1) = _ := W1_arg0 m ρ c
  have h2 : V1 m ρ c (Pipeline.arrRef spec0 2) = _ := W1_v26 m ρ c
  have h3 : V1 m ρ c (Pipeline.arrRef spec0 3) = _ := W1_v29 m ρ c
  have h4 : V1 m ρ c (Pipeline.arrRef spec0 4) = _ := W1_v28 m ρ c
  refine (W2_arr m ρ c 5).trans ((KLayer0.final (V1 m ρ) c).trans ?_)
  rw [h0, h1, h2, h3, h4]
  rfl

/-- The array the statistics region and the batch-norm region read is the first layer's output. -/
theorem hV2 (c : Dev nD) : V2 m ρ c (Pipeline.arrRef spec1 0) = KArr.r0 (m ((c : Thread nD τ).loc main_arg0)) (m ((c : Thread nD τ).loc main_arg1)) (m ((c : Thread nD τ).loc main_arg2)) (m ((c : Thread nD τ).loc main_arg3)) (m ((c : Thread nD τ).loc main_arg4)) := hR0 m ρ c

theorem hS (c : Dev nD) : W3 m ρ c (Proc.devRef .tc main_v31_0) = KStats.colSums (KArr.r0 (m ((c : Thread nD τ).loc main_arg0)) (m ((c : Thread nD τ).loc main_arg1)) (m ((c : Thread nD τ).loc main_arg2)) (m ((c : Thread nD τ).loc main_arg3)) (m ((c : Thread nD τ).loc main_arg4))) := by
  refine (W3_arr m ρ c 1).trans ((KStats.final1 (V2 m ρ) c).trans ?_)
  rw [hV2 m ρ c]

theorem hSS (c : Dev nD) : W3 m ρ c (Proc.devRef .tc main_v31_1) = KStats.colSumSqs (KArr.r0 (m ((c : Thread nD τ).loc main_arg0)) (m ((c : Thread nD τ).loc main_arg1)) (m ((c : Thread nD τ).loc main_arg2)) (m ((c : Thread nD τ).loc main_arg3)) (m ((c : Thread nD τ).loc main_arg4))) := by
  refine (W3_arr m ρ c 2).trans ((KStats.final2 (V2 m ρ) c).trans ?_)
  rw [hV2 m ρ c]

/-- The first layer's output is still there when the batch-norm region is entered. -/
theorem hV4_0 (c : Dev nD) : V4 m ρ c (Pipeline.arrRef spec2 0) = KArr.r0 (m ((c : Thread nD τ).loc main_arg0)) (m ((c : Thread nD τ).loc main_arg1)) (m ((c : Thread nD τ).loc main_arg2)) (m ((c : Thread nD τ).loc main_arg3)) (m ((c : Thread nD τ).loc main_arg4)) :=
  (W4_v30 m ρ c).trans (((W3_arr m ρ c 0).trans (((dat1 (V2 m ρ) c).arrAt_in 0 rfl _).trans (A_eq1 (V2 m ρ) c 0))).trans (hV2 m ρ c))

/-- The batch-normalised array after the third region. -/
theorem hR2 (c : Dev nD) : W5 m ρ c (Proc.devRef .tc main_v43)
    = KArr.r2 (KArr.r0 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  have h1 : V4 m ρ c (Pipeline.arrRef spec2 1) = _ := W4_v33 m ρ c
  have h2 : V4 m ρ c (Pipeline.arrRef spec2 2) = _ := W4_v40 m ρ c
  have h3 : V4 m ρ c (Pipeline.arrRef spec2 3) = _ := W4_v41 m ρ c
  have h4 : V4 m ρ c (Pipeline.arrRef spec2 4) = _ := W4_v42 m ρ c
  refine (W5_arr m ρ c 5).trans ((KBn.final (V4 m ρ) c).trans ?_)
  rw [hV4_0 m ρ c, h1, h2, h3, h4, hS m ρ c, hSS m ρ c]
  rfl

set_option maxHeartbeats 4000000 in
/-- The program's result. -/
theorem result (c : Dev nD) : W7 m ρ c (Proc.devRef .tc main_v61)
    = KArr.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h0 : V6 m ρ c (Pipeline.arrRef spec3 0) = _ := W6_v55 m ρ c
  have h1 : V6 m ρ c (Pipeline.arrRef spec3 1) = _ := W6_v43 m ρ c
  have h2 : V6 m ρ c (Pipeline.arrRef spec3 2) = _ := W6_v57 m ρ c
  have h3 : V6 m ρ c (Pipeline.arrRef spec3 3) = _ := W6_v60 m ρ c
  have h4 : V6 m ρ c (Pipeline.arrRef spec3 4) = _ := W6_v59 m ρ c
  refine (W7_arr m ρ c 5).trans ((KLayer3.final (V6 m ρ) c).trans ?_)
  rw [h0, h1, h2, h3, h4, W5_v1 m ρ c, W1_v1 m ρ c, W5_v3 m ρ c, W1_v3 m ρ c, W5_v12 m ρ c, W1_v12 m ρ c, hR2 m ρ c]
  rfl

end Cert.KernelIdeal.KChain

end
-- ==== Proof.RefRunOps.lean ====
/-
  The reference program's main function as a list of its 137 tensor operations, the outlined helper
  functions (row norm, clamp at zero, variance, select) written out at their call sites over the
  buffers each call names, cut into seven consecutive stages:

    A  the index columns, the in-degree, the neighbour sum and the first layer's linear part;
    B  the first layer's row normalisation;
    C  the clamp at zero;
    D0 the batch mean, the batch variance, the centred rows and the inverse deviation;
    D1 the scale and shift of the batch normalisation;
    E  the second layer's neighbour sum and linear part;
    F  the second layer's row normalisation.

  Proved here: the main function is the straight line of these operations; every operation touches
  only buffers of the tensor core; no buffer or semaphore is scoped; hence every weakly fair
  execution terminates with every buffer at the fold of the operations over the launch contents;
  and a buffer that a stage does not write keeps its contents through that stage.
-/
import proofs.«112482_j24842090840540_1_alg».proof.ReferenceIdeal
import proofs.«112482_j24842090840540_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- Stage A: operations 1 … 37. -/
abbrev opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_c (constantI S_ 32 0#32),
    StableHlo.unary main_c main_v8 (broadcastInDim S1600000 ![] bcast_S_S1600000 : (⟨S_, .i32⟩ : BufTy).Contents (Elt F) → (⟨S1600000, .i32⟩ : BufTy).Contents (Elt F)),
    StableHlo.binary main_v1 main_v8 main_v9 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v10 (broadcastInDim S1600000 ![] bcast_S_S1600000 : (⟨S_, .i32⟩ : BufTy).Contents (Elt F) → (⟨S1600000, .i32⟩ : BufTy).Contents (Elt F)),
    StableHlo.binary main_v1 main_v10 main_v11 (addi : (⟨S1600000, .i32⟩ : BufTy).Contents (Elt F) → (⟨S1600000, .i32⟩ : BufTy).Contents (Elt F) → (⟨S1600000, .i32⟩ : BufTy).Contents (Elt F)),
    StableHlo.ternary main_v9 main_v11 main_v1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v12 main_v13 (broadcastInDim S1600000x1 ![0] bcast_S1600000_S1600000x1_0 : (⟨S1600000, .i32⟩ : BufTy).Contents (Elt F) → (⟨S1600000x1, .i32⟩ : BufTy).Contents (Elt F)),
    StableHlo.binary main_arg0 main_v13 main_v14 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_2 (constant S_ .f32 0x00000000#32),
    StableHlo.unary main_cst_2 main_v15 (broadcastInDim S100000x128 ![] bcast_S_S100000x128 : (⟨S_, .f32⟩ : BufTy).Contents (Elt F) → (⟨S100000x128, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v7 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x128 ![0, 1] bcast_S100000x1_S100000x128_0_1 : (⟨S100000x1, .f32⟩ : BufTy).Contents (Elt F) → (⟨S100000x128, .f32⟩ : BufTy).Contents (Elt F)),
    StableHlo.binary main_v17 main_v21 main_v22 (Host.divf : (⟨S100000x128, .f32⟩ : BufTy).Contents (Elt F) → (⟨S100000x128, .f32⟩ : BufTy).Contents (Elt F) → (⟨S100000x128, .f32⟩ : BufTy).Contents (Elt F)),
    StableHlo.unary main_arg2 main_v23 ((transpose S128x128 [1, 0] · transposes_S128x128_S128x128_1_0) : (⟨S128x128, .f32⟩ : BufTy).Contents (Elt F) → (⟨S128x128, .f32⟩ : BufTy).Contents (Elt F)),
    StableHlo.binary main_v22 main_v23 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v26 main_v27 (addf : (⟨S100000x128, .f32⟩ : BufTy).Contents (Elt F) → (⟨S100000x128, .f32⟩ : BufTy).Contents (Elt F) → (⟨S100000x128, .f32⟩ : BufTy).Contents (Elt F)),
    StableHlo.unary main_arg4 main_v28 ((transpose S128x128 [1, 0] · transposes_S128x128_S128x128_1_0) : (⟨S128x128, .f32⟩ : BufTy).Contents (Elt F) → (⟨S128x128, .f32⟩ : BufTy).Contents (Elt F)),
    StableHlo.binary main_arg0 main_v28 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v27 main_v29 main_v30 (addf : (⟨S100000x128, .f32⟩ : BufTy).Contents (Elt F) → (⟨S100000x128, .f32⟩ : BufTy).Contents (Elt F) → (⟨S100000x128, .f32⟩ : BufTy).Contents (Elt F)) ]

/-- Stage B: operations 38 … 47. -/
abbrev opsB : List (HloOp τ sig (Elt F)) :=
  [ StableHlo.TRef.binary (StableHlo.TRef.of main_v30 : StableHlo.TRef sig ⟨S100000x128, .f32⟩) (StableHlo.TRef.of main_v30 : StableHlo.TRef sig ⟨S100000x128, .f32⟩) main_call0.v0 mulf,
    StableHlo.TRef.nullary main_call0.cst (constant S_ .f32 0x00000000#32),
    StableHlo.TRef.binary main_call0.v0 main_call0.cst main_call0.v1 (fun x v => Host.reduceAdd x v reducesTo_S100000x128_S100000_d1 h_S_),
    StableHlo.TRef.unary main_call0.v1 main_call0.v2 (broadcastInDim S100000x1 ![0] bcast_S100000_S100000x1_0),
    StableHlo.TRef.unary main_call0.v2 main_call0.v3 Host.sqrt,
    StableHlo.nullary main_cst_4 (constant S_ .f32 0x2B8CBCCC#32),
    StableHlo.unary main_cst_4 main_v32 (broadcastInDim S100000x1 ![] bcast_S_S100000x1 : (⟨S_, .f32⟩ : BufTy).Contents (Elt F) → (⟨S100000x1, .f32⟩ : BufTy).Contents (Elt F)),
    StableHlo.binary main_v31 main_v32 main_v33 (maximumf : (⟨S100000x1, .f32⟩ : BufTy).Contents (Elt F) → (⟨S100000x1, .f32⟩ : BufTy).Contents (Elt F) → (⟨S100000x1, .f32⟩ : BufTy).Contents (Elt F)),
    StableHlo.unary main_v33 main_v34 (broadcastInDim S100000x128 ![0, 1] bcast_S100000x1_S100000x128_0_1 : (⟨S100000x1, .f32⟩ : BufTy).Contents (Elt F) → (⟨S100000x128, .f32⟩ : BufTy).Contents (Elt F)),
    StableHlo.binary main_v30 main_v34 main_v35 (Host.divf : (⟨S100000x128, .f32⟩ : BufTy).Contents (Elt F) → (⟨S100000x128, .f32⟩ : BufTy).Contents (Elt F) → (⟨S100000x128, .f32⟩ : BufTy).Contents (Elt F)) ]

/-- Stage C: operations 48 … 50. -/
abbrev opsC : List (HloOp τ sig (Elt F)) :=
  [ StableHlo.TRef.nullary main_call1.cst (constant S_ .f32 0x00000000#32),
    StableHlo.TRef.unary main_call1.cst main_call1.v0 (broadcastInDim S100000x128 ![] bcast_S_S100000x128),
    StableHlo.TRef.binary (StableHlo.TRef.of main_v35 : StableHlo.TRef sig ⟨S100000x128, .f32⟩) main_call1.v0 main_call1.v1 maximumf ]

/-- Stage D0: operations 51 … 87. -/
abbrev opsD0 : List (HloOp τ sig (Elt F)) :=
  [ StableHlo.nullary main_cst_5 (constant S_ .f32 0x00000000#32),
    StableHlo.binary main_v36 main_cst_5 main_v37 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v38 (broadcastInDim S128 ![] bcast_S_S128 : (⟨S_, .f32⟩ : BufTy).Contents (Elt F) → (⟨S128, .f32⟩ : BufTy).Contents (Elt F)),
    StableHlo.binary main_v37 main_v38 main_v39 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (StableHlo.TRef.of main_v36 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of main_v36 : StableHlo.TRef sig ⟨S100000x128, .f32⟩) main_call2.v4 main_call2.v5 subf,
    StableHlo.TRef.binary main_call2.v5 main_call2.v5 main_call2.v6 mulf,
    StableHlo.TRef.unary (StableHlo.TRef.of main_c_7 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v39 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v42 main_v43 (subf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v44 (broadcastInDim S128 ![] bcast_S_S128 : (⟨S_, .f32⟩ : BufTy).Contents (Elt F) → (⟨S128, .f32⟩ : BufTy).Contents (Elt F)),
    StableHlo.binary main_v40 main_v44 main_v45 (addf : (⟨S128, .f32⟩ : BufTy).Contents (Elt F) → (⟨S128, .f32⟩ : BufTy).Contents (Elt F) → (⟨S128, .f32⟩ : BufTy).Contents (Elt F)),
    StableHlo.unary main_v45 main_v46 (Host.rsqrt : (⟨S128, .f32⟩ : BufTy).Contents (Elt F) → (⟨S128, .f32⟩ : BufTy).Contents (Elt F)),
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)) ]

/-- Stage D1: operations 88 … 94. -/
abbrev opsD1 : List (HloOp τ sig (Elt F)) :=
  [ StableHlo.binary main_v43 main_v48 main_v49 (mulf : (⟨S100000x128, .f32⟩ : BufTy).Contents (Elt F) → (⟨S100000x128, .f32⟩ : BufTy).Contents (Elt F) → (⟨S100000x128, .f32⟩ : BufTy).Contents (Elt F)),
    StableHlo.unary main_arg5 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v51 main_v52 (mulf : (⟨S100000x128, .f32⟩ : BufTy).Contents (Elt F) → (⟨S100000x128, .f32⟩ : BufTy).Contents (Elt F) → (⟨S100000x128, .f32⟩ : BufTy).Contents (Elt F)),
    StableHlo.unary main_arg6 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (addf : (⟨S100000x128, .f32⟩ : BufTy).Contents (Elt F) → (⟨S100000x128, .f32⟩ : BufTy).Contents (Elt F) → (⟨S100000x128, .f32⟩ : BufTy).Contents (Elt F)) ]

/-- Stage E: operations 95 … 127. -/
abbrev opsE : List (HloOp τ sig (Elt F)) :=
  [ StableHlo.nullary main_cst_9 (constant S_ .f32 0x3F800000#32),
    StableHlo.unary main_cst_9 main_v56 (broadcastInDim S1600000 ![] bcast_S_S1600000 : (⟨S_, .f32⟩ : BufTy).Contents (Elt F) → (⟨S1600000, .f32⟩ : BufTy).Contents (Elt F)),
    StableHlo.nullary main_cst_10 (constant S_ .f32 0x00000000#32),
    StableHlo.unary main_cst_10 main_v57 (broadcastInDim S100000 ![] bcast_S_S100000 : (⟨S_, .f32⟩ : BufTy).Contents (Elt F) → (⟨S100000, .f32⟩ : BufTy).Contents (Elt F)),
    StableHlo.unary main_v3 main_v58 (broadcastInDim S1600000x1 ![0] bcast_S1600000_S1600000x1_0 : (⟨S1600000, .i32⟩ : BufTy).Contents (Elt F) → (⟨S1600000x1, .i32⟩ : BufTy).Contents (Elt F)),
    StableHlo.ternary main_v57 main_v58 main_v56 main_v59 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_c_11 (constantI S_ 32 0#32),
    StableHlo.unary main_c_11 main_v60 (broadcastInDim S1600000 ![] bcast_S_S1600000 : (⟨S_, .i32⟩ : BufTy).Contents (Elt F) → (⟨S1600000, .i32⟩ : BufTy).Contents (Elt F)),
    StableHlo.binary main_v1 main_v60 main_v61 (cmpi .slt : (⟨S1600000, .i32⟩ : BufTy).Contents (Elt F) → (⟨S1600000, .i32⟩ : BufTy).Contents (Elt F) → (⟨S1600000, .i1⟩ : BufTy).Contents (Elt F)),
    StableHlo.nullary main_c_12 (constantI S_ 32 100000#32),
    StableHlo.unary main_c_12 main_v62 (broadcastInDim S1600000 ![] bcast_S_S1600000 : (⟨S_, .i32⟩ : BufTy).Contents (Elt F) → (⟨S1600000, .i32⟩ : BufTy).Contents (Elt F)),
    StableHlo.binary main_v1 main_v62 main_v63 (addi : (⟨S1600000, .i32⟩ : BufTy).Contents (Elt F) → (⟨S1600000, .i32⟩ : BufTy).Contents (Elt F) → (⟨S1600000, .i32⟩ : BufTy).Contents (Elt F)),
    StableHlo.ternary main_v61 main_v63 main_v1 main_v64 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v64 main_v65 (broadcastInDim S1600000x1 ![0] bcast_S1600000_S1600000x1_0 : (⟨S1600000, .i32⟩ : BufTy).Contents (Elt F) → (⟨S1600000x1, .i32⟩ : BufTy).Contents (Elt F)),
    StableHlo.binary main_v55 main_v65 main_v66 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_13 (constant S_ .f32 0x00000000#32),
    StableHlo.unary main_cst_13 main_v67 (broadcastInDim S100000x128 ![] bcast_S_S100000x128 : (⟨S_, .f32⟩ : BufTy).Contents (Elt F) → (⟨S100000x128, .f32⟩ : BufTy).Contents (Elt F)),
    StableHlo.unary main_v3 main_v68 (broadcastInDim S1600000x1 ![0] bcast_S1600000_S1600000x1_0 : (⟨S1600000, .i32⟩ : BufTy).Contents (Elt F) → (⟨S1600000x1, .i32⟩ : BufTy).Contents (Elt F)),
    StableHlo.ternary main_v67 main_v68 main_v66 main_v69 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_14 (constant S_ .f32 0x3F800000#32),
    StableHlo.unary main_cst_14 main_v70 (broadcastInDim S100000 ![] bcast_S_S100000 : (⟨S_, .f32⟩ : BufTy).Contents (Elt F) → (⟨S100000, .f32⟩ : BufTy).Contents (Elt F)),
    StableHlo.binary main_v59 main_v70 main_v71 (maximumf : (⟨S100000, .f32⟩ : BufTy).Contents (Elt F) → (⟨S100000, .f32⟩ : BufTy).Contents (Elt F) → (⟨S100000, .f32⟩ : BufTy).Contents (Elt F)),
    StableHlo.unary main_v71 main_v72 (broadcastInDim S100000x1 ![0] bcast_S100000_S100000x1_0 : (⟨S100000, .f32⟩ : BufTy).Contents (Elt F) → (⟨S100000x1, .f32⟩ : BufTy).Contents (Elt F)),
    StableHlo.unary main_v72 main_v73 (broadcastInDim S100000x128 ![0, 1] bcast_S100000x1_S100000x128_0_1 : (⟨S100000x1, .f32⟩ : BufTy).Contents (Elt F) → (⟨S100000x128, .f32⟩ : BufTy).Contents (Elt F)),
    StableHlo.binary main_v69 main_v73 main_v74 (Host.divf : (⟨S100000x128, .f32⟩ : BufTy).Contents (Elt F) → (⟨S100000x128, .f32⟩ : BufTy).Contents (Elt F) → (⟨S100000x128, .f32⟩ : BufTy).Contents (Elt F)),
    StableHlo.unary main_arg7 main_v75 ((transpose S128x128 [1, 0] · transposes_S128x128_S128x128_1_0) : (⟨S128x128, .f32⟩ : BufTy).Contents (Elt F) → (⟨S128x128, .f32⟩ : BufTy).Contents (Elt F)),
    StableHlo.binary main_v74 main_v75 main_v76 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S100000x128 ![0, 1] bcast_S1x128_S100000x128_0_1 : (⟨S1x128, .f32⟩ : BufTy).Contents (Elt F) → (⟨S100000x128, .f32⟩ : BufTy).Contents (Elt F)),
    StableHlo.binary main_v76 main_v78 main_v79 (addf : (⟨S100000x128, .f32⟩ : BufTy).Contents (Elt F) → (⟨S100000x128, .f32⟩ : BufTy).Contents (Elt F) → (⟨S100000x128, .f32⟩ : BufTy).Contents (Elt F)),
    StableHlo.unary main_arg9 main_v80 ((transpose S128x128 [1, 0] · transposes_S128x128_S128x128_1_0) : (⟨S128x128, .f32⟩ : BufTy).Contents (Elt F) → (⟨S128x128, .f32⟩ : BufTy).Contents (Elt F)),
    StableHlo.binary main_v55 main_v80 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v79 main_v81 main_v82 (addf : (⟨S100000x128, .f32⟩ : BufTy).Contents (Elt F) → (⟨S100000x128, .f32⟩ : BufTy).Contents (Elt F) → (⟨S100000x128, .f32⟩ : BufTy).Contents (Elt F)) ]

/-- Stage F: operations 128 … 137. -/
abbrev opsF : List (HloOp τ sig (Elt F)) :=
  [ StableHlo.TRef.binary (StableHlo.TRef.of main_v82 : StableHlo.TRef sig ⟨S100000x128, .f32⟩) (StableHlo.TRef.of main_v82 : StableHlo.TRef sig ⟨S100000x128, .f32⟩) main_call3.v0 mulf,
    StableHlo.TRef.nullary main_call3.cst (constant S_ .f32 0x00000000#32),
    StableHlo.TRef.binary main_call3.v0 main_call3.cst main_call3.v1 (fun x v => Host.reduceAdd x v reducesTo_S100000x128_S100000_d1 h_S_),
    StableHlo.TRef.unary main_call3.v1 main_call3.v2 (broadcastInDim S100000x1 ![0] bcast_S100000_S100000x1_0),
    StableHlo.TRef.unary main_call3.v2 main_call3.v3 Host.sqrt,
    StableHlo.nullary main_cst_15 (constant S_ .f32 0x2B8CBCCC#32),
    StableHlo.unary main_cst_15 main_v84 (broadcastInDim S100000x1 ![] bcast_S_S100000x1 : (⟨S_, .f32⟩ : BufTy).Contents (Elt F) → (⟨S100000x1, .f32⟩ : BufTy).Contents (Elt F)),
    StableHlo.binary main_v83 main_v84 main_v85 (maximumf : (⟨S100000x1, .f32⟩ : BufTy).Contents (Elt F) → (⟨S100000x1, .f32⟩ : BufTy).Contents (Elt F) → (⟨S100000x1, .f32⟩ : BufTy).Contents (Elt F)),
    StableHlo.unary main_v85 main_v86 (broadcastInDim S100000x128 ![0, 1] bcast_S100000x1_S100000x128_0_1 : (⟨S100000x1, .f32⟩ : BufTy).Contents (Elt F) → (⟨S100000x128, .f32⟩ : BufTy).Contents (Elt F)),
    StableHlo.binary main_v82 main_v86 main_v87 (Host.divf : (⟨S100000x128, .f32⟩ : BufTy).Contents (Elt F) → (⟨S100000x128, .f32⟩ : BufTy).Contents (Elt F) → (⟨S100000x128, .f32⟩ : BufTy).Contents (Elt F)) ]

/-- The 137 operations, in order. -/
abbrev ops : List (HloOp τ sig (Elt F)) :=
  opsA ++ (opsB ++ (opsC ++ (opsD0 ++ (opsD1 ++ (opsE ++ (opsF))))))

set_option maxRecDepth 16384 in
set_option maxHeartbeats 8000000 in
/-- The main function is that straight line: the helper functions' bodies substituted at their calls and
    the sequencing reassociated. -/
theorem main_eq (c : Dev nD) : main (F := F) c = seq ops := by
  simp only [main, main_part0, main_part1, fn_norm.body, fn_relu.body, fn_var.body, fn_where.body, ops,
    opsA, opsB, opsC, opsD0, opsD1, opsE, opsF, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩
set_option maxRecDepth 8192 in
theorem opsB_sub : (opsB : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
set_option maxRecDepth 8192 in
theorem opsC_sub : (opsC : List (HloOp τ sig (Elt F))).Forall fun op => op.bufs ⊆ tcRefs τ sig :=
  ⟨nullary_bufs_sub .., unary_bufs_sub .., binary_bufs_sub ..⟩
set_option maxRecDepth 8192 in
theorem opsD0_sub : (opsD0 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub ..⟩
set_option maxRecDepth 8192 in
theorem opsD1_sub : (opsD1 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub ..⟩
set_option maxRecDepth 8192 in
theorem opsE_sub : (opsE : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩
set_option maxRecDepth 8192 in
theorem opsF_sub : (opsF : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp opsA_sub op h, List.forall_iff_forall_mem.mp opsB_sub op h, List.forall_iff_forall_mem.mp opsC_sub op h, List.forall_iff_forall_mem.mp opsD0_sub op h, List.forall_iff_forall_mem.mp opsD1_sub op h, List.forall_iff_forall_mem.mp opsE_sub op h, List.forall_iff_forall_mem.mp opsF_sub op h]

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD0_fresh : ∀ op ∈ (opsD0 : List (HloOp τ sig (Elt F))), op.fresh = ∅ := by
  intro _ h; (repeat (cases h with | head => rfl | tail _ h => ?_)); exact nomatch h
theorem opsD1_fresh : ∀ op ∈ (opsD1 : List (HloOp τ sig (Elt F))), op.fresh = ∅ := by
  intro _ h; (repeat (cases h with | head => rfl | tail _ h => ?_)); exact nomatch h
theorem opsE_fresh : ∀ op ∈ (opsE : List (HloOp τ sig (Elt F))), op.fresh = ∅ := by
  intro _ h; (repeat (cases h with | head => rfl | tail _ h => ?_)); exact nomatch h
theorem opsF_fresh : ∀ op ∈ (opsF : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h | h
  exacts [opsA_fresh op h, opsB_fresh op h, opsC_fresh op h, opsD0_fresh op h, opsD1_fresh op h, opsE_fresh op h, opsF_fresh op h]

/-- From any memory with zero counters every weakly fair execution of the main function terminates, and
    every buffer of the tensor core ends at the fold of the 137 operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over the whole list is the stages' folds, one after the other. -/
theorem after_ops (V : Valuation τ sig (Elt F)) :
    after ops V = after opsF (after opsE (after opsD1 (after opsD0 (after opsC (after opsB (after opsA V)))))) := by
  simp only [ops, after_append]

/-! ## What a stage leaves alone -/

/-- The buffers stage A writes. -/
abbrev opsA_W : List (Ref sig .tc) := [main_v0, main_v1, main_v2, main_v3, main_cst, main_v4, main_cst_0, main_v5, main_v6, main_v7, main_c, main_v8, main_v9, main_c_1, main_v10, main_v11, main_v12, main_v13, main_v14, main_cst_2, main_v15, main_v16, main_v17, main_cst_3, main_v18, main_v19, main_v20, main_v21, main_v22, main_v23, main_v24, main_v25, main_v26, main_v27, main_v28, main_v29, main_v30]
set_option maxRecDepth 8192 in
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage A does not write keeps its contents through it. -/
theorem opsA_keep (V : Valuation τ sig (Elt F)) (r : Ref sig .tc) (h : r ∉ opsA_W) :
    after opsA V (Proc.devRef .tc r) = V (Proc.devRef .tc r) :=
  after_of_writes_sub opsA V opsA_writes h

/-- The buffers stage B writes. -/
abbrev opsB_W : List (Ref sig .tc) := [main_call0_v0, main_call0_cst, main_call0_v1, main_call0_v2, main_v31, main_cst_4, main_v32, main_v33, main_v34, main_v35]
set_option maxRecDepth 8192 in
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage B does not write keeps its contents through it. -/
theorem opsB_keep (V : Valuation τ sig (Elt F)) (r : Ref sig .tc) (h : r ∉ opsB_W) :
    after opsB V (Proc.devRef .tc r) = V (Proc.devRef .tc r) :=
  after_of_writes_sub opsB V opsB_writes h

/-- The buffers stage C writes. -/
abbrev opsC_W : List (Ref sig .tc) := [main_call1_cst, main_call1_v0, main_v36]
set_option maxRecDepth 8192 in
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage C does not write keeps its contents through it. -/
theorem opsC_keep (V : Valuation τ sig (Elt F)) (r : Ref sig .tc) (h : r ∉ opsC_W) :
    after opsC V (Proc.devRef .tc r) = V (Proc.devRef .tc r) :=
  after_of_writes_sub opsC V opsC_writes h

/-- The buffers stage D0 writes. -/
abbrev opsD0_W : List (Ref sig .tc) := [main_cst_5, main_v37, main_cst_6, main_v38, main_v39, main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v40, main_v41, main_v42, main_v43, main_cst_8, main_v44, main_v45, main_v46, main_v47, main_v48]
set_option maxRecDepth 8192 in
theorem opsD0_writes : (opsD0 : List (HloOp τ sig (Elt F))).Forall fun op => op.writes ⊆ (opsD0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage D0 does not write keeps its contents through it. -/
theorem opsD0_keep (V : Valuation τ sig (Elt F)) (r : Ref sig .tc) (h : r ∉ opsD0_W) :
    after opsD0 V (Proc.devRef .tc r) = V (Proc.devRef .tc r) :=
  after_of_writes_sub opsD0 V opsD0_writes h

/-- The buffers stage D1 writes. -/
abbrev opsD1_W : List (Ref sig .tc) := [main_v49, main_v50, main_v51, main_v52, main_v53, main_v54, main_v55]
set_option maxRecDepth 8192 in
theorem opsD1_writes : (opsD1 : List (HloOp τ sig (Elt F))).Forall fun op => op.writes ⊆ (opsD1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage D1 does not write keeps its contents through it. -/
theorem opsD1_keep (V : Valuation τ sig (Elt F)) (r : Ref sig .tc) (h : r ∉ opsD1_W) :
    after opsD1 V (Proc.devRef .tc r) = V (Proc.devRef .tc r) :=
  after_of_writes_sub opsD1 V opsD1_writes h

/-- The buffers stage E writes. -/
abbrev opsE_W : List (Ref sig .tc) := [main_cst_9, main_v56, main_cst_10, main_v57, main_v58, main_v59, main_c_11, main_v60, main_v61, main_c_12, main_v62, main_v63, main_v64, main_v65, main_v66, main_cst_13, main_v67, main_v68, main_v69, main_cst_14, main_v70, main_v71, main_v72, main_v73, main_v74, main_v75, main_v76, main_v77, main_v78, main_v79, main_v80, main_v81, main_v82]
set_option maxRecDepth 8192 in
theorem opsE_writes : (opsE : List (HloOp τ sig (Elt F))).Forall fun op => op.writes ⊆ (opsE_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage E does not write keeps its contents through it. -/
theorem opsE_keep (V : Valuation τ sig (Elt F)) (r : Ref sig .tc) (h : r ∉ opsE_W) :
    after opsE V (Proc.devRef .tc r) = V (Proc.devRef .tc r) :=
  after_of_writes_sub opsE V opsE_writes h

/-- The buffers stage F writes. -/
abbrev opsF_W : List (Ref sig .tc) := [main_call3_v0, main_call3_cst, main_call3_v1, main_call3_v2, main_v83, main_cst_15, main_v84, main_v85, main_v86, main_v87]
set_option maxRecDepth 8192 in
theorem opsF_writes : (opsF : List (HloOp τ sig (Elt F))).Forall fun op => op.writes ⊆ (opsF_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage F does not write keeps its contents through it. -/
theorem opsF_keep (V : Valuation τ sig (Elt F)) (r : Ref sig .tc) (h : r ∉ opsF_W) :
    after opsF V (Proc.devRef .tc r) = V (Proc.devRef .tc r) :=
  after_of_writes_sub opsF V opsF_writes h

end Cert.ReferenceIdeal.RefRun

end
-- ==== Proof.RefTerm.lean ====
/-
  The reference program's result as one closed term of its ten argument arrays.

  Each definition below is one intermediate value of the reference's main function, built from the
  same operations, in the same order, as the printed program applies; the outlined helper functions
  (row norm, clamp at zero, variance, select) are written out at their call sites. The values that the
  program computes twice (the destination and source index columns, the in-degree and its clamp) are
  defined once: the second computation repeats the first one operation for operation.

  The edge list `a1` has the source nodes in row 0 and the destination nodes in row 1. The
  aggregator `agg a1 y` adds, into row `dst e` of a zero array, row `src e` of `y`, for every edge
  `e`; it is the only place the gather and the scatter-add occur, and is never opened.
-/
import proofs.«112482_j24842090840540_1_alg».proof.ReferenceIdeal
import Idealize.ShloMosaic.PureOps.Ideal

noncomputable section

namespace Cert.ReferenceIdeal.RefTerm

open Idealize.ShloMosaic Cert.ReferenceIdeal
open Cert.ReferenceIdeal.Facts₀

variable [Facts₀]

/-! ## The index chain -/

/-- Row 0 of the edge list: the source node of every edge (%1). -/
def src (a1 : (⟨S2x1600000, .i32⟩ : BufTy).Contents (Elt Ideal)) : (⟨S1600000, .i32⟩ : BufTy).Contents (Elt Ideal) :=
  shapeCast S1600000 (extractStridedSlice S1x1600000 ![0, 0] a1 slices_S2x1600000_S1x1600000_0_0) shapeCasts_S1x1600000_S1600000

/-- Row 1 of the edge list: the destination node of every edge (%3). -/
def dst (a1 : (⟨S2x1600000, .i32⟩ : BufTy).Contents (Elt Ideal)) : (⟨S1600000, .i32⟩ : BufTy).Contents (Elt Ideal) :=
  shapeCast S1600000 (extractStridedSlice S1x1600000 ![1, 0] a1 slices_S2x1600000_S1x1600000_1_0) shapeCasts_S1x1600000_S1600000

/-- The destination nodes as a column of scatter indices (%6, %16, %58, %68). -/
def dstCol (a1 : (⟨S2x1600000, .i32⟩ : BufTy).Contents (Elt Ideal)) : (⟨S1600000x1, .i32⟩ : BufTy).Contents (Elt Ideal) :=
  broadcastInDim S1600000x1 ![0] bcast_S1600000_S1600000x1_0 (dst a1)

/-- The source nodes with a negative index wrapped around by the node count (%12, %64). -/
def srcWrap (a1 : (⟨S2x1600000, .i32⟩ : BufTy).Contents (Elt Ideal)) : (⟨S1600000, .i32⟩ : BufTy).Contents (Elt Ideal) :=
  select (cmpi .slt (src a1) (broadcastInDim S1600000 ![] bcast_S_S1600000 (constantI S_ 32 0#32)))
    (addi (src a1) (broadcastInDim S1600000 ![] bcast_S_S1600000 (constantI S_ 32 100000#32)))
    (src a1)

/-- The wrapped source nodes as a column of gather indices (%13, %65). -/
def srcCol (a1 : (⟨S2x1600000, .i32⟩ : BufTy).Contents (Elt Ideal)) : (⟨S1600000x1, .i32⟩ : BufTy).Contents (Elt Ideal) :=
  broadcastInDim S1600000x1 ![0] bcast_S1600000_S1600000x1_0 (srcWrap a1)

/-! ## The in-degree and the aggregator -/

/-- The in-degree of every node: ones scatter-added at the destination nodes into zeros (%7, %59). -/
def deg (a1 : (⟨S2x1600000, .i32⟩ : BufTy).Contents (Elt Ideal)) : (⟨S100000, .f32⟩ : BufTy).Contents (Elt Ideal) :=
  Host.scatterAdd (F := Ideal) (φ := .f32) scatter_S100000_S1600000x1_S1600000_n_0_0_1
    (broadcastInDim S100000 ![] bcast_S_S100000 (constant (F := Ideal) S_ .f32 0x00000000#32))
    (dstCol a1)
    (broadcastInDim S1600000 ![] bcast_S_S1600000 (constant (F := Ideal) S_ .f32 0x3F800000#32))

/-- The in-degree clamped below at one (%19, %71). -/
def dmax (a1 : (⟨S2x1600000, .i32⟩ : BufTy).Contents (Elt Ideal)) : (⟨S100000, .f32⟩ : BufTy).Contents (Elt Ideal) :=
  maximumf (F := Ideal) (φ := .f32) (deg a1) (broadcastInDim S100000 ![] bcast_S_S100000 (constant (F := Ideal) S_ .f32 0x3F800000#32))

/-- The aggregator: the rows of `y` at the source nodes, scatter-added at the destination nodes into
    zeros (%17 with `y` the input features, %69 with `y` the normalised first layer). -/
def agg (a1 : (⟨S2x1600000, .i32⟩ : BufTy).Contents (Elt Ideal)) (y : (⟨S100000x128, .f32⟩ : BufTy).Contents (Elt Ideal)) : (⟨S100000x128, .f32⟩ : BufTy).Contents (Elt Ideal) :=
  Host.scatterAdd (F := Ideal) (φ := .f32) scatter_S100000x128_S1600000x1_S1600000x128_1_0_0_1
    (broadcastInDim S100000x128 ![] bcast_S_S100000x128 (constant (F := Ideal) S_ .f32 0x00000000#32))
    (dstCol a1)
    (Host.gather gather_S100000x128_S1600000x1_S1600000x128_1_0_n_n_0_1_1128 y (srcCol a1))

/-! ## One layer -/

/-- A per-node value repeated along the feature axis (%20–%21, %72–%73, %34, %86). -/
def colB (c : (⟨S100000x1, .f32⟩ : BufTy).Contents (Elt Ideal)) : (⟨S100000x128, .f32⟩ : BufTy).Contents (Elt Ideal) :=
  broadcastInDim S100000x128 ![0, 1] bcast_S100000x1_S100000x128_0_1 c

/-- A per-feature value repeated along the node axis (%25–%26, %41–%42, %47–%48, %50–%51, %53–%54, %77–%78). -/
def rowB (v : (⟨S128, .f32⟩ : BufTy).Contents (Elt Ideal)) : (⟨S100000x128, .f32⟩ : BufTy).Contents (Elt Ideal) :=
  broadcastInDim S100000x128 ![0, 1] bcast_S1x128_S100000x128_0_1 (broadcastInDim S1x128 ![1] bcast_S128_S1x128_1 v)

/-- The mean over in-neighbours: the aggregate divided by the clamped in-degree (%22, %74). -/
def mean (a1 : (⟨S2x1600000, .i32⟩ : BufTy).Contents (Elt Ideal)) (y : (⟨S100000x128, .f32⟩ : BufTy).Contents (Elt Ideal)) : (⟨S100000x128, .f32⟩ : BufTy).Contents (Elt Ideal) :=
  Host.divf (F := Ideal) (φ := .f32) (agg a1 y) (colB (broadcastInDim S100000x1 ![0] bcast_S100000_S100000x1_0 (dmax a1)))

/-- A weight matrix transposed (%23, %28, %75, %80). -/
def wT (w : (⟨S128x128, .f32⟩ : BufTy).Contents (Elt Ideal)) : (⟨S128x128, .f32⟩ : BufTy).Contents (Elt Ideal) :=
  transpose S128x128 [1, 0] w transposes_S128x128_S128x128_1_0

/-- The linear part of a layer: mean · Wlᵀ + b + y · Wrᵀ (%30, %82). -/
def lin (a1 : (⟨S2x1600000, .i32⟩ : BufTy).Contents (Elt Ideal)) (y : (⟨S100000x128, .f32⟩ : BufTy).Contents (Elt Ideal)) (wl : (⟨S128x128, .f32⟩ : BufTy).Contents (Elt Ideal)) (b : (⟨S128, .f32⟩ : BufTy).Contents (Elt Ideal))
    (wr : (⟨S128x128, .f32⟩ : BufTy).Contents (Elt Ideal)) : (⟨S100000x128, .f32⟩ : BufTy).Contents (Elt Ideal) :=
  addf (F := Ideal) (φ := .f32)
    (addf (F := Ideal) (φ := .f32) (Host.dotGeneral (F := Ideal) (φ₁ := .f32) (φ₂ := .f32) dot_S100000x128_S128x128_S100000x128_1_0_0_1_n_n none (mean a1 y) (wT wl)) (rowB b))
    (Host.dotGeneral (F := Ideal) (φ₁ := .f32) (φ₂ := .f32) dot_S100000x128_S128x128_S100000x128_1_0_0_1_n_n none y (wT wr))

/-- The Euclidean norm of every row, as a column (the outlined norm function: %31, %83). -/
def nrm (o : (⟨S100000x128, .f32⟩ : BufTy).Contents (Elt Ideal)) : (⟨S100000x1, .f32⟩ : BufTy).Contents (Elt Ideal) :=
  Host.sqrt (F := Ideal) (φ := .f32) (broadcastInDim S100000x1 ![0] bcast_S100000_S100000x1_0
    (Host.reduceAdd (F := Ideal) (φ := .f32) (mulf (F := Ideal) (φ := .f32) o o) (constant (F := Ideal) S_ .f32 0x00000000#32) reducesTo_S100000x128_S100000_d1 h_S_))

/-- Every row divided by its norm, the norm clamped below at the literal 1e-12 (%35, %87). -/
def unit (o : (⟨S100000x128, .f32⟩ : BufTy).Contents (Elt Ideal)) : (⟨S100000x128, .f32⟩ : BufTy).Contents (Elt Ideal) :=
  Host.divf (F := Ideal) (φ := .f32) o (colB (maximumf (F := Ideal) (φ := .f32) (nrm o)
    (broadcastInDim S100000x1 ![] bcast_S_S100000x1 (constant (F := Ideal) S_ .f32 0x2B8CBCCC#32))))

/-! ## Between the layers -/

/-- Clamp below at zero (the outlined function: %36). -/
def relu (o : (⟨S100000x128, .f32⟩ : BufTy).Contents (Elt Ideal)) : (⟨S100000x128, .f32⟩ : BufTy).Contents (Elt Ideal) :=
  maximumf (F := Ideal) (φ := .f32) o (broadcastInDim S100000x128 ![] bcast_S_S100000x128 (constant (F := Ideal) S_ .f32 0x00000000#32))

/-- The batch mean of every feature (%39). -/
def mu (h : (⟨S100000x128, .f32⟩ : BufTy).Contents (Elt Ideal)) : (⟨S128, .f32⟩ : BufTy).Contents (Elt Ideal) :=
  Host.divf (F := Ideal) (φ := .f32) (Host.reduceAdd (F := Ideal) (φ := .f32) h (constant (F := Ideal) S_ .f32 0x00000000#32) reducesTo_S100000x128_S128_d0 h_S_)
    (broadcastInDim S128 ![] bcast_S_S128 (constant (F := Ideal) S_ .f32 0x47C35000#32))

/-- The divisor of the variance: the node count less zero degrees of freedom (the variance function's %8). -/
def varDiv : (⟨S_, .f32⟩ : BufTy).Contents (Elt Ideal) :=
  subf (F := Ideal) (φ := .f32) (constant (F := Ideal) S_ .f32 0x47C35000#32) (sitofp (F := Ideal) .f32 (constantI S_ 32 0#32))

/-- The squared deviations from the batch mean (the variance function's %6). -/
def dev2 (h : (⟨S100000x128, .f32⟩ : BufTy).Contents (Elt Ideal)) : (⟨S100000x128, .f32⟩ : BufTy).Contents (Elt Ideal) :=
  mulf (F := Ideal) (φ := .f32)
    (subf (F := Ideal) (φ := .f32) h (broadcastInDim S100000x128 ![0, 1] bcast_S1x128_S100000x128_0_1
      (Host.divf (F := Ideal) (φ := .f32)
        (broadcastInDim S1x128 ![1] bcast_S128_S1x128_1
          (Host.reduceAdd (F := Ideal) (φ := .f32) h (constant (F := Ideal) S_ .f32 0x00000000#32) reducesTo_S100000x128_S128_d0 h_S_))
        (broadcastInDim S1x128 ![] bcast_S_S1x128 (constant (F := Ideal) S_ .f32 0x47C35000#32)))))
    (subf (F := Ideal) (φ := .f32) h (broadcastInDim S100000x128 ![0, 1] bcast_S1x128_S100000x128_0_1
      (Host.divf (F := Ideal) (φ := .f32)
        (broadcastInDim S1x128 ![1] bcast_S128_S1x128_1
          (Host.reduceAdd (F := Ideal) (φ := .f32) h (constant (F := Ideal) S_ .f32 0x00000000#32) reducesTo_S100000x128_S128_d0 h_S_))
        (broadcastInDim S1x128 ![] bcast_S_S1x128 (constant (F := Ideal) S_ .f32 0x47C35000#32)))))

/-- The batch variance of every feature: the summed squared deviations over the divisor where the
    divisor is positive, the not-a-number word otherwise (the outlined variance and select functions: %40). -/
def var (h : (⟨S100000x128, .f32⟩ : BufTy).Contents (Elt Ideal)) : (⟨S128, .f32⟩ : BufTy).Contents (Elt Ideal) :=
  select (broadcastInDim S128 ![] bcast_S_S128 (cmpf (F := Ideal) (φ := .f32) .ogt varDiv (constant (F := Ideal) S_ .f32 0x00000000#32)))
    (Host.divf (F := Ideal) (φ := .f32)
      (Host.reduceAdd (F := Ideal) (φ := .f32) (dev2 h) (constant (F := Ideal) S_ .f32 0x00000000#32) reducesTo_S100000x128_S128_d0 h_S_)
      (broadcastInDim S128 ![] bcast_S_S128 varDiv))
    (broadcastInDim S128 ![] bcast_S_S128 (id (constant (F := Ideal) S_ .f32 0x7FC00000#32)))

/-- Batch normalisation over the node axis with scale `g` and shift `b` (%55). -/
def bn (h : (⟨S100000x128, .f32⟩ : BufTy).Contents (Elt Ideal)) (g : (⟨S128, .f32⟩ : BufTy).Contents (Elt Ideal)) (b : (⟨S128, .f32⟩ : BufTy).Contents (Elt Ideal)) : (⟨S100000x128, .f32⟩ : BufTy).Contents (Elt Ideal) :=
  addf (F := Ideal) (φ := .f32)
    (mulf (F := Ideal) (φ := .f32)
      (mulf (F := Ideal) (φ := .f32) (subf (F := Ideal) (φ := .f32) h (rowB (mu h)))
        (rowB (Host.rsqrt (F := Ideal) (φ := .f32) (addf (F := Ideal) (φ := .f32) (var h)
          (broadcastInDim S128 ![] bcast_S_S128 (constant (F := Ideal) S_ .f32 0x3727C5AC#32))))))
      (rowB g))
    (rowB b)

/-! ## The result -/

/-- The first layer's normalised output (%35). -/
def out1 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal))
    (a4 : (⟨S128x128, .f32⟩ : BufTy).Contents (Elt Ideal)) : (⟨S100000x128, .f32⟩ : BufTy).Contents (Elt Ideal) :=
  unit (lin a1 a0 a2 a3 a4)

/-- The second layer's input: the first layer clamped at zero and batch-normalised (%55). -/
def hid (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal))
    (a4 : (⟨S128x128, .f32⟩ : BufTy).Contents (Elt Ideal)) (a5 : (⟨S128, .f32⟩ : BufTy).Contents (Elt Ideal)) (a6 : (⟨S128, .f32⟩ : BufTy).Contents (Elt Ideal)) : (⟨S100000x128, .f32⟩ : BufTy).Contents (Elt Ideal) :=
  bn (relu (out1 a0 a1 a2 a3 a4)) a5 a6

/-- The reference's result array (%87). -/
def refOut (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal))
    (a4 : (⟨S128x128, .f32⟩ : BufTy).Contents (Elt Ideal)) (a5 : (⟨S128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal))
    (a9 : (⟨S128x128, .f32⟩ : BufTy).Contents (Elt Ideal)) : (⟨S100000x128, .f32⟩ : BufTy).Contents (Elt Ideal) :=
  unit (lin a1 (hid a0 a1 a2 a3 a4 a5 a6) a7 a8 a9)

end Cert.ReferenceIdeal.RefTerm

end
-- ==== Proof.RefRun.lean ====
/-
  The reference program's run, read back as the closed term of its ten argument arrays.

  The 137 operations are read stage by stage. For each stage one lemma says what the stage leaves in the
  buffer the next stage reads, as a function of what it found in the buffers it reads itself:

    A  the source and destination index vectors, and the first layer's linear part
       mean · Wlᵀ + b + x · Wrᵀ of the input features;
    B  the rows of the linear part divided by their clamped Euclidean norms;
    C  the clamp at zero;
    D0 the rows less the batch mean, and the reciprocal square root of the batch variance plus the
       offset, repeated along the node axis;
    D1 their product scaled by γ and shifted by β: the batch normalisation;
    E  the second layer's linear part, over the index vectors stage A left;
    F  its rows divided by their clamped Euclidean norms: the result.

  Each lemma compares two small terms (one stage's operations against one definition of the closed
  term), with the sums, the gather, the scatter-add and the matrix product kept folded. The stages are then chained: a buffer
  a stage does not write keeps its contents through it.
-/
import proofs.«112482_j24842090840540_1_alg».proof.Proof.RefRunOps
import proofs.«112482_j24842090840540_1_alg».proof.Proof.RefTerm

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable [Cert.ReferenceIdeal.Facts]

/-- A node-feature array of extended reals, 100000 × 128. -/
abbrev TM : Type := (⟨S100000x128, .f32⟩ : BufTy).Contents (Elt Ideal)
/-- A per-feature vector of extended reals, 128 entries. -/
abbrev TV : Type := (⟨S128, .f32⟩ : BufTy).Contents (Elt Ideal)
/-- An edge list, 2 × 1600000 node indices. -/
abbrev TI : Type := (⟨S2x1600000, .i32⟩ : BufTy).Contents (Elt Ideal)

/-- The rows less the batch mean of every feature. -/
def cen (h : TM) : TM :=
  subf (F := Ideal) (φ := .f32) h (RefTerm.rowB (RefTerm.mu h))

/-- The reciprocal square root of the batch variance plus the offset, repeated along the node axis. -/
def isd (h : TM) : TM :=
  RefTerm.rowB (Host.rsqrt (F := Ideal) (φ := .f32) (addf (F := Ideal) (φ := .f32) (RefTerm.var h)
    (broadcastInDim S128 ![] bcast_S_S128 (constant (F := Ideal) S_ .f32 0x3727C5AC#32))))

/-- A centred array times an inverse deviation, scaled by `g` and shifted by `b`. -/
def scaleShift (c s : TM) (g b : TV) : TM :=
  addf (F := Ideal) (φ := .f32) (mulf (F := Ideal) (φ := .f32) (mulf (F := Ideal) (φ := .f32) c s) (RefTerm.rowB g)) (RefTerm.rowB b)

/-- The batch normalisation is the centred rows times the inverse deviation, scaled and shifted. -/
theorem bn_eq (h : TM) (g b : TV) : RefTerm.bn h g b = scaleShift (cen h) (isd h) g b := rfl

attribute [local irreducible] Host.reduceAdd Host.gather Host.scatterAdd

/-! ## The stages -/

theorem stageA_v1 (V : Valuation τ sig (Elt Ideal)) :
    after (opsA (F := Ideal)) V (Proc.devRef .tc main_v1) = RefTerm.src (V (Proc.devRef .tc main_arg1)) := by
  simp only [opsA]
  after_results_simp
  rfl

theorem stageA_v3 (V : Valuation τ sig (Elt Ideal)) :
    after (opsA (F := Ideal)) V (Proc.devRef .tc main_v3) = RefTerm.dst (V (Proc.devRef .tc main_arg1)) := by
  simp only [opsA]
  after_results_simp
  rfl

set_option maxRecDepth 8192 in
set_option maxHeartbeats 4000000 in
theorem stageA_v30 (V : Valuation τ sig (Elt Ideal)) :
    after (opsA (F := Ideal)) V (Proc.devRef .tc main_v30) = RefTerm.lin (V (Proc.devRef .tc main_arg1)) (V (Proc.devRef .tc main_arg0)) (V (Proc.devRef .tc main_arg2)) (V (Proc.devRef .tc main_arg3)) (V (Proc.devRef .tc main_arg4)) := by
  simp only [opsA]
  after_results_simp
  simp only [RefTerm.lin, RefTerm.mean, RefTerm.agg, RefTerm.dstCol, RefTerm.srcCol, RefTerm.srcWrap, RefTerm.src,
    RefTerm.dst, RefTerm.dmax, RefTerm.deg, RefTerm.colB, RefTerm.rowB, RefTerm.wT]
  rfl

set_option maxRecDepth 8192 in
theorem stageB (V : Valuation τ sig (Elt Ideal)) :
    after (opsB (F := Ideal)) V (Proc.devRef .tc main_v35) = RefTerm.unit (V (Proc.devRef .tc main_v30)) := by
  simp only [opsB]
  after_results_simp
  simp only [RefTerm.unit, RefTerm.nrm, RefTerm.colB]
  rfl

theorem stageC (V : Valuation τ sig (Elt Ideal)) :
    after (opsC (F := Ideal)) V (Proc.devRef .tc main_v36) = RefTerm.relu (V (Proc.devRef .tc main_v35)) := by
  simp only [opsC]
  after_results_simp
  simp only [RefTerm.relu]
  rfl

set_option maxRecDepth 8192 in
set_option maxHeartbeats 4000000 in
theorem stageD0_v43 (V : Valuation τ sig (Elt Ideal)) :
    after (opsD0 (F := Ideal)) V (Proc.devRef .tc main_v43) = cen (V (Proc.devRef .tc main_v36)) := by
  simp only [opsD0]
  after_results_simp
  simp only [cen, RefTerm.rowB, RefTerm.mu]

set_option maxRecDepth 8192 in
set_option maxHeartbeats 4000000 in
theorem stageD0_v48 (V : Valuation τ sig (Elt Ideal)) :
    after (opsD0 (F := Ideal)) V (Proc.devRef .tc main_v48) = isd (V (Proc.devRef .tc main_v36)) := by
  simp only [opsD0]
  after_results_simp
  simp only [isd, RefTerm.rowB, RefTerm.var, RefTerm.dev2, RefTerm.varDiv]
  rfl

theorem stageD1 (V : Valuation τ sig (Elt Ideal)) :
    after (opsD1 (F := Ideal)) V (Proc.devRef .tc main_v55)
      = scaleShift (V (Proc.devRef .tc main_v43)) (V (Proc.devRef .tc main_v48)) (V (Proc.devRef .tc main_arg5)) (V (Proc.devRef .tc main_arg6)) := by
  simp only [opsD1]
  after_results_simp
  simp only [scaleShift, RefTerm.rowB]

set_option maxRecDepth 8192 in
set_option maxHeartbeats 4000000 in
theorem stageE (V : Valuation τ sig (Elt Ideal)) (a1 : TI)
    (h1 : V (Proc.devRef .tc main_v1) = RefTerm.src a1) (h3 : V (Proc.devRef .tc main_v3) = RefTerm.dst a1) :
    after (opsE (F := Ideal)) V (Proc.devRef .tc main_v82)
      = RefTerm.lin a1 (V (Proc.devRef .tc main_v55)) (V (Proc.devRef .tc main_arg7)) (V (Proc.devRef .tc main_arg8)) (V (Proc.devRef .tc main_arg9)) := by
  simp only [opsE]
  after_results_simp
  simp only [h1, h3]
  simp only [RefTerm.lin, RefTerm.mean, RefTerm.agg, RefTerm.dstCol, RefTerm.srcCol, RefTerm.srcWrap,
    RefTerm.dmax, RefTerm.deg, RefTerm.colB, RefTerm.rowB, RefTerm.wT]

set_option maxRecDepth 8192 in
theorem stageF (V : Valuation τ sig (Elt Ideal)) :
    after (opsF (F := Ideal)) V (Proc.devRef .tc main_v87) = RefTerm.unit (V (Proc.devRef .tc main_v82)) := by
  simp only [opsF]
  after_results_simp
  simp only [RefTerm.unit, RefTerm.nrm, RefTerm.colB]
  rfl

/-! ## The chain -/

/-- A buffer no stage writes keeps its contents through all seven. -/
theorem ops_keep (V : Valuation τ sig (Elt Ideal)) (r : Ref sig .tc)
    (hA : r ∉ opsA_W) (hB : r ∉ opsB_W) (hC : r ∉ opsC_W) (hD0 : r ∉ opsD0_W) (hD1 : r ∉ opsD1_W) (hE : r ∉ opsE_W) (hF : r ∉ opsF_W) :
    after (ops (F := Ideal)) V (Proc.devRef .tc r) = V (Proc.devRef .tc r) := by
  rw [after_ops, opsF_keep _ r hF, opsE_keep _ r hE, opsD1_keep _ r hD1, opsD0_keep _ r hD0, opsC_keep _ r hC,
    opsB_keep _ r hB, opsA_keep _ r hA]

set_option maxRecDepth 8192 in
/-- The result buffer ends at the closed term of the ten argument arrays. -/
theorem out_eq (V : Valuation τ sig (Elt Ideal)) :
    after (ops (F := Ideal)) V (Proc.devRef .tc main_v87)
      = RefTerm.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops]
  have h30 : (after opsA V) (Proc.devRef .tc main_v30) = RefTerm.lin (V (Proc.devRef .tc main_arg1)) (V (Proc.devRef .tc main_arg0)) (V (Proc.devRef .tc main_arg2)) (V (Proc.devRef .tc main_arg3)) (V (Proc.devRef .tc main_arg4)) := stageA_v30 V
  have h35 : (after opsB (after opsA V)) (Proc.devRef .tc main_v35) = (RefTerm.out1 (V (Proc.devRef .tc main_arg0)) (V (Proc.devRef .tc main_arg1)) (V (Proc.devRef .tc main_arg2)) (V (Proc.devRef .tc main_arg3)) (V (Proc.devRef .tc main_arg4))) :=
    (stageB (after opsA V)).trans (by rw [h30]; rfl)
  have h36 : (after opsC (after opsB (after opsA V))) (Proc.devRef .tc main_v36) = RefTerm.relu (RefTerm.out1 (V (Proc.devRef .tc main_arg0)) (V (Proc.devRef .tc main_arg1)) (V (Proc.devRef .tc main_arg2)) (V (Proc.devRef .tc main_arg3)) (V (Proc.devRef .tc main_arg4))) :=
    (stageC (after opsB (after opsA V))).trans (by rw [h35])
  have h43 : (after opsD0 (after opsC (after opsB (after opsA V)))) (Proc.devRef .tc main_v43) = cen (RefTerm.relu (RefTerm.out1 (V (Proc.devRef .tc main_arg0)) (V (Proc.devRef .tc main_arg1)) (V (Proc.devRef .tc main_arg2)) (V (Proc.devRef .tc main_arg3)) (V (Proc.devRef .tc main_arg4)))) :=
    (stageD0_v43 (after opsC (after opsB (after opsA V)))).trans (by rw [h36])
  have h48 : (after opsD0 (after opsC (after opsB (after opsA V)))) (Proc.devRef .tc main_v48) = isd (RefTerm.relu (RefTerm.out1 (V (Proc.devRef .tc main_arg0)) (V (Proc.devRef .tc main_arg1)) (V (Proc.devRef .tc main_arg2)) (V (Proc.devRef .tc main_arg3)) (V (Proc.devRef .tc main_arg4)))) :=
    (stageD0_v48 (after opsC (after opsB (after opsA V)))).trans (by rw [h36])
  have h55 : (after opsD1 (after opsD0 (after opsC (after opsB (after opsA V))))) (Proc.devRef .tc main_v55) = (RefTerm.hid (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) :=
    (stageD1 (after opsD0 (after opsC (after opsB (after opsA V))))).trans (by
      rw [h43, h48, opsD0_keep _ main_arg5 (by decide), opsC_keep _ main_arg5 (by decide), opsB_keep _ main_arg5 (by decide), opsA_keep _ main_arg5 (by decide), opsD0_keep _ main_arg6 (by decide), opsC_keep _ main_arg6 (by decide), opsB_keep _ main_arg6 (by decide), opsA_keep _ main_arg6 (by decide)]
      rfl)
  have h1 : (after opsD1 (after opsD0 (after opsC (after opsB (after opsA V))))) (Proc.devRef .tc main_v1) = RefTerm.src (V (Proc.devRef .tc main_arg1)) := by
    rw [opsD1_keep _ main_v1 (by decide), opsD0_keep _ main_v1 (by decide), opsC_keep _ main_v1 (by decide), opsB_keep _ main_v1 (by decide)]
    exact stageA_v1 V
  have h3 : (after opsD1 (after opsD0 (after opsC (after opsB (after opsA V))))) (Proc.devRef .tc main_v3) = RefTerm.dst (V (Proc.devRef .tc main_arg1)) := by
    rw [opsD1_keep _ main_v3 (by decide), opsD0_keep _ main_v3 (by decide), opsC_keep _ main_v3 (by decide), opsB_keep _ main_v3 (by decide)]
    exact stageA_v3 V
  have h82 : (after opsE (after opsD1 (after opsD0 (after opsC (after opsB (after opsA V)))))) (Proc.devRef .tc main_v82) = RefTerm.lin (V (Proc.devRef .tc main_arg1)) (RefTerm.hid (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) (V (Proc.devRef .tc main_arg7)) (V (Proc.devRef .tc main_arg8)) (V (Proc.devRef .tc main_arg9)) :=
    (stageE (after opsD1 (after opsD0 (after opsC (after opsB (after opsA V))))) (V (Proc.devRef .tc main_arg1)) h1 h3).trans (by
      rw [h55, opsD1_keep _ main_arg7 (by decide), opsD0_keep _ main_arg7 (by decide), opsC_keep _ main_arg7 (by decide), opsB_keep _ main_arg7 (by decide), opsA_keep _ main_arg7 (by decide), opsD1_keep _ main_arg8 (by decide), opsD0_keep _ main_arg8 (by decide), opsC_keep _ main_arg8 (by decide), opsB_keep _ main_arg8 (by decide), opsA_keep _ main_arg8 (by decide), opsD1_keep _ main_arg9 (by decide), opsD0_keep _ main_arg9 (by decide), opsC_keep _ main_arg9 (by decide), opsB_keep _ main_arg9 (by decide), opsA_keep _ main_arg9 (by decide)])
  exact (stageF (after opsE (after opsD1 (after opsD0 (after opsC (after opsB (after opsA V))))))).trans (by rw [h82]; rfl)

/-- From any memory with zero counters every weakly fair execution of the reference's main function
    terminates with the result buffer at the closed term of the argument arrays and every argument
    array unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v87)
        = RefTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v87).trans (out_eq (launchContents m c)),
      (h c main_arg0).trans (ops_keep (launchContents m c) main_arg0 (by decide) (by decide) (by decide) (by decide) (by decide) (by decide) (by decide)),
      (h c main_arg1).trans (ops_keep (launchContents m c) main_arg1 (by decide) (by decide) (by decide) (by decide) (by decide) (by decide) (by decide)),
      (h c main_arg2).trans (ops_keep (launchContents m c) main_arg2 (by decide) (by decide) (by decide) (by decide) (by decide) (by decide) (by decide)),
      (h c main_arg3).trans (ops_keep (launchContents m c) main_arg3 (by decide) (by decide) (by decide) (by decide) (by decide) (by decide) (by decide)),
      (h c main_arg4).trans (ops_keep (launchContents m c) main_arg4 (by decide) (by decide) (by decide) (by decide) (by decide) (by decide) (by decide)),
      (h c main_arg5).trans (ops_keep (launchContents m c) main_arg5 (by decide) (by decide) (by decide) (by decide) (by decide) (by decide) (by decide)),
      (h c main_arg6).trans (ops_keep (launchContents m c) main_arg6 (by decide) (by decide) (by decide) (by decide) (by decide) (by decide) (by decide)),
      (h c main_arg7).trans (ops_keep (launchContents m c) main_arg7 (by decide) (by decide) (by decide) (by decide) (by decide) (by decide) (by decide)),
      (h c main_arg8).trans (ops_keep (launchContents m c) main_arg8 (by decide) (by decide) (by decide) (by decide) (by decide) (by decide) (by decide)),
      (h c main_arg9).trans (ops_keep (launchContents m c) main_arg9 (by decide) (by decide) (by decide) (by decide) (by decide) (by decide) (by decide))⟩)
    (run_all m ρ)

end Cert.ReferenceIdeal.RefRun

end
-- ==== Proof.Spec.lean ====
/-
  The function both programs compute, written once, coordinate by coordinate, on the extended reals.

  Two GraphSAGE layers on 100000 nodes with 128 features. A layer takes the node features `X`, sums the features
  of each node's in-neighbours (the aggregation `aggF X`, a scatter-add of a gather over the edge list: it is the
  same operation in both programs and is carried here as an opaque function), divides that sum by the node's
  in-degree clamped below at one (`dmax r`), applies the two linear maps and the bias
      lin r k = (∑ j, mean r j · Wl k j + b k) + ∑ j, X r j · Wr k j,
  and divides each row by its Euclidean norm clamped below at the literal 1e-12 as f32 (`unitAt`).
  Between the layers the rows are clamped below at zero and batch-normalised over the node axis: with
      μ k = (∑ r, h r k) / 100000,     σ² k = (∑ r, (h r k − μ k)²) / 100000,
  the entry becomes (h r k − μ k) · rsqrt (σ² k + 1e-5) · γ k + β k.
  Division, square root and reciprocal square root are the extended reals' (PureOps/Ideal.lean); the float
  literals stay as the words the programs print.
-/
import Idealize.ShloMosaic.PureOps.Ideal
import Idealize.ShloMosaic.Lib.ValueIdx

noncomputable section

open scoped BigOperators

namespace Sage

open Idealize.ShloMosaic Idealize.ShloMosaic.ValueIdx

/-- A node-feature array, 100000 × 128. -/
abbrev Mat : Type := (⟨2, ![100000, 128]⟩ : Shape).Idx → EReal
/-- A weight matrix, 128 × 128, stored (output feature, input feature). -/
abbrev Wt : Type := (⟨2, ![128, 128]⟩ : Shape).Idx → EReal
/-- A per-feature vector of 128 entries. -/
abbrev Row : Type := (⟨1, ![128]⟩ : Shape).Idx → EReal

/-- The norm's floor, the f32 nearest 1e-12. -/
abbrev epsN : EReal := Ideal.ofBits .f32 0x2B8CBCCC#32
/-- The variance's offset, the f32 nearest 1e-5. -/
abbrev epsB : EReal := Ideal.ofBits .f32 0x3727C5AC#32
/-- The number of nodes as a float, 100000. -/
abbrev cN : EReal := Ideal.ofBits .f32 0x47C35000#32

/-- The mean over in-neighbours: the aggregated sum divided by the clamped in-degree. -/
def meanAt (agg : Mat) (dmax : Fin 100000 → EReal) (r : Fin 100000) (k : Fin 128) : EReal :=
  Ideal.div (agg (ix2 r k)) (dmax r)

/-- The linear part of a layer at node `r`, output feature `k`. -/
def linAt (A : Fin 100000 → Fin 128 → EReal) (X : Mat) (Wl : Wt) (b : Row) (Wr : Wt) (r : Fin 100000) (k : Fin 128) : EReal :=
  ((∑ j : Fin 128, A r j * Wl (ix2 k j)) + b (ix1 k)) + ∑ j : Fin 128, X (ix2 r j) * Wr (ix2 k j)

/-- A row divided by its Euclidean norm, the norm clamped below at `epsN`. -/
def unitAt (O : Fin 100000 → Fin 128 → EReal) (r : Fin 100000) (k : Fin 128) : EReal :=
  Ideal.div (O r k) (max (Ideal.sqrt (∑ j : Fin 128, O r j * O r j)) epsN)

/-- One layer: mean aggregation, linear maps, row normalisation. -/
def layerAt (aggF : Mat → Mat) (dmax : Fin 100000 → EReal) (X : Mat) (Wl : Wt) (b : Row) (Wr : Wt)
    (r : Fin 100000) (k : Fin 128) : EReal :=
  unitAt (linAt (meanAt (aggF X) dmax) X Wl b Wr) r k

/-- The batch mean of feature `k`. -/
def muAt (h : Fin 100000 → Fin 128 → EReal) (k : Fin 128) : EReal :=
  Ideal.div (∑ r : Fin 100000, h r k) cN

/-- The batch variance of feature `k`: the mean squared deviation from the batch mean. -/
def varAt (h : Fin 100000 → Fin 128 → EReal) (k : Fin 128) : EReal :=
  Ideal.div (∑ r : Fin 100000, (h r k - muAt h k) * (h r k - muAt h k)) cN

/-- Batch normalisation with scale `γ` and shift `β`. -/
def bnAt (h : Fin 100000 → Fin 128 → EReal) (γ β : Row) (r : Fin 100000) (k : Fin 128) : EReal :=
  (h r k - muAt h k) * Ideal.rsqrt (varAt h k + epsB) * γ (ix1 k) + β (ix1 k)

/-- The first layer's output clamped below at zero. -/
def h1At (aggF : Mat → Mat) (dmax : Fin 100000 → EReal) (x : Mat) (Wl1 : Wt) (bl1 : Row) (Wr1 : Wt)
    (r : Fin 100000) (k : Fin 128) : EReal :=
  max (layerAt aggF dmax x Wl1 bl1 Wr1 r k) 0

/-- The second layer's input: the batch-normalised first layer, as an array. -/
def h1bn (aggF : Mat → Mat) (dmax : Fin 100000 → EReal) (x : Mat) (Wl1 : Wt) (bl1 : Row) (Wr1 : Wt) (γ β : Row) : Mat :=
  fun i => bnAt (h1At aggF dmax x Wl1 bl1 Wr1) γ β (i 0) (i 1)

/-- The whole network's result array. -/
def result (aggF : Mat → Mat) (dmax : Fin 100000 → EReal) (x : Mat) (Wl1 : Wt) (bl1 : Row) (Wr1 : Wt) (γ β : Row)
    (Wl2 : Wt) (bl2 : Row) (Wr2 : Wt) : Mat :=
  fun i => layerAt aggF dmax (h1bn aggF dmax x Wl1 bl1 Wr1 γ β) Wl2 bl2 Wr2 (i 0) (i 1)

end Sage

end
-- ==== Proof.SpecK.lean ====
/-
  The same network as the idealized kernel program arranges it, coordinate by coordinate.

  Two arrangements differ from the reference's. The mean over in-neighbours is the aggregated sum TIMES the
  reciprocal of the clamped in-degree (the reference divides). The batch variance is the mean of the squares less
  the square of the mean (the reference averages the squared deviations). Everything else — the linear maps, the
  row normalisation, the clamp at zero, the affine map — is the reference's formula (Spec.lean), reused here.
-/
import proofs.«112482_j24842090840540_1_alg».proof.Proof.Spec

noncomputable section

open scoped BigOperators

namespace Sage

open Idealize.ShloMosaic Idealize.ShloMosaic.ValueIdx

/-- The float one, as the programs print it. -/
abbrev one : EReal := Ideal.ofBits .f32 0x3F800000#32

/-- The mean over in-neighbours, the kernel's way: the sum times the reciprocal of the clamped in-degree. -/
def meanKAt (agg : Mat) (dmax : Fin 100000 → EReal) (r : Fin 100000) (k : Fin 128) : EReal :=
  agg (ix2 r k) * Ideal.div one (dmax r)

/-- One layer, the kernel's way. -/
def layerKAt (aggF : Mat → Mat) (dmax : Fin 100000 → EReal) (X : Mat) (Wl : Wt) (b : Row) (Wr : Wt)
    (r : Fin 100000) (k : Fin 128) : EReal :=
  unitAt (linAt (meanKAt (aggF X) dmax) X Wl b Wr) r k

/-- The batch variance, the kernel's way: the mean of the squares less the square of the mean. -/
def varKAt (h : Fin 100000 → Fin 128 → EReal) (k : Fin 128) : EReal :=
  Ideal.div (∑ r : Fin 100000, h r k * h r k) cN - muAt h k * muAt h k

/-- Batch normalisation over the kernel's variance. -/
def bnKAt (h : Fin 100000 → Fin 128 → EReal) (γ β : Row) (r : Fin 100000) (k : Fin 128) : EReal :=
  (h r k - muAt h k) * Ideal.rsqrt (varKAt h k + epsB) * γ (ix1 k) + β (ix1 k)

/-- The first layer's output clamped below at zero, the kernel's way. -/
def h1KAt (aggF : Mat → Mat) (dmax : Fin 100000 → EReal) (x : Mat) (Wl1 : Wt) (bl1 : Row) (Wr1 : Wt)
    (r : Fin 100000) (k : Fin 128) : EReal :=
  max (layerKAt aggF dmax x Wl1 bl1 Wr1 r k) 0

/-- The second layer's input, the kernel's way, as an array. -/
def h1bnK (aggF : Mat → Mat) (dmax : Fin 100000 → EReal) (x : Mat) (Wl1 : Wt) (bl1 : Row) (Wr1 : Wt) (γ β : Row) : Mat :=
  fun i => bnKAt (h1KAt aggF dmax x Wl1 bl1 Wr1) γ β (i 0) (i 1)

/-- The whole network's result array, the kernel's way. -/
def resultK (aggF : Mat → Mat) (dmax : Fin 100000 → EReal) (x : Mat) (Wl1 : Wt) (bl1 : Row) (Wr1 : Wt) (γ β : Row)
    (Wl2 : Wt) (bl2 : Row) (Wr2 : Wt) : Mat :=
  fun i => layerKAt aggF dmax (h1bnK aggF dmax x Wl1 bl1 Wr1 γ β) Wl2 bl2 Wr2 (i 0) (i 1)

end Sage

end
-- ==== Proof.Cross.lean ====
/-
  The host parts the two programs share are the same functions.

  Both programs build, from the edge list, the column of destination nodes and the column of source nodes (a
  negative source wrapped around by the node count), the in-degree (ones scatter-added at the destination nodes)
  and the aggregator (the rows at the source nodes scatter-added at the destination nodes). Each program prints
  its own copy of the shapes and of the scatter and gather dimension records; the copies have the same literal
  fields, and their side conditions are propositions, so the copies are equal and so are the values built from
  them. The scatter-add and the gather themselves are never opened.
-/
import proofs.«112482_j24842090840540_1_alg».proof.Proof.RefTerm
import proofs.«112482_j24842090840540_1_alg».proof.Proof.KTerm
import proofs.«112482_j24842090840540_1_alg».proof.Proof.Gen.ReferenceIdeal
import proofs.«112482_j24842090840540_1_alg».proof.Proof.Gen.KernelIdeal
import proofs.«112482_j24842090840540_1_alg».proof.Proof.SpecK
import Idealize.ShloMosaic.Lib.ValueIdx
import Idealize.ShloMosaic.Lib.IdealHost

noncomputable section

namespace Cert.Cross

open Idealize.ShloMosaic

/-! ## The dimension records -/

set_option maxHeartbeats 100000 in
/-- The two copies of the in-degree's scatter record are equal. -/
theorem scat1_eq : Cert.ReferenceIdeal.scatter_S100000_S1600000x1_S1600000_n_0_0_1
    = Cert.KernelIdeal.scatter_S100000_S1600000x1_S1600000_n_0_0_1 := rfl

set_option maxHeartbeats 100000 in
/-- The two copies of the aggregator's scatter record are equal. -/
theorem scat2_eq : Cert.ReferenceIdeal.scatter_S100000x128_S1600000x1_S1600000x128_1_0_0_1
    = Cert.KernelIdeal.scatter_S100000x128_S1600000x1_S1600000x128_1_0_0_1 := rfl

set_option maxHeartbeats 100000 in
/-- The two copies of the aggregator's gather record are equal. -/
theorem gath_eq : Cert.ReferenceIdeal.gather_S100000x128_S1600000x1_S1600000x128_1_0_n_n_0_1_1128
    = Cert.KernelIdeal.gather_S100000x128_S1600000x1_S1600000x128_1_0_n_n_0_1_1128 := rfl

/-! ## The index chain -/

set_option maxHeartbeats 100000 in
/-- The source nodes: row 0 of the edge list in both programs. -/
theorem src_eq (a1 : (⟨Cert.KernelIdeal.S2x1600000, .i32⟩ : BufTy).Contents (Elt Ideal)) :
    Cert.ReferenceIdeal.RefTerm.src a1 = Cert.KernelIdeal.KTerm.src a1 := rfl

set_option maxHeartbeats 100000 in
/-- The destination nodes: row 1 of the edge list in both programs. -/
theorem dst_eq (a1 : (⟨Cert.KernelIdeal.S2x1600000, .i32⟩ : BufTy).Contents (Elt Ideal)) :
    Cert.ReferenceIdeal.RefTerm.dst a1 = Cert.KernelIdeal.KTerm.dst a1 := rfl

set_option maxHeartbeats 100000 in
/-- The column of destination nodes. -/
theorem dstCol_eq (a1 : (⟨Cert.KernelIdeal.S2x1600000, .i32⟩ : BufTy).Contents (Elt Ideal)) :
    Cert.ReferenceIdeal.RefTerm.dstCol a1 = Cert.KernelIdeal.KTerm.dstCol (Cert.KernelIdeal.KTerm.dst a1) := by
  unfold Cert.ReferenceIdeal.RefTerm.dstCol Cert.KernelIdeal.KTerm.dstCol
  rw [dst_eq]

set_option maxHeartbeats 100000 in
/-- The source nodes with a negative index wrapped around. -/
theorem srcWrap_eq (a1 : (⟨Cert.KernelIdeal.S2x1600000, .i32⟩ : BufTy).Contents (Elt Ideal)) :
    Cert.ReferenceIdeal.RefTerm.srcWrap a1 = Cert.KernelIdeal.KTerm.srcWrap (Cert.KernelIdeal.KTerm.src a1) := by
  unfold Cert.ReferenceIdeal.RefTerm.srcWrap Cert.KernelIdeal.KTerm.srcWrap
  rw [src_eq]

set_option maxHeartbeats 100000 in
/-- The column of wrapped source nodes. -/
theorem srcCol_eq (a1 : (⟨Cert.KernelIdeal.S2x1600000, .i32⟩ : BufTy).Contents (Elt Ideal)) :
    Cert.ReferenceIdeal.RefTerm.srcCol a1 = Cert.KernelIdeal.KTerm.srcCol (Cert.KernelIdeal.KTerm.src a1) := by
  unfold Cert.ReferenceIdeal.RefTerm.srcCol Cert.KernelIdeal.KTerm.srcCol
  rw [srcWrap_eq]

/-! ## The in-degree and the aggregator -/

set_option maxHeartbeats 100000 in
/-- The in-degree is the same array in both programs. -/
theorem deg_eq (a1 : (⟨Cert.KernelIdeal.S2x1600000, .i32⟩ : BufTy).Contents (Elt Ideal)) :
    Cert.ReferenceIdeal.RefTerm.deg a1 = Cert.KernelIdeal.KTerm.deg (Cert.KernelIdeal.KTerm.dst a1) := by
  unfold Cert.ReferenceIdeal.RefTerm.deg Cert.KernelIdeal.KTerm.deg
  rw [dstCol_eq, scat1_eq]

set_option maxHeartbeats 100000 in
/-- The aggregator is the same function in both programs. -/
theorem agg_eq (a1 : (⟨Cert.KernelIdeal.S2x1600000, .i32⟩ : BufTy).Contents (Elt Ideal)) :
    (Cert.ReferenceIdeal.RefTerm.agg a1 : Sage.Mat → Sage.Mat)
      = Cert.KernelIdeal.KTerm.agg (Cert.KernelIdeal.KTerm.src a1) (Cert.KernelIdeal.KTerm.dst a1) := by
  funext y
  unfold Cert.ReferenceIdeal.RefTerm.agg Cert.KernelIdeal.KTerm.agg
  rw [dstCol_eq, srcCol_eq, scat2_eq, gath_eq]

set_option maxHeartbeats 100000 in
/-- The reference's clamped in-degree at a node is the larger of the in-degree there and one: a maximum of two
    arrays is read entry by entry, and a scalar repeated over an array reads the scalar everywhere. -/
theorem dmax_eq (a1 : (⟨Cert.KernelIdeal.S2x1600000, .i32⟩ : BufTy).Contents (Elt Ideal)) (r : Fin 100000) :
    Cert.ReferenceIdeal.RefTerm.dmax a1 (ValueIdx.ix1 r)
      = max (Cert.KernelIdeal.KTerm.deg (Cert.KernelIdeal.KTerm.dst a1) (ValueIdx.ix1 r)) Sage.one := by
  unfold Cert.ReferenceIdeal.RefTerm.dmax
  rw [deg_eq, ValueIdx.maximumf_apply, ValueIdx.broadcastInDim_scalar_apply, ValueIdx.constant_apply]

end Cert.Cross

end
-- ==== Proof.Bridge.lean ====
/-
  The two arrangements of the network compute the same array.

  The kernel's arrangement multiplies the aggregated sum by the reciprocal of the clamped in-degree where the
  reference's divides by it, and takes the batch variance as the mean of the squares less the square of the mean
  where the reference averages the squared deviations. With the in-degree clamped below at one the divisor is
  never zero, so the two means agree for every aggregated array. The first layer's output, a row entry divided
  by the clamped norm of its row and then clamped below at zero, is a real at every coordinate, whatever the
  aggregation produced; on real samples the two variances agree. Nothing is asked of the aggregation.
-/
import proofs.«112482_j24842090840540_1_alg».proof.Proof.Spec
import proofs.«112482_j24842090840540_1_alg».proof.Proof.SpecK
import proofs.«112482_j24842090840540_1_alg».proof.Proof.Laws

noncomputable section

open scoped BigOperators

namespace Sage

open Idealize.ShloMosaic Idealize.ShloMosaic.ValueIdx

/-- With the in-degree clamped below at one, the sum times the reciprocal is the sum divided. -/
theorem meanKAt_eq (agg : Mat) (deg : Fin 100000 → EReal) :
    meanKAt agg (fun r => max (deg r) one) = meanAt agg (fun r => max (deg r) one) := by
  funext r k
  show agg (ix2 r k) * Ideal.div one (max (deg r) one) = Ideal.div (agg (ix2 r k)) (max (deg r) one)
  exact Laws.mean_forms (agg (ix2 r k)) (deg r)

/-- Hence one layer is the same in both arrangements, for every aggregation and every input. -/
theorem layerKAt_eq (aggF : Mat → Mat) (deg : Fin 100000 → EReal) (X : Mat) (Wl : Wt) (b : Row) (Wr : Wt) :
    layerKAt aggF (fun r => max (deg r) one) X Wl b Wr = layerAt aggF (fun r => max (deg r) one) X Wl b Wr := by
  funext r k
  unfold layerKAt layerAt
  rw [meanKAt_eq]

/-- And so is the first layer's output clamped below at zero. -/
theorem h1KAt_eq (aggF : Mat → Mat) (deg : Fin 100000 → EReal) (x : Mat) (Wl1 : Wt) (bl1 : Row) (Wr1 : Wt) :
    h1KAt aggF (fun r => max (deg r) one) x Wl1 bl1 Wr1 = h1At aggF (fun r => max (deg r) one) x Wl1 bl1 Wr1 := by
  funext r k
  unfold h1KAt h1At
  rw [layerKAt_eq]

/-- The first layer's clamped output is a real at every coordinate. -/
theorem h1At_real (aggF : Mat → Mat) (dmax : Fin 100000 → EReal) (x : Mat) (Wl1 : Wt) (bl1 : Row) (Wr1 : Wt)
    (r : Fin 100000) (k : Fin 128) : ∃ g : ℝ, h1At aggF dmax x Wl1 bl1 Wr1 r k = (g : EReal) := by
  unfold h1At layerAt unitAt
  exact Laws.unit_row_real (fun j => linAt (meanAt (aggF x) dmax) x Wl1 bl1 Wr1 r j) k

/-- On real samples the mean of the squares less the square of the mean is the mean squared deviation. -/
theorem varKAt_eq_of_real (h : Fin 100000 → Fin 128 → EReal) (g : Fin 100000 → Fin 128 → ℝ)
    (hg : ∀ r k, h r k = (g r k : EReal)) (k : Fin 128) : varKAt h k = varAt h k := by
  unfold varKAt varAt muAt
  simp only [hg]
  exact Laws.var_forms (Fintype.card_fin 100000) (fun r => g r k)

/-- Hence batch normalisation agrees on real samples. -/
theorem bnKAt_eq_of_real (h : Fin 100000 → Fin 128 → EReal) (g : Fin 100000 → Fin 128 → ℝ)
    (hg : ∀ r k, h r k = (g r k : EReal)) (γ β : Row) : bnKAt h γ β = bnAt h γ β := by
  funext r k
  unfold bnKAt bnAt
  rw [varKAt_eq_of_real h g hg]

/-- The second layer's input is the same array in both arrangements. -/
theorem h1bnK_eq (aggF : Mat → Mat) (deg : Fin 100000 → EReal) (x : Mat) (Wl1 : Wt) (bl1 : Row) (Wr1 : Wt) (γ β : Row) :
    h1bnK aggF (fun r => max (deg r) one) x Wl1 bl1 Wr1 γ β = h1bn aggF (fun r => max (deg r) one) x Wl1 bl1 Wr1 γ β := by
  choose g hg using fun r k => h1At_real aggF (fun r => max (deg r) one) x Wl1 bl1 Wr1 r k
  funext i
  unfold h1bnK h1bn
  rw [h1KAt_eq, bnKAt_eq_of_real _ g hg]

/-- The whole network's result is the same array in both arrangements. -/
theorem resultK_eq (aggF : Mat → Mat) (deg : Fin 100000 → EReal) (x : Mat) (Wl1 : Wt) (bl1 : Row) (Wr1 : Wt) (γ β : Row)
    (Wl2 : Wt) (bl2 : Row) (Wr2 : Wt) :
    resultK aggF (fun r => max (deg r) one) x Wl1 bl1 Wr1 γ β Wl2 bl2 Wr2
      = result aggF (fun r => max (deg r) one) x Wl1 bl1 Wr1 γ β Wl2 bl2 Wr2 := by
  funext i
  unfold resultK result
  rw [h1bnK_eq, layerKAt_eq]

end Sage

end
-- ==== Proof.Meet.lean ====
/-
  The two programs' result arrays are the same function of the ten arguments.

  The reference's result is the network in the reference's arrangement, over the aggregator and the clamped
  in-degree the reference builds from the edge list; the kernel program's result is the network in the kernel's
  arrangement, over the aggregator and the clamped in-degree the kernel program builds from the same edge list.
  The two aggregators are the same function and the two clamped in-degrees the same array (both are the larger of
  the in-degree and one), and with the in-degree clamped below at one the two arrangements agree for every
  aggregator. The two value statements enter as hypotheses, so that this module needs only their common vocabulary.
-/
import proofs.«112482_j24842090840540_1_alg».proof.Proof.Cross
import proofs.«112482_j24842090840540_1_alg».proof.Proof.Bridge
import proofs.«112482_j24842090840540_1_alg».proof.Proof.KArr

noncomputable section

namespace Cert.Meet

open Idealize.ShloMosaic

set_option maxHeartbeats 100000 in
/-- If the reference's result is the network (reference's arrangement) of its aggregator and clamped in-degree,
    and the kernel program's result is the network (kernel's arrangement) of its own, the two results are equal. -/
theorem values_agree_of
    (hR : ∀ (a0 : (⟨Cert.KernelIdeal.S100000x128, .f32⟩ : BufTy).Contents (Elt Ideal)) (a1 : (⟨Cert.KernelIdeal.S2x1600000, .i32⟩ : BufTy).Contents (Elt Ideal))
    (a2 : (⟨Cert.KernelIdeal.S128x128, .f32⟩ : BufTy).Contents (Elt Ideal)) (a3 : (⟨Cert.KernelIdeal.S128, .f32⟩ : BufTy).Contents (Elt Ideal))
    (a4 : (⟨Cert.KernelIdeal.S128x128, .f32⟩ : BufTy).Contents (Elt Ideal)) (a5 a6 : (⟨Cert.KernelIdeal.S128, .f32⟩ : BufTy).Contents (Elt Ideal))
    (a7 : (⟨Cert.KernelIdeal.S128x128, .f32⟩ : BufTy).Contents (Elt Ideal)) (a8 : (⟨Cert.KernelIdeal.S128, .f32⟩ : BufTy).Contents (Elt Ideal))
    (a9 : (⟨Cert.KernelIdeal.S128x128, .f32⟩ : BufTy).Contents (Elt Ideal)),
      Cert.ReferenceIdeal.RefTerm.refOut a0 a1 a2 a3 a4 a5 a6 a7 a8 a9
        = Sage.result (Cert.ReferenceIdeal.RefTerm.agg a1) (fun r => Cert.ReferenceIdeal.RefTerm.dmax a1 (ValueIdx.ix1 r)) a0 a2 a3 a4 a5 a6 a7 a8 a9)
    (hK : ∀ (a0 : (⟨Cert.KernelIdeal.S100000x128, .f32⟩ : BufTy).Contents (Elt Ideal)) (a1 : (⟨Cert.KernelIdeal.S2x1600000, .i32⟩ : BufTy).Contents (Elt Ideal))
    (a2 : (⟨Cert.KernelIdeal.S128x128, .f32⟩ : BufTy).Contents (Elt Ideal)) (a3 : (⟨Cert.KernelIdeal.S128, .f32⟩ : BufTy).Contents (Elt Ideal))
    (a4 : (⟨Cert.KernelIdeal.S128x128, .f32⟩ : BufTy).Contents (Elt Ideal)) (a5 a6 : (⟨Cert.KernelIdeal.S128, .f32⟩ : BufTy).Contents (Elt Ideal))
    (a7 : (⟨Cert.KernelIdeal.S128x128, .f32⟩ : BufTy).Contents (Elt Ideal)) (a8 : (⟨Cert.KernelIdeal.S128, .f32⟩ : BufTy).Contents (Elt Ideal))
    (a9 : (⟨Cert.KernelIdeal.S128x128, .f32⟩ : BufTy).Contents (Elt Ideal)),
      Cert.KernelIdeal.KArr.out a0 a1 a2 a3 a4 a5 a6 a7 a8 a9
        = Sage.resultK (Cert.KernelIdeal.KTerm.agg (Cert.KernelIdeal.KTerm.src a1) (Cert.KernelIdeal.KTerm.dst a1))
            (fun r => max (Cert.KernelIdeal.KTerm.deg (Cert.KernelIdeal.KTerm.dst a1) (ValueIdx.ix1 r)) Sage.one) a0 a2 a3 a4 a5 a6 a7 a8 a9)
    (a0 : (⟨Cert.KernelIdeal.S100000x128, .f32⟩ : BufTy).Contents (Elt Ideal)) (a1 : (⟨Cert.KernelIdeal.S2x1600000, .i32⟩ : BufTy).Contents (Elt Ideal))
    (a2 : (⟨Cert.KernelIdeal.S128x128, .f32⟩ : BufTy).Contents (Elt Ideal)) (a3 : (⟨Cert.KernelIdeal.S128, .f32⟩ : BufTy).Contents (Elt Ideal))
    (a4 : (⟨Cert.KernelIdeal.S128x128, .f32⟩ : BufTy).Contents (Elt Ideal)) (a5 a6 : (⟨Cert.KernelIdeal.S128, .f32⟩ : BufTy).Contents (Elt Ideal))
    (a7 : (⟨Cert.KernelIdeal.S128x128, .f32⟩ : BufTy).Contents (Elt Ideal)) (a8 : (⟨Cert.KernelIdeal.S128, .f32⟩ : BufTy).Contents (Elt Ideal))
    (a9 : (⟨Cert.KernelIdeal.S128x128, .f32⟩ : BufTy).Contents (Elt Ideal)) :
    Cert.ReferenceIdeal.RefTerm.refOut a0 a1 a2 a3 a4 a5 a6 a7 a8 a9 = Cert.KernelIdeal.KArr.out a0 a1 a2 a3 a4 a5 a6 a7 a8 a9 := by
  have hd : (fun r : Fin 100000 => Cert.ReferenceIdeal.RefTerm.dmax a1 (ValueIdx.ix1 r))
      = fun r => max (Cert.KernelIdeal.KTerm.deg (Cert.KernelIdeal.KTerm.dst a1) (ValueIdx.ix1 r)) Sage.one :=
    funext fun r => Cert.Cross.dmax_eq a1 r
  rw [hR, hK, Cert.Cross.agg_eq, hd]
  exact (Sage.resultK_eq _ (fun r => Cert.KernelIdeal.KTerm.deg (Cert.KernelIdeal.KTerm.dst a1) (ValueIdx.ix1 r)) a0 a2 a3 a4 a5 a6 a7 a8 a9).symm

end Cert.Meet

end
-- ==== Proof.RefReadBase.lean ====
/-
  The reference's elementary operations read at an index, on the extended reals.

  Each lemma reads ONE shape operation or reduction of the reference at an entry given by its coordinates:
  the column and row broadcasts, the transpose, the sums over the feature axis and over the node axis
  (the initial value is the zero word, so the sum has no leading term), the product with a transposed
  weight matrix as a sum over the input features, a broadcast scalar, and the two facts about the node
  count as a float: the word 0x47C35000 denotes 100000, so the variance's divisor (100000 less zero) is
  that word and the comparison "divisor > 0" holds.
-/
import proofs.«112482_j24842090840540_1_alg».proof.Proof.RefTerm
import Idealize.ShloMosaic.PureOps.Ideal.Laws
import Idealize.ShloMosaic.Lib.ValueIdx

noncomputable section

open scoped BigOperators

namespace Cert.ReferenceIdeal.RefRead

open Idealize.ShloMosaic Idealize.ShloMosaic.ValueIdx Cert.ReferenceIdeal Cert.ReferenceIdeal.RefTerm
open Cert.ReferenceIdeal.Facts₀

variable [Facts₀]

set_option Elab.async false
theorem colOf_apply {α : Type} (v : S100000.Idx → α) (r : Fin 100000) (z : Fin 1) :
    broadcastInDim S100000x1 ![0] bcast_S100000_S100000x1_0 v (ix2 r z) = v (ix1 r) := by
  show v _ = v _
  congr 1
  funext a
  match a with
  | ⟨0, _⟩ => rfl

theorem colB_apply (c : (⟨S100000x1, .f32⟩ : BufTy).Contents (Elt Ideal)) (r : Fin 100000) (k : Fin 128) :
    colB c (ix2 r k) = c (ix2 r 0) := by
  show c _ = c _
  congr 1
  funext a
  match a with
  | ⟨0, _⟩ => rfl
  | ⟨1, _⟩ => rfl

theorem rowB_apply (v : (⟨S128, .f32⟩ : BufTy).Contents (Elt Ideal)) (r : Fin 100000) (k : Fin 128) :
    rowB v (ix2 r k) = v (ix1 k) := by
  show v _ = v _
  congr 1
  funext a
  match a with
  | ⟨0, _⟩ => rfl

theorem wT_apply (w : (⟨S128x128, .f32⟩ : BufTy).Contents (Elt Ideal)) (j k : Fin 128) :
    wT w (ix2 j k) = w (ix2 k j) := by
  show w _ = w _
  congr 1
  funext a
  match a with
  | ⟨0, _⟩ => rfl
  | ⟨1, _⟩ => rfl

/-- The sum of a row: the reduction over the feature axis from the zero word. -/
theorem rowSum_apply (x : (⟨S100000x128, .f32⟩ : BufTy).Contents (Elt Ideal)) (r : Fin 100000) :
    Host.reduceAdd (F := Ideal) (φ := .f32) x (constant (F := Ideal) S_ .f32 0x00000000#32)
        reducesTo_S100000x128_S100000_d1 h_S_ (ix1 r)
      = ∑ j : Fin 128, x (ix2 r j) := by
  have h : S100000x128.Reduces [1] S100000 := by decide
  refine (Ideal.hostReduceAdd_single reducesTo_S100000x128_S100000_d1 h x _ (ix1 r)).trans ?_
  show Ideal.ofBits .f32 0x00000000#32 + _ = _
  rw [Ideal.ofBits_zero_f32, zero_add]
  show ∑ j : Fin 128, x (h.lift (ix1 r) j) = _
  refine Finset.sum_congr rfl fun j _ => congrArg x (funext fun a => ?_)
  match a with
  | ⟨0, _⟩ => exact Fin.ext rfl
  | ⟨1, _⟩ => exact Fin.ext rfl

/-- The sum of a column: the reduction over the node axis from the zero word. -/
theorem colSum_apply (x : (⟨S100000x128, .f32⟩ : BufTy).Contents (Elt Ideal)) (k : Fin 128) :
    Host.reduceAdd (F := Ideal) (φ := .f32) x (constant (F := Ideal) S_ .f32 0x00000000#32)
        reducesTo_S100000x128_S128_d0 h_S_ (ix1 k)
      = ∑ r : Fin 100000, x (ix2 r k) := by
  have h : S100000x128.Reduces [0] S128 := by decide
  refine (Ideal.hostReduceAdd_single reducesTo_S100000x128_S128_d0 h x _ (ix1 k)).trans ?_
  show Ideal.ofBits .f32 0x00000000#32 + _ = _
  rw [Ideal.ofBits_zero_f32, zero_add]
  show ∑ r : Fin 100000, x (h.lift (ix1 k) r) = _
  refine Finset.sum_congr rfl fun r _ => congrArg x (funext fun a => ?_)
  match a with
  | ⟨0, _⟩ => exact Fin.ext rfl
  | ⟨1, _⟩ => exact Fin.ext rfl

/-- A product with a transposed weight matrix, at an entry: the sum over the input features. -/
theorem dot_apply (l : (⟨S100000x128, .f32⟩ : BufTy).Contents (Elt Ideal)) (w : (⟨S128x128, .f32⟩ : BufTy).Contents (Elt Ideal)) (r : Fin 100000) (k : Fin 128) :
    Host.dotGeneral (F := Ideal) (φ₁ := .f32) (φ₂ := .f32) dot_S100000x128_S128x128_S100000x128_1_0_0_1_n_n none l (wT w) (ix2 r k)
      = ∑ j : Fin 128, l (ix2 r j) * w (ix2 k j) := by
  refine (Ideal.dotGeneral_apply dot_S100000x128_S128x128_S100000x128_1_0_0_1_n_n none .single l (wT w) (ix2 r k)).trans ?_
  rw [← Equiv.sum_comp (contrEquiv1 dot_S100000x128_S128x128_S100000x128_1_0_0_1_n_n 128 rfl rfl).symm]
  refine Finset.sum_congr rfl fun j _ => ?_
  have hl : dot_S100000x128_S128x128_S100000x128_1_0_0_1_n_n.lhsIdx (ix2 r k)
      ((contrEquiv1 dot_S100000x128_S128x128_S100000x128_1_0_0_1_n_n 128 rfl rfl).symm j) = ix2 r j := by
    funext a
    match a with
    | ⟨0, _⟩ => exact Fin.ext rfl
    | ⟨1, _⟩ => exact Fin.ext rfl
  have hr : dot_S100000x128_S128x128_S100000x128_1_0_0_1_n_n.rhsIdx (ix2 r k)
      ((contrEquiv1 dot_S100000x128_S128x128_S100000x128_1_0_0_1_n_n 128 rfl rfl).symm j) = ix2 j k := by
    funext a
    match a with
    | ⟨0, _⟩ => exact Fin.ext rfl
    | ⟨1, _⟩ => exact Fin.ext rfl
  rw [hl, hr, wT_apply]

/-- A per-feature row placed as the one row of a 1 × 128 array. -/
theorem rowOf_apply {α : Type} (v : S128.Idx → α) (z : Fin 1) (k : Fin 128) :
    broadcastInDim S1x128 ![1] bcast_S128_S1x128_1 v (ix2 z k) = v (ix1 k) := by
  show v _ = v _
  congr 1
  funext a
  match a with
  | ⟨0, _⟩ => rfl

/-- The one row of a 1 × 128 array repeated along the node axis. -/
theorem rowRep_apply {α : Type} (w : S1x128.Idx → α) (r : Fin 100000) (k : Fin 128) :
    broadcastInDim S100000x128 ![0, 1] bcast_S1x128_S100000x128_0_1 w (ix2 r k) = w (ix2 0 k) := by
  show w _ = w _
  congr 1
  funext a
  match a with
  | ⟨0, _⟩ => rfl
  | ⟨1, _⟩ => rfl

/-- A scalar broadcast reads the scalar everywhere. -/
theorem bscalar_apply {α : Type} {S : Shape} (h : S_.BroadcastsInDim S (![] : Fin 0 → Fin S.rank)) (x : S_.Idx → α) (i : S.Idx) :
    broadcastInDim S ![] h x i = x ix0 :=
  congrArg x (funext fun a => a.elim0)

/-- A scalar float constant reads its word. -/
theorem const_apply (w : BitVec 32) (i : S_.Idx) : constant (F := Ideal) S_ .f32 w i = Ideal.ofBits .f32 w := rfl

/-- The word 0x47C35000 denotes one hundred thousand. -/
theorem cN_eq : Ideal.ofBits .f32 0x47C35000#32 = ((100000 : ℝ) : EReal) := by
  simp [Ideal.ofBits, Ideal.ieee, -EReal.coe_mul]; norm_num

/-- The variance's divisor is the node count: the degrees of freedom subtracted are zero. -/
theorem varDiv_eq (i : S_.Idx) : varDiv i = Ideal.ofBits .f32 0x47C35000#32 := by
  show Ideal.ofBits .f32 0x47C35000#32 - (((0#32 : BitVec 32).toInt : ℝ) : EReal) = _
  simp

/-- The divisor is positive, so the select takes the quotient. -/
theorem var_cond (k : Fin 128) :
    broadcastInDim S128 ![] bcast_S_S128
      (cmpf (F := Ideal) (φ := .f32) .ogt varDiv (constant (F := Ideal) S_ .f32 0x00000000#32)) (ix1 k) = 1#1 := by
  show Ideal.cmp .ogt (varDiv _) (Ideal.ofBits .f32 0x00000000#32) = 1#1
  rw [varDiv_eq, Ideal.ofBits_zero_f32, cN_eq]
  have hpos : (0 : EReal) < ((100000 : ℝ) : EReal) := by exact_mod_cast (by norm_num : (0 : ℝ) < 100000)
  simp [Ideal.cmp, hpos]

end Cert.ReferenceIdeal.RefRead

end
-- ==== Proof.RefReadLayer.lean ====
/-
  One layer of the reference read at an entry, on the extended reals.

  The mean over in-neighbours at (r, k) is the aggregate there divided by node r's clamped in-degree; the linear
  part at (r, k) is row r of the means against row k of the first weight matrix (the program multiplies by the
  transpose), plus entry k of the bias, plus row r of the features against row k of the second weight matrix; the
  norm of row r is the square root of the sum of the squares of its entries; and the normalised entry is the entry
  over the larger of its row's norm and the floor 1e-12. A quotient, a sum, a maximum and a square root of arrays
  are read entry by entry. The aggregate and the in-degree stay closed.
-/
import proofs.«112482_j24842090840540_1_alg».proof.Proof.RefReadBase

noncomputable section

open scoped BigOperators

namespace Cert.ReferenceIdeal.RefRead

open Idealize.ShloMosaic Idealize.ShloMosaic.ValueIdx Cert.ReferenceIdeal Cert.ReferenceIdeal.RefTerm
open Cert.ReferenceIdeal.Facts₀

variable [Facts₀]

set_option Elab.async false

/-- A quotient of two arrays is read entry by entry. -/
theorem hostDivf_apply {s : Shape} (x y : FVec Ideal s .f32) (i : s.Idx) :
    Host.divf (F := Ideal) (φ := .f32) x y i = Ideal.div (x i) (y i) := rfl

/-- A square root of an array is read entry by entry. -/
theorem hostSqrt_apply {s : Shape} (x : FVec Ideal s .f32) (i : s.Idx) :
    Host.sqrt (F := Ideal) (φ := .f32) x i = Ideal.sqrt (x i) := rfl

/-- The mean over in-neighbours at an entry: the aggregate there over the node's clamped in-degree. -/
theorem mean_apply (a1 : (⟨S2x1600000, .i32⟩ : BufTy).Contents (Elt Ideal)) (y : (⟨S100000x128, .f32⟩ : BufTy).Contents (Elt Ideal)) (r : Fin 100000) (k : Fin 128) :
    mean a1 y (ix2 r k) = Ideal.div (agg a1 y (ix2 r k)) (dmax a1 (ix1 r)) := by
  unfold mean
  rw [hostDivf_apply, colB_apply, colOf_apply]

/-- The linear part of a layer at an entry. -/
theorem lin_apply (a1 : (⟨S2x1600000, .i32⟩ : BufTy).Contents (Elt Ideal)) (y : (⟨S100000x128, .f32⟩ : BufTy).Contents (Elt Ideal)) (wl : (⟨S128x128, .f32⟩ : BufTy).Contents (Elt Ideal)) (b : (⟨S128, .f32⟩ : BufTy).Contents (Elt Ideal))
    (wr : (⟨S128x128, .f32⟩ : BufTy).Contents (Elt Ideal)) (r : Fin 100000) (k : Fin 128) :
    lin a1 y wl b wr (ix2 r k)
      = ((∑ j : Fin 128, mean a1 y (ix2 r j) * wl (ix2 k j)) + b (ix1 k)) + ∑ j : Fin 128, y (ix2 r j) * wr (ix2 k j) := by
  unfold lin
  rw [addf_apply, addf_apply, dot_apply, dot_apply, rowB_apply]

/-- The Euclidean norm of a row. -/
theorem nrm_apply (o : (⟨S100000x128, .f32⟩ : BufTy).Contents (Elt Ideal)) (r : Fin 100000) (z : Fin 1) :
    nrm o (ix2 r z) = Ideal.sqrt (∑ j : Fin 128, o (ix2 r j) * o (ix2 r j)) := by
  unfold nrm
  rw [hostSqrt_apply, colOf_apply, rowSum_apply]
  simp only [mulf_apply]

/-- A row divided by its clamped norm, at an entry. -/
theorem unit_apply (o : (⟨S100000x128, .f32⟩ : BufTy).Contents (Elt Ideal)) (r : Fin 100000) (k : Fin 128) :
    unit o (ix2 r k)
      = Ideal.div (o (ix2 r k)) (max (Ideal.sqrt (∑ j : Fin 128, o (ix2 r j) * o (ix2 r j))) (Ideal.ofBits .f32 0x2B8CBCCC#32)) := by
  unfold unit
  rw [hostDivf_apply, colB_apply, maximumf_apply, nrm_apply, bscalar_apply, const_apply]

end Cert.ReferenceIdeal.RefRead

end
-- ==== Proof.RefReadBn.lean ====
/-
  The reference's batch normalisation read at an entry, on the extended reals.

  Between the two layers the rows are clamped below at zero and batch-normalised over the node axis.
  Read at node r and feature k: the clamp is max(o, 0); the batch mean μ k is the column sum divided
  by the node count; the squared deviation is (h r k − μ k)²; the batch variance is the column sum of
  the squared deviations divided by the node count (the divisor is positive, so the select takes the
  quotient); and the normalised entry is (h r k − μ k) · rsqrt(σ² k + offset) · γ k + β k.
-/
import proofs.«112482_j24842090840540_1_alg».proof.Proof.RefReadBase

noncomputable section

open scoped BigOperators

namespace Cert.ReferenceIdeal.RefRead

open Idealize.ShloMosaic Idealize.ShloMosaic.ValueIdx Cert.ReferenceIdeal Cert.ReferenceIdeal.RefTerm
open Cert.ReferenceIdeal.Facts₀

variable [Facts₀]

set_option Elab.async false

/-- The clamp at zero, at an entry. -/
theorem relu_apply (o : (⟨S100000x128, .f32⟩ : BufTy).Contents (Elt Ideal)) (i : S100000x128.Idx) : relu o i = max (o i) 0 := by
  simp only [relu, maximumf, Ideal.maximumf_def, bscalar_apply bcast_S_S100000x128, const_apply, Ideal.ofBits_zero_f32]

/-- The batch mean of a feature. -/
theorem mu_apply (h : (⟨S100000x128, .f32⟩ : BufTy).Contents (Elt Ideal)) (k : Fin 128) :
    mu h (ix1 k) = Ideal.div (∑ r : Fin 100000, h (ix2 r k)) (Ideal.ofBits .f32 0x47C35000#32) := by
  simp only [mu, Host.divf, Ideal.hostDivf_def, colSum_apply, bscalar_apply bcast_S_S128, const_apply]

/-- The squared deviation from the batch mean, at an entry. -/
theorem dev2_apply (h : (⟨S100000x128, .f32⟩ : BufTy).Contents (Elt Ideal)) (r : Fin 100000) (k : Fin 128) :
    dev2 h (ix2 r k) = (h (ix2 r k) - mu h (ix1 k)) * (h (ix2 r k) - mu h (ix1 k)) := by
  simp only [dev2, mulf, subf, Ideal.mulf_def, Ideal.subf_def]
  rw [rowRep_apply]
  simp only [Host.divf, Ideal.hostDivf_def]
  rw [rowOf_apply]
  simp only [colSum_apply, bscalar_apply bcast_S_S1x128, const_apply, mu_apply]

/-- The batch variance of a feature. -/
theorem var_apply (h : (⟨S100000x128, .f32⟩ : BufTy).Contents (Elt Ideal)) (k : Fin 128) :
    var h (ix1 k)
      = Ideal.div (∑ r : Fin 100000, (h (ix2 r k) - mu h (ix1 k)) * (h (ix2 r k) - mu h (ix1 k))) (Ideal.ofBits .f32 0x47C35000#32) := by
  unfold var
  rw [select_apply, var_cond, select_one]
  simp only [Host.divf, Ideal.hostDivf_def, colSum_apply, bscalar_apply bcast_S_S128, varDiv_eq, dev2_apply]

/-- Batch normalisation at an entry. -/
theorem bn_apply (h : (⟨S100000x128, .f32⟩ : BufTy).Contents (Elt Ideal)) (g b : (⟨S128, .f32⟩ : BufTy).Contents (Elt Ideal)) (r : Fin 100000) (k : Fin 128) :
    bn h g b (ix2 r k)
      = (h (ix2 r k) - mu h (ix1 k)) * Ideal.rsqrt (var h (ix1 k) + Ideal.ofBits .f32 0x3727C5AC#32) * g (ix1 k) + b (ix1 k) := by
  simp only [bn, addf, mulf, subf, Ideal.addf_def, Ideal.mulf_def, Ideal.subf_def, rowB_apply, Host.rsqrt,
    Ideal.hostUnary_rsqrt_def, bscalar_apply bcast_S_S128, const_apply]

end Cert.ReferenceIdeal.RefRead

end
-- ==== Proof.RefValue.lean ====
/-
  The reference's result is the specification's result.

  The reference's value is read entry by entry: one layer (the mean over in-neighbours, the two linear
  maps with the bias, the division of each row by its clamped Euclidean norm) is the specification's
  layer; the first layer clamped at zero and batch-normalised over the node axis (batch mean, mean
  squared deviation, reciprocal square root of the variance plus the offset, scale and shift) is the
  specification's second-layer input; and the second layer applied to it is the specification's result.
  The aggregator and the clamped in-degree are carried as they stand.
-/
import proofs.«112482_j24842090840540_1_alg».proof.Proof.RefReadLayer
import proofs.«112482_j24842090840540_1_alg».proof.Proof.RefReadBn
import proofs.«112482_j24842090840540_1_alg».proof.Proof.Spec

noncomputable section

open scoped BigOperators

namespace Cert.ReferenceIdeal.RefValue

open Idealize.ShloMosaic Idealize.ShloMosaic.ValueIdx Cert.ReferenceIdeal Cert.ReferenceIdeal.RefTerm Cert.ReferenceIdeal.RefRead
open Cert.ReferenceIdeal.Facts₀

variable [Facts₀]

set_option Elab.async false

/-- The first coordinate of an index built from coordinates. -/
theorem ix2_zero (r : Fin 100000) (k : Fin 128) : (ix2 r k) 0 = r := rfl
/-- The second coordinate of an index built from coordinates. -/
theorem ix2_one (r : Fin 100000) (k : Fin 128) : (ix2 r k) 1 = k := rfl

/-- One layer of the reference (mean aggregation, the two linear maps and the bias, row normalisation)
    is the specification's layer, entry by entry. -/
theorem layer_apply (a1 : (⟨S2x1600000, .i32⟩ : BufTy).Contents (Elt Ideal)) (X : (⟨S100000x128, .f32⟩ : BufTy).Contents (Elt Ideal)) (wl : (⟨S128x128, .f32⟩ : BufTy).Contents (Elt Ideal)) (b : (⟨S128, .f32⟩ : BufTy).Contents (Elt Ideal)) (wr : (⟨S128x128, .f32⟩ : BufTy).Contents (Elt Ideal)) (r : Fin 100000) (k : Fin 128) :
    unit (lin a1 X wl b wr) (ix2 r k)
      = Sage.layerAt (agg a1) (fun r => dmax a1 (ix1 r)) X wl b wr r k := by
  rw [unit_apply]
  simp only [lin_apply, mean_apply, Sage.layerAt, Sage.unitAt, Sage.linAt, Sage.meanAt]

/-- The first layer clamped at zero is the specification's. -/
theorem h1_apply (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (r : Fin 100000) (k : Fin 128) :
    relu (out1 a0 a1 a2 a3 a4) (ix2 r k)
      = Sage.h1At (agg a1) (fun r => dmax a1 (ix1 r)) a0 a2 a3 a4 r k := by
  rw [relu_apply]
  unfold out1
  rw [layer_apply]
  simp only [Sage.h1At]

/-- The second layer's input is the specification's batch-normalised first layer. -/
theorem hid_eq (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (a5 a6 : (⟨S128, .f32⟩ : BufTy).Contents (Elt Ideal)) :
    hid a0 a1 a2 a3 a4 a5 a6
      = Sage.h1bn (agg a1) (fun r => dmax a1 (ix1 r)) a0 a2 a3 a4 a5 a6 := by
  funext i
  obtain ⟨r, k, rfl⟩ : ∃ (r : Fin 100000) (k : Fin 128), i = ix2 r k := ⟨i 0, i 1, eq_ix2 i⟩
  unfold hid
  rw [bn_apply]
  simp only [var_apply, mu_apply, h1_apply, Sage.h1bn, Sage.bnAt, Sage.varAt, Sage.muAt, ix2_zero, ix2_one]

/-- The reference's result is the specification's result. -/
theorem refOut_eq (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (a5 a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) :
    RefTerm.refOut a0 a1 a2 a3 a4 a5 a6 a7 a8 a9
      = Sage.result (RefTerm.agg a1) (fun r => RefTerm.dmax a1 (ValueIdx.ix1 r)) a0 a2 a3 a4 a5 a6 a7 a8 a9 := by
  funext i
  obtain ⟨r, k, rfl⟩ : ∃ (r : Fin 100000) (k : Fin 128), i = ix2 r k := ⟨i 0, i 1, eq_ix2 i⟩
  unfold refOut
  rw [layer_apply, hid_eq]
  simp only [Sage.result, ix2_zero, ix2_one]

end Cert.ReferenceIdeal.RefValue

end
-- ==== Proof.KValue.lean ====
/-
  The kernel program's result array is the network written coordinate by coordinate, the kernel's way.

  The program's closed term is read at an index. The mean over in-neighbours at node r, feature k is the aggregate's
  entry times the reciprocal of the in-degree clamped below at one: the reciprocal is a vector over the nodes, viewed
  as a column and repeated along the features, so entry (r, k) of the repeated column is entry r of the vector. The
  weights enter transposed (entry (j, k) of the transposed matrix is entry (k, j) of the matrix; narrowing the float
  format is the identity on extended reals) and the per-feature vectors as rows (entry (0, k) of the row is entry k of
  the vector), so a layer's linear part over them is the specification's, which reads the weights output feature
  first. Between the two layers the column sums and the column sums of squares, divided by the node count, are the
  batch mean and the mean square; the reciprocal deviation is the reciprocal root of the mean square less the squared
  mean plus the offset: the specification's batch norm over the kernel's variance. The aggregator and the in-degree
  (a scatter-add of a gather over the edge list) are never opened: they are the same terms on both sides. Every
  float literal stays the word the program carries.
-/
import proofs.«112482_j24842090840540_1_alg».proof.Proof.KArr
import proofs.«112482_j24842090840540_1_alg».proof.Proof.SpecK
import proofs.«112482_j24842090840540_1_alg».proof.Proof.LibColumnForms
import Idealize.ShloMosaic.Lib.IdealHost
import Idealize.ShloMosaic.Lib.ValueIdx
import Idealize.ShloMosaic.Lib.ValueLayout
import Idealize.ShloMosaic.Lib.Pipeline.Value

noncomputable section

open scoped BigOperators

namespace Cert.KernelIdeal.KValue

open Idealize.ShloMosaic Idealize.ShloMosaic.ValueIdx Cert.KernelIdeal Cert.KernelIdeal.Gen

/- The aggregator and the in-degree are carried as opaque terms: nothing below may unfold them. -/
attribute [local irreducible] Host.gather Host.scatterAdd

/-! ## The host's layout operations at an index -/

/-- A float constant splat over any shape reads, everywhere, the extended real its word encodes. -/
theorem splat_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-- A column `[a, 1]` repeated along a second axis of length `b` reads, at `(p, c)`, the column's entry of row `p`. -/
theorem broadcastInDim_col_apply {a b : ℕ} {α : Type} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## The mean over in-neighbours -/

/-- The clamped in-degree of node `r`. -/
theorem dmax_apply (d : (⟨S1600000, .i32⟩ : BufTy).Contents (Elt Ideal)) (r : Fin 100000) :
    KTerm.dmax d (ix1 r) = max (KTerm.deg d (ix1 r)) Sage.one := by
  unfold KTerm.dmax
  exact (maximumf_apply _ _ _).trans (congrArg (max (KTerm.deg d (ix1 r))) (splat_apply _ _ _))

/-- Its reciprocal. -/
theorem dinv_apply (d : (⟨S1600000, .i32⟩ : BufTy).Contents (Elt Ideal)) (r : Fin 100000) :
    KTerm.dinv d (ix1 r) = Ideal.div Sage.one (max (KTerm.deg d (ix1 r)) Sage.one) := by
  unfold KTerm.dinv
  exact (hostDivf_apply _ _ _).trans (congrArg₂ Ideal.div (splat_apply _ _ _) (dmax_apply d r))

/-- The aggregate times the reciprocal column repeated along the features, at node `r`, feature `k`: the aggregate's
    entry times the reciprocal clamped in-degree of node `r`. -/
theorem meanK_apply (s d : (⟨S1600000, .i32⟩ : BufTy).Contents (Elt Ideal)) (y : (⟨S100000x128, .f32⟩ : BufTy).Contents (Elt Ideal))
    (r : Fin 100000) (k : Fin 128) :
    KTerm.meanK s d (shapeCast S100000x1 (KTerm.dinv d) Facts₀.shapeCasts_S100000_S100000x1) y (ix2 r k)
      = KTerm.agg s d y (ix2 r k) * Ideal.div Sage.one (max (KTerm.deg d (ix1 r)) Sage.one) := by
  unfold KTerm.meanK
  refine (mulf_apply _ _ _).trans (congrArg (KTerm.agg s d y (ix2 r k) * ·) ?_)
  refine (broadcastInDim_col_apply _ _ r k).trans ?_
  exact (shapeCast_a_a1_apply _ _ r (0 : Fin 1)).trans (dinv_apply d r)

/-! ## The weights and the per-feature rows -/

/-- A transposed weight matrix at `(j, k)` is the matrix at `(k, j)`; narrowing the format changes nothing. -/
theorem wT_apply (w : (⟨S128x128, .f32⟩ : BufTy).Contents (Elt Ideal)) (j k : Fin 128) :
    KTerm.wT w (ix2 j k) = w (ix2 k j) := by
  unfold KTerm.wT
  show transpose S128x128 [1, 0] w Facts₀.transposes_S128x128_S128x128_1_0 (ix2 j k) = _
  exact transpose_ix2_apply w _ j k

/-- A per-feature vector viewed as a row: entry `(0, k)` is entry `k`. -/
theorem row_apply (b : (⟨S128, .f32⟩ : BufTy).Contents (Elt Ideal)) (k : Fin 128) :
    shapeCast S1x128 b Facts₀.shapeCasts_S128_S1x128 (ix2 (0 : Fin 1) k) = b (ix1 k) :=
  shapeCast_a_1a_apply b _ (0 : Fin 1) k

/-! ## Between the statistics and the batch norm -/

/-- The mean row: a sum over the nodes divided by the node count. -/
theorem muRow_apply (s : (⟨S1x128, .f32⟩ : BufTy).Contents (Elt Ideal)) (k : Fin 128) :
    KTerm.muRow s (ix2 (0 : Fin 1) k) = Ideal.div (s (ix2 (0 : Fin 1) k)) Sage.cN := by
  unfold KTerm.muRow
  exact (hostDivf_apply _ _ _).trans (congrArg (Ideal.div (s (ix2 (0 : Fin 1) k))) (splat_apply _ _ _))

/-- The reciprocal deviation row: the reciprocal root of the mean square less the squared mean, plus the offset. -/
theorem istdRow_apply (s ss : (⟨S1x128, .f32⟩ : BufTy).Contents (Elt Ideal)) (k : Fin 128) :
    KTerm.istdRow s ss (ix2 (0 : Fin 1) k)
      = Ideal.rsqrt ((Ideal.div (ss (ix2 (0 : Fin 1) k)) Sage.cN
          - Ideal.div (s (ix2 (0 : Fin 1) k)) Sage.cN * Ideal.div (s (ix2 (0 : Fin 1) k)) Sage.cN) + Sage.epsB) := by
  unfold KTerm.istdRow
  show Ideal.rsqrt ((KTerm.muRow ss (ix2 (0 : Fin 1) k) - KTerm.muRow s (ix2 (0 : Fin 1) k) * KTerm.muRow s (ix2 (0 : Fin 1) k))
      + broadcastInDim S1x128 ![] _ (constant (F := Ideal) S_ .f32 0x3727C5AC#32) (ix2 (0 : Fin 1) k)) = _
  rw [muRow_apply, muRow_apply, splat_apply]

/-! ## The layers, the batch norm, the whole network -/

/-- The aggregator of the edge list `a1`: the sum, into each node, of its in-neighbours' rows. Never opened. -/
abbrev aggF (a1 : (⟨S2x1600000, .i32⟩ : BufTy).Contents (Elt Ideal)) : Sage.Mat → Sage.Mat :=
  KTerm.agg (KTerm.src a1) (KTerm.dst a1)

/-- The in-degree of each node clamped below at one. The in-degree is never opened. -/
abbrev dmaxF (a1 : (⟨S2x1600000, .i32⟩ : BufTy).Contents (Elt Ideal)) : Fin 100000 → EReal :=
  fun r => max (KTerm.deg (KTerm.dst a1) (ix1 r)) Sage.one

/-- The program's mean over in-neighbours at node `r`, feature `k`: the aggregate times the reciprocal clamped
    in-degree. -/
theorem mean_apply (a1 : (⟨S2x1600000, .i32⟩ : BufTy).Contents (Elt Ideal)) (y : (⟨S100000x128, .f32⟩ : BufTy).Contents (Elt Ideal)) (r : Fin 100000) (k : Fin 128) :
    KArr.mean a1 y (ix2 r k) = Sage.meanKAt (aggF a1 y) (dmaxF a1) r k := by
  unfold KArr.mean KArr.dcol Sage.meanKAt
  exact meanK_apply _ _ y r k

/-- The second layer's linear part over transposed weights and a bias row is the specification's linear part over
    the weights as given (output feature first) and the bias vector. -/
theorem linAt3_eq (A X : S100000x128.Idx → EReal) (Wl : (⟨S128x128, .f32⟩ : BufTy).Contents (Elt Ideal)) (b : (⟨S128, .f32⟩ : BufTy).Contents (Elt Ideal)) (Wr : (⟨S128x128, .f32⟩ : BufTy).Contents (Elt Ideal)) (r : Fin 100000) (k : Fin 128) :
    KLayer3.linAt A X (KTerm.wT Wl) (KArr.row b) (KTerm.wT Wr) r k
      = Sage.linAt (fun r j => A (ix2 r j)) X Wl b Wr r k := by
  unfold KLayer3.linAt Sage.linAt KArr.row
  rw [row_apply]
  simp only [wT_apply]

/-- The first layer's, the same. -/
theorem linAt0_eq (A X : S100000x128.Idx → EReal) (Wl : (⟨S128x128, .f32⟩ : BufTy).Contents (Elt Ideal)) (b : (⟨S128, .f32⟩ : BufTy).Contents (Elt Ideal)) (Wr : (⟨S128x128, .f32⟩ : BufTy).Contents (Elt Ideal)) (r : Fin 100000) (k : Fin 128) :
    KLayer0.linAt A X (KTerm.wT Wl) (KArr.row b) (KTerm.wT Wr) r k
      = Sage.linAt (fun r j => A (ix2 r j)) X Wl b Wr r k := by
  unfold KLayer0.linAt Sage.linAt KArr.row
  rw [row_apply]
  simp only [wT_apply]

/-- With the program's mean as the first feature array, the linear part is the specification's over the kernel's mean. -/
theorem lin3_mean_eq (a1 : (⟨S2x1600000, .i32⟩ : BufTy).Contents (Elt Ideal)) (y : (⟨S100000x128, .f32⟩ : BufTy).Contents (Elt Ideal)) (Wl : (⟨S128x128, .f32⟩ : BufTy).Contents (Elt Ideal)) (b : (⟨S128, .f32⟩ : BufTy).Contents (Elt Ideal)) (Wr : (⟨S128x128, .f32⟩ : BufTy).Contents (Elt Ideal)) (r : Fin 100000) (k : Fin 128) :
    KLayer3.linAt (KArr.mean a1 y) y (KTerm.wT Wl) (KArr.row b) (KTerm.wT Wr) r k
      = Sage.linAt (Sage.meanKAt (aggF a1 y) (dmaxF a1)) y Wl b Wr r k :=
  (linAt3_eq _ _ Wl b Wr r k).trans
    (congrArg (fun A => Sage.linAt A y Wl b Wr r k) (funext fun r' => funext fun j => mean_apply a1 y r' j))

theorem lin0_mean_eq (a1 : (⟨S2x1600000, .i32⟩ : BufTy).Contents (Elt Ideal)) (y : (⟨S100000x128, .f32⟩ : BufTy).Contents (Elt Ideal)) (Wl : (⟨S128x128, .f32⟩ : BufTy).Contents (Elt Ideal)) (b : (⟨S128, .f32⟩ : BufTy).Contents (Elt Ideal)) (Wr : (⟨S128x128, .f32⟩ : BufTy).Contents (Elt Ideal)) (r : Fin 100000) (k : Fin 128) :
    KLayer0.linAt (KArr.mean a1 y) y (KTerm.wT Wl) (KArr.row b) (KTerm.wT Wr) r k
      = Sage.linAt (Sage.meanKAt (aggF a1 y) (dmaxF a1)) y Wl b Wr r k :=
  (linAt0_eq _ _ Wl b Wr r k).trans
    (congrArg (fun A => Sage.linAt A y Wl b Wr r k) (funext fun r' => funext fun j => mean_apply a1 y r' j))

/-- The second layer region's array at node `r`, feature `k` is the specification's layer, the kernel's way. -/
theorem layer3_apply (a1 : (⟨S2x1600000, .i32⟩ : BufTy).Contents (Elt Ideal)) (y : (⟨S100000x128, .f32⟩ : BufTy).Contents (Elt Ideal)) (Wl : (⟨S128x128, .f32⟩ : BufTy).Contents (Elt Ideal)) (b : (⟨S128, .f32⟩ : BufTy).Contents (Elt Ideal)) (Wr : (⟨S128x128, .f32⟩ : BufTy).Contents (Elt Ideal)) (r : Fin 100000) (k : Fin 128) :
    KLayer3.layerArr (KArr.mean a1 y) y (KTerm.wT Wl) (KArr.row b) (KTerm.wT Wr) (ix2 r k)
      = Sage.layerKAt (aggF a1) (dmaxF a1) y Wl b Wr r k :=
  (show KLayer3.layerArr (KArr.mean a1 y) y (KTerm.wT Wl) (KArr.row b) (KTerm.wT Wr) (ix2 r k)
      = Sage.unitAt (fun r j => KLayer3.linAt (KArr.mean a1 y) y (KTerm.wT Wl) (KArr.row b) (KTerm.wT Wr) r j) r k from rfl).trans
    (congrArg (fun O => Sage.unitAt O r k) (funext fun r' => funext fun j => lin3_mean_eq a1 y Wl b Wr r' j))

/-- The first layer region's array at node `r`, feature `k`: the same layer, clamped below at zero. -/
theorem layer0_apply (a1 : (⟨S2x1600000, .i32⟩ : BufTy).Contents (Elt Ideal)) (y : (⟨S100000x128, .f32⟩ : BufTy).Contents (Elt Ideal)) (Wl : (⟨S128x128, .f32⟩ : BufTy).Contents (Elt Ideal)) (b : (⟨S128, .f32⟩ : BufTy).Contents (Elt Ideal)) (Wr : (⟨S128x128, .f32⟩ : BufTy).Contents (Elt Ideal)) (r : Fin 100000) (k : Fin 128) :
    KLayer0.layerArr (KArr.mean a1 y) y (KTerm.wT Wl) (KArr.row b) (KTerm.wT Wr) (ix2 r k)
      = Sage.h1KAt (aggF a1) (dmaxF a1) y Wl b Wr r k :=
  (show KLayer0.layerArr (KArr.mean a1 y) y (KTerm.wT Wl) (KArr.row b) (KTerm.wT Wr) (ix2 r k)
      = max (Sage.unitAt (fun r j => KLayer0.linAt (KArr.mean a1 y) y (KTerm.wT Wl) (KArr.row b) (KTerm.wT Wr) r j) r k) 0 from rfl).trans
    (congrArg (fun O => max (Sage.unitAt O r k) 0) (funext fun r' => funext fun j => lin0_mean_eq a1 y Wl b Wr r' j))

/-- The batch-normalised array at node `r`, feature `k`: the column sums over the node count are the batch mean, the
    column sums of squares over the node count less its square the kernel's variance. -/
theorem r2_apply (H : S100000x128.Idx → EReal) (a5 a6 : (⟨S128, .f32⟩ : BufTy).Contents (Elt Ideal)) (r : Fin 100000) (k : Fin 128) :
    KArr.r2 H a5 a6 (ix2 r k) = Sage.bnKAt (fun r k => H (ix2 r k)) a5 a6 r k := by
  unfold KArr.r2
  show (H (ix2 r k) - KTerm.muRow (KStats.colSums H) (ix2 (0 : Fin 1) k))
        * KTerm.istdRow (KStats.colSums H) (KStats.colSumSqs H) (ix2 (0 : Fin 1) k)
        * KArr.row a5 (ix2 (0 : Fin 1) k) + KArr.row a6 (ix2 (0 : Fin 1) k) = _
  rw [muRow_apply, istdRow_apply]
  unfold KArr.row
  rw [row_apply, row_apply]
  rfl

/-- The kernel program's result array is the network, the kernel's way, of the edge list's aggregator and clamped
    in-degree and the nine float arguments. -/
theorem out_eq (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (a5 a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) :
    KArr.out a0 a1 a2 a3 a4 a5 a6 a7 a8 a9
      = Sage.resultK (KTerm.agg (KTerm.src a1) (KTerm.dst a1)) (fun r => max (KTerm.deg (KTerm.dst a1) (ValueIdx.ix1 r)) Sage.one) a0 a2 a3 a4 a5 a6 a7 a8 a9 := by
  have h0 : KArr.r0 a0 a1 a2 a3 a4 = fun i => Sage.h1KAt (aggF a1) (dmaxF a1) a0 a2 a3 a4 (i 0) (i 1) := by
    funext i
    obtain ⟨r, k, rfl⟩ : ∃ (r : Fin 100000) (k : Fin 128), i = ix2 r k := ⟨i 0, i 1, eq_ix2 i⟩
    exact layer0_apply a1 a0 a2 a3 a4 r k
  have h2 : KArr.r2 (KArr.r0 a0 a1 a2 a3 a4) a5 a6 = Sage.h1bnK (aggF a1) (dmaxF a1) a0 a2 a3 a4 a5 a6 := by
    rw [h0]
    funext i
    obtain ⟨r, k, rfl⟩ : ∃ (r : Fin 100000) (k : Fin 128), i = ix2 r k := ⟨i 0, i 1, eq_ix2 i⟩
    exact r2_apply _ a5 a6 r k
  unfold KArr.out KArr.r3
  rw [h2]
  funext i
  obtain ⟨r, k, rfl⟩ : ∃ (r : Fin 100000) (k : Fin 128), i = ix2 r k := ⟨i 0, i 1, eq_ix2 i⟩
  exact layer3_apply a1 _ a7 a8 a9 r k

end Cert.KernelIdeal.KValue

end
-- ==== Proof.lean ====
/-
  The certificate of a two-layer GraphSAGE forward pass (100000 nodes, 128 features, 1600000 edges): the tiled kernel
  program against the plain reference.

  Both programs compute, per layer: the mean over in-neighbours of the node features (a scatter-add of a gather
  over the edge list, divided by the in-degree clamped below at one), the two linear maps and the bias, and the
  division of every row by its Euclidean norm clamped below at 1e-12; between the layers a clamp at zero and a
  batch norm over the node axis with batch statistics.

  The frames of the kernel program (as printed and idealized) are the generated ones. The reference's run is
  written out operation by operation (RefRun.lean), which also gives its frame. Nothing was rewritten by the
  ideal pass, so the idealization claim is trivial.

  Equal results on the extended reals. The kernel program's result buffer ends at the last boundary's contents
  (KRun.lean), which is a closed term of the ten argument arrays (KChain.lean over the four regions' modules
  KLayer0, KStats, KBn, KLayer3 and the host stretches KHostA); that term, read index by index, is the
  specification in the kernel's arrangement (KValue.lean, SpecK.lean). The reference's result is a closed term
  too (RefTerm.lean), which read index by index is the specification in the reference's arrangement
  (RefValue.lean, Spec.lean). The two arrangements agree (Bridge.lean) by three facts about extended reals
  (Laws.lean): a·(1/d) = a/d when d = max(·, 1) is not zero; a row divided by its clamped norm and clamped at
  zero is always a real number (if the norm is +∞ the quotient is a·0 = 0), so on that array E[h²] − E[h]² is
  the mean squared deviation; and a sum over 100000 rows is the sum of its 50 block sums. The aggregation and the
  in-degree are the same operations on both sides and are never opened (Cross.lean). No use is made of the
  precondition beyond the frames.
-/
import proofs.«112482_j24842090840540_1_alg».proof.Defs
import proofs.«112482_j24842090840540_1_alg».proof.Proof.Gen.Kernel
import proofs.«112482_j24842090840540_1_alg».proof.Proof.Gen.Kernel.Skeleton
import proofs.«112482_j24842090840540_1_alg».proof.Proof.Gen.Kernel.Launch
import proofs.«112482_j24842090840540_1_alg».proof.Proof.Gen.Kernel.Points
import proofs.«112482_j24842090840540_1_alg».proof.Proof.Gen.Kernel.Frame
import proofs.«112482_j24842090840540_1_alg».proof.Proof.Gen.KernelIdeal
import proofs.«112482_j24842090840540_1_alg».proof.Proof.Gen.KernelIdeal.Skeleton
import proofs.«112482_j24842090840540_1_alg».proof.Proof.Gen.KernelIdeal.Launch
import proofs.«112482_j24842090840540_1_alg».proof.Proof.Gen.KernelIdeal.Points
import proofs.«112482_j24842090840540_1_alg».proof.Proof.Gen.KernelIdeal.Frame
import proofs.«112482_j24842090840540_1_alg».proof.Proof.Gen.ReferenceIdeal
import proofs.«112482_j24842090840540_1_alg».proof.Proof.Gen.Pre_finite_inputs
import proofs.«112482_j24842090840540_1_alg».proof.Proof.KRun
import proofs.«112482_j24842090840540_1_alg».proof.Proof.KChain
import proofs.«112482_j24842090840540_1_alg».proof.Proof.RefRun
import proofs.«112482_j24842090840540_1_alg».proof.Proof.Meet
import proofs.«112482_j24842090840540_1_alg».proof.Proof.RefValue
import proofs.«112482_j24842090840540_1_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote nothing. -/
theorem preserves : Cert.preserves_Kernel_KernelIdeal := trivial

set_option maxHeartbeats 400000 in
/-- From memories agreeing on the arguments both programs end with the same result array: the kernel's at its closed
    term of the arguments, the reference's at its own, and the two terms are one function of the arguments. -/
theorem algebraic : Cert.algebraic_KernelIdeal_ReferenceIdeal := by
  intro m ρ m' ρ' _ hagree
  refine ⟨fun c => Cert.KernelIdeal.KArr.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KChain.result m ρ c), (h c).2⟩)
      (Cert.KernelIdeal.KRun.run_named m ρ)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7, e8, e9⟩ := hagree c
    rw [e0, e1, e2, e3, e4, e5, e6, e7, e8, e9]
    beta_reduce
    exact Cert.Meet.values_agree_of
      (fun a0 a1 a2 a3 a4 a5 a6 a7 a8 a9 => Cert.ReferenceIdeal.RefValue.refOut_eq a0 a1 a2 a3 a4 a5 a6 a7 a8 a9)
      (fun a0 a1 a2 a3 a4 a5 a6 a7 a8 a9 => Cert.KernelIdeal.KValue.out_eq a0 a1 a2 a3 a4 a5 a6 a7 a8 a9)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
